-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v17_2)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v17_0)) (v3 : (c : Dev Cert.KernelIdeal.nD) → Buf (Elt Ideal) ((c.tc : Thread Cert.KernelIdeal.nD Cert.KernelIdeal.τ).loc Cert.KernelIdeal.main_v16_1)) (v4 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_2) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v17_0) = v2 c
          ∧ r.2.mem ((c.tc : Thread Cert.KernelIdeal.nD Cert.KernelIdeal.τ).loc Cert.KernelIdeal.main_v16_1) = v3 c
          ∧ r.2.mem ((c.tc : Thread Cert.KernelIdeal.nD Cert.KernelIdeal.τ).loc Cert.KernelIdeal.main_v17_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v89) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part7 {F : FTy → Type} [FloatOps F] (main_v118 : IVec S_ 1) (main_v119 : FVec F S1024 .f32) : IVec S_ 1 :=
  let main_cst_46 : FVec F S_ .f32 := constant S_ .f32 0x7F800000#32
  let main_v120 : FVec F S1024 .f32 := broadcastInDim S1024 ![] bcast_S_S1024 main_cst_46
  let main_v121 : IVec S1024 1 := cmpf .olt main_v119 main_v120
  let main_c_47 : IVec S_ 1 := constantI S_ 1 1#1
  let main_v122 : IVec S_ 1 := (fun x v => Host.reduce IntOp.andi x v reducesTo_S1024_S_d0 h_S_) main_v121 main_c_47
  let main_v123 : IVec S_ 1 := andi main_v118 main_v122
  main_v123

def fn_part6 {F : FTy → Type} [FloatOps F] (main_arg21 : FVec F S2048x1024 .f32) (main_arg22 : FVec F S2048 .f32) (main_arg23 : FVec F S1024x2048 .f32) (main_arg24 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S2048x1024 .f32 := Host.absf main_arg21
  let main_cst_40 : FVec F S_ .f32 := constant S_ .f32 0x7F800000#32
  let main_v105 : FVec F S2048x1024 .f32 := broadcastInDim S2048x1024 ![] bcast_S_S2048x1024 main_cst_40
  let main_v106 : IVec S2048x1024 1 := cmpf .olt main_v104 main_v105
  let main_c_41 : IVec S_ 1 := constantI S_ 1 1#1
  let main_v107 : IVec S_ 1 := (fun x v => Host.reduce IntOp.andi x v reducesTo_S2048x1024_S_d0_1 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S1024x2048 .f32 := Host.absf main_arg23
  let main_cst_44 : FVec F S_ .f32 := constant S_ .f32 0x7F800000#32
  let main_v115 : FVec F S1024x2048 .f32 := broadcastInDim S1024x2048 ![] bcast_S_S1024x2048 main_cst_44
  let main_v116 : IVec S1024x2048 1 := cmpf .olt main_v114 main_v115
  let main_c_45 : IVec S_ 1 := constantI S_ 1 1#1
  let main_v117 : IVec S_ 1 := (fun x v => Host.reduce IntOp.andi x v reducesTo_S1024x2048_S_d0_1 h_S_) main_v116 main_c_45
  let main_v118 : IVec S_ 1 := andi main_v113 main_v117
  let main_v119 : FVec F S1024 .f32 := Host.absf main_arg24
  fn_part7 (F := F) main_v118 main_v119

def fn_part5 {F : FTy → Type} [FloatOps F] (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v83 : IVec S_ 1) (main_v84 : FVec F S1024x2048 .f32) (main_cst_32 : FVec F S_ .f32) : IVec S_ 1 :=
  let main_v85 : FVec F S1024x2048 .f32 := broadcastInDim S1024x2048 ![] bcast_S_S1024x2048 main_cst_32
  let main_v86 : IVec S1024x2048 1 := cmpf .olt main_v84 main_v85
  let main_c_33 : IVec S_ 1 := constantI S_ 1 1#1
  let main_v87 : IVec S_ 1 := (fun x v => Host.reduce IntOp.andi x v reducesTo_S1024x2048_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x2048 .f32 := Host.absf main_arg19
  let main_cst_36 : FVec F S_ .f32 := constant S_ .f32 0x7F800000#32
  let main_v95 : FVec F S1024x2048 .f32 := broadcastInDim S1024x2048 ![] bcast_S_S1024x2048 main_cst_36
  let main_v96 : IVec S1024x2048 1 := cmpf .olt main_v94 main_v95
  let main_c_37 : IVec S_ 1 := constantI S_ 1 1#1
  let main_v97 : IVec S_ 1 := (fun x v => Host.reduce IntOp.andi x v reducesTo_S1024x2048_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x2048 .f32 := Host.absf main_arg15
  let main_cst_28 : FVec F S_ .f32 := constant S_ .f32 0x7F800000#32
  let main_v75 : FVec F S1024x2048 .f32 := broadcastInDim S1024x2048 ![] bcast_S_S1024x2048 main_cst_28
  let main_v76 : IVec S1024x2048 1 := cmpf .olt main_v74 main_v75
  let main_c_29 : IVec S_ 1 := constantI S_ 1 1#1
  let main_v77 : IVec S_ 1 := (fun x v => Host.reduce IntOp.andi x v reducesTo_S1024x2048_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x2048 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x2048 .f32 := Host.absf main_arg11
  let main_cst_20 : FVec F S_ .f32 := constant S_ .f32 0x7F800000#32
  let main_v55 : FVec F S1024x2048 .f32 := broadcastInDim S1024x2048 ![] bcast_S_S1024x2048 main_cst_20
  let main_v56 : IVec S1024x2048 1 := cmpf .olt main_v54 main_v55
  let main_c_21 : IVec S_ 1 := constantI S_ 1 1#1
  let main_v57 : IVec S_ 1 := (fun x v => Host.reduce IntOp.andi x v reducesTo_S1024x2048_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x2048 .f32 := Host.absf main_arg13
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S1024x2048 .f32) (main_arg8 : FVec F S1024 .f32) (main_arg9 : FVec F S1024x2048 .f32) (main_arg10 : FVec F S1024 .f32) (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S4096x1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096x1024 : Shape := ⟨2, ![4096, 1024]⟩
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S4096x2048 : Shape := ⟨2, ![4096, 2048]⟩
abbrev S4096 : Shape := ⟨1, ![4096]⟩
abbrev S1x4096 : Shape := ⟨2, ![1, 4096]⟩
abbrev S1x2048 : Shape := ⟨2, ![1, 2048]⟩
abbrev S1x1024 : Shape := ⟨2, ![1, 1024]⟩
abbrev S256x1024 : Shape := ⟨2, ![256, 1024]⟩
abbrev S256x4096 : Shape := ⟨2, ![256, 4096]⟩
abbrev S128x1024 : Shape := ⟨2, ![128, 1024]⟩
abbrev S128x4096 : Shape := ⟨2, ![128, 4096]⟩
abbrev S128x2048 : Shape := ⟨2, ![128, 2048]⟩

abbrev nBuf : Space → Nat
  | .hbm => 46
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x2048, .f32⟩
  | .hbm, ⟨12, _⟩ => ⟨S1024, .f32⟩
  | .hbm, ⟨13, _⟩ => ⟨S1024x2048, .f32⟩
  | .hbm, ⟨14, _⟩ => ⟨S1024, .f32⟩
  | .hbm, ⟨15, _⟩ => ⟨S1024x2048, .f32⟩
  | .hbm, ⟨16, _⟩ => ⟨S1024, .f32⟩
  | .hbm, ⟨17, _⟩ => ⟨S1024x2048, .f32⟩
  | .hbm, ⟨18, _⟩ => ⟨S1024, .f32⟩
  | .hbm, ⟨19, _⟩ => ⟨S1024x2048, .f32⟩
  | .hbm, ⟨20, _⟩ => ⟨S1024, .f32⟩
  | .hbm, ⟨21, _⟩ => ⟨S2048x1024, .f32⟩
  | .hbm, ⟨22, _⟩ => ⟨S2048, .f32⟩
  | .hbm, ⟨23, _⟩ => ⟨S1024x2048, .f32⟩
  | .hbm, ⟨24, _⟩ => ⟨S1024, .f32⟩
  | .hbm, ⟨25, _⟩ => ⟨S4096x2048, .f32⟩
  | .hbm, ⟨26, _⟩ => ⟨S4096x2048, .bf16⟩
  | .hbm, ⟨27, _⟩ => ⟨S4096x1024, .bf16⟩
  | .hbm, ⟨28, _⟩ => ⟨S4096x1024, .bf16⟩
  | .hbm, ⟨29, _⟩ => ⟨S4096, .f32⟩
  | .hbm, ⟨30, _⟩ => ⟨S1x4096, .f32⟩
  | .hbm, ⟨31, _⟩ => ⟨S4096x2048, .f32⟩
  | .hbm, ⟨32, _⟩ => ⟨S4096x2048, .bf16⟩
  | .hbm, ⟨33, _⟩ => ⟨S4096x1024, .bf16⟩
  | .hbm, ⟨34, _⟩ => ⟨S4096x1024, .bf16⟩
  | .hbm, ⟨35, _⟩ => ⟨S4096, .f32⟩
  | .hbm, ⟨36, _⟩ => ⟨S1x4096, .f32⟩
  | .hbm, ⟨37, _⟩ => ⟨S2048x1024, .bf16⟩
  | .hbm, ⟨38, _⟩ => ⟨S1x2048, .f32⟩
  | .hbm, ⟨39, _⟩ => ⟨S1024x2048, .bf16⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S4096x1024, .bf16⟩
  | .local _ .vmem, ⟨20, _⟩ => ⟨S4096x1024, .bf16⟩
  | .local _ .vmem, ⟨21, _⟩ => ⟨S1x4096, .f32⟩
  | .local _ .vmem, ⟨22, _⟩ => ⟨S2048x1024, .bf16⟩
  | .local _ .vmem, ⟨23, _⟩ => ⟨S1x2048, .f32⟩
  | .local _ .vmem, ⟨24, _⟩ => ⟨S1024x2048, .bf16⟩
  | .local _ .vmem, ⟨25, _⟩ => ⟨S1x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16_0 : Ref sig .tc := ⟨.hbm, 41, rfl⟩
abbrev main_v16_1 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  concatenates_S1024x2048_S1024x2048_S1024x2048_S1024x2048_S4096x2048_d0 : Shape.Concatenates [S1024x2048, S1024x2048, S1024x2048, S1024x2048] S4096x2048 0
  bitsLt_bf16_f32 : FTy.bits .bf16 < FTy.bits .f32
  slices_S4096x2048_S4096x1024_0_0 : S4096x2048.Slices ![0, 0] S4096x1024
  slices_S4096x2048_S4096x1024_0_1024 : S4096x2048.Slices ![0, 1024] S4096x1024
  concatenates_S1024_S1024_S1024_S1024_S4096_d0 : Shape.Concatenates [S1024, S1024, S1024, S1024] S4096 0
  shapeCasts_S4096_S1x4096 : S4096.ShapeCasts S1x4096
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S256x1024_S4096x1024_S256x4096_1_1_0_0_n_n_wf : DotDims.WF S256x1024 S4096x1024 S256x4096 [1] [1] [0] [0] [] []
  dot_S128x1024_S4096x1024_S128x4096_1_1_0_0_n_n_wf : DotDims.WF S128x1024 S4096x1024 S128x4096 [1] [1] [0] [0] [] []
  dot_S128x1024_S2048x1024_S128x2048_1_1_0_0_n_n_wf : DotDims.WF S128x1024 S2048x1024 S128x2048 [1] [1] [0] [0] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .f32 = 32 ∨ (Rect.block (s := S4096x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .f32 = 32 ∨ (Rect.block (s := S4096x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S4096x1024.size a
  hwx1_2 : ∀ i : grid1.Coords, EltTy.bits .f32 = 32 ∨ (Rect.block (s := S4096x1024) S128x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x1024.size a ≤ S4096x1024.size a
  hwx1_4 : ∀ i : grid1.Coords, EltTy.bits .bf16 = 32 ∨ (Rect.block (s := S4096x1024) S4096x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x1024.size a ≤ S2048x1024.size a
  hwx1_6 : ∀ i : grid1.Coords, EltTy.bits .bf16 = 32 ∨ (Rect.block (s := S2048x1024) S2048x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x2048.size a ≤ S1024x2048.size a
  hwx1_8 : ∀ i : grid1.Coords, EltTy.bits .bf16 = 32 ∨ (Rect.block (s := S1024x2048) S1024x2048.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x1024.size a ≤ S4096x1024.size a
  hwx1_10 : ∀ i : grid1.Coords, EltTy.bits .f32 = 32 ∨ (Rect.block (s := S4096x1024) S128x1024.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x1024.size a ≤ S4096x1024.size a
  hwx1_11 : ∀ i : grid1.Coords, EltTy.bits .f32 = 32 ∨ (Rect.block (s := S4096x1024) S128x1024.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S128x1024.size a ≤ S4096x1024.size a
  hwx1_12 : ∀ i : grid1.Coords, EltTy.bits .f32 = 32 ∨ (Rect.block (s := S4096x1024) S128x1024.size (cc1_transform_12 i) (hinb1_12 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v16_0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S4096x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S2048x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1024x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v17_0) S128x1024.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v17_1) S128x1024.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v17_2) S128x1024.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S4096x2048 : Shape := ⟨2, ![4096, 2048]⟩
abbrev S1x1024 : Shape := ⟨2, ![1, 1024]⟩
abbrev S_ : Shape := ⟨0, ![]⟩
abbrev S1x2048 : Shape := ⟨2, ![1, 2048]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S1024x2048, .f32⟩
  | 6 => ⟨S1024, .f32⟩
  | 7 => ⟨S1024x2048, .f32⟩
  | 8 => ⟨S1024, .f32⟩
  | 9 => ⟨S1024x2048, .f32⟩
  | 10 => ⟨S1024, .f32⟩
  | 11 => ⟨S1024x2048, .f32⟩
  | 12 => ⟨S1024, .f32⟩
  | 13 => ⟨S1024x2048, .f32⟩
  | 14 => ⟨S1024, .f32⟩
  | 15 => ⟨S1024x2048, .f32⟩
  | 16 => ⟨S1024, .f32⟩
  | 17 => ⟨S1024x2048, .f32⟩
  | 18 => ⟨S1024, .f32⟩
  | 19 => ⟨S1024x2048, .f32⟩
  | 20 => ⟨S1024, .f32⟩
  | 21 => ⟨S2048x1024, .f32⟩
  | 22 => ⟨S2048, .f32⟩
  | 23 => ⟨S1024x2048, .f32⟩
  | 24 => ⟨S1024, .f32⟩
  | 25 => ⟨S4096x2048, .f32⟩
  | 26 => ⟨S2048x1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S2048x1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S2048x1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S2048x1024, .f32⟩
  | 59 => ⟨S4096x1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x2048, .f32⟩
  | 77 => ⟨S2048x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S2048x1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S2048x1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S2048x1024, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S1024x2048, .f32⟩
  | _ => ⟨S4096x1024, .f32⟩

abbrev hbmTy0_1 (i : Nat) : BufTy := match i % 128 with
  | 0 => ⟨S4096x2048, .f32⟩
  | 1 => ⟨S1x2048, .f32⟩
  | 2 => ⟨S4096x2048, .f32⟩
  | 3 => ⟨S4096x2048, .f32⟩
  | 4 => ⟨S_, .f32⟩
  | 5 => ⟨S4096x2048, .f32⟩
  | 6 => ⟨S4096x2048, .f32⟩
  | 7 => ⟨S2048x1024, .f32⟩
  | 8 => ⟨S4096x1024, .f32⟩
  | 9 => ⟨S1x1024, .f32⟩
  | 10 => ⟨S4096x1024, .f32⟩
  | 11 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_cst_4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_5 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_7 : Ref sig .tc := ⟨.hbm, 97, rfl⟩
abbrev main_v64 : Ref sig .tc := ⟨.hbm, 98, rfl⟩
abbrev main_v65 : Ref sig .tc := ⟨.hbm, 99, rfl⟩
abbrev main_cst_8 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_9 : Ref sig .tc := ⟨.hbm, 116, rfl⟩
abbrev main_v81 : Ref sig .tc := ⟨.hbm, 117, rfl⟩
abbrev main_v82 : Ref sig .tc := ⟨.hbm, 118, rfl⟩
abbrev main_cst_10 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call0_cst : Ref sig .tc := ⟨.hbm, 132, rfl⟩
abbrev main_call0_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x1024_S4096x1024_1_0_0_1_n_n_wf : DotDims.WF S4096x2048 S2048x1024 S4096x1024 [1] [0] [0] [1] [] []
  dot_S4096x1024_S1024x2048_S4096x2048_1_0_0_1_n_n_wf : DotDims.WF S4096x1024 S1024x2048 S4096x2048 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf

class Facts : Prop extends Facts₀ where

variable [Facts]
-- ==== Proof.KRegion0.lean ====
/-
  The first pallas_call (the first cell), on any contents `V` of the TensorCore's buffers at its entry.

  The body loads six whole staging buffers — a 256-row block of the input, of the recurrent state and of the cell
  state, both halves of the packed gate weight, and the packed bias — and stores two whole 256-row blocks: the
  new hidden block and the new cell block, each one pure function of the loads. So at every grid point the two
  output buffers end at those functions of the point's input blocks, and the inputs' buffers are left as found.
-/
import proofs.«125369_j48885317763708_2_alg».proof.Proof.Gen.Kernel.Launch
import proofs.«125369_j48885317763708_2_alg».proof.Proof.Gen.Kernel.Skeleton
import proofs.«125369_j48885317763708_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: when it is not fetched
    its block index has not moved and the body left the buffer as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: when it is not fetched
    its block index has not moved and the body left the buffer as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: when it is not fetched
    its block index has not moved and the body left the buffer as found. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: when it is not fetched
    its block index has not moved and the body left the buffer as found. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: when it is not fetched
    its block index has not moved and the body left the buffer as found. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: when it is not fetched
    its block index has not moved and the body left the buffer as found. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a 256-row block, of a weight half, and of the bias row. -/
abbrev rA0 : Rect S256x1024 := Rect.unit (s := S256x1024) ![0, 0] S256x1024.size inb_S256x1024_S256x1024_0_0
abbrev rW0 : Rect S4096x1024 := Rect.unit (s := S4096x1024) ![0, 0] S4096x1024.size inb_S4096x1024_S4096x1024_0_0
abbrev rB0 : Rect S1x4096 := Rect.unit (s := S1x4096) ![0, 0] S1x4096.size inb_S1x4096_S1x4096_0_0

/-- The new hidden block's buffer after the body: one whole store of the hidden payload of the loads. -/
def out0_6 (x0 x1 : Vec F S256x1024 .f32) (x3 x4 : Vec F S4096x1024 .bf16) (x5 : Vec F S1x4096 .f32) : Vec F S256x1024 .f32 :=
  View.canon [⟨rA0, k0_pay3 (View.ld x0 rA0) (View.ld x1 rA0) (View.ld x3 rW0) (View.ld x4 rW0) (View.ld x5 rB0)⟩]

/-- The new cell block's buffer after the body: one whole store of the cell payload of the loads. -/
def out0_7 (x0 x1 x2 : Vec F S256x1024 .f32) (x3 x4 : Vec F S4096x1024 .bf16) (x5 : Vec F S1x4096 .f32) : Vec F S256x1024 .f32 :=
  View.canon [⟨rA0, k0_pay4 (View.ld x0 rA0) (View.ld x1 rA0) (View.ld x3 rW0) (View.ld x4 rW0) (View.ld x5 rB0) (View.ld x2 rA0)⟩]

/-- One whole store covers the buffer. -/
theorem cover0 (p0 : Vec F S256x1024 .f32) (y : S256x1024.Idx) :
    ∃ pc ∈ ([⟨rA0, p0⟩] : List (View.Piece (Elt F) S256x1024 .f32)), y ∈ pc.1.set :=
  View.cover_of_tiled [⟨rA0, p0⟩] S256x1024.size (by rfl) y

set_option maxHeartbeats 1000000 in
/-- The body on whole staging buffers, the inputs' at contents `x0 … x5` and the outputs' at anything, runs to its
    return with the inputs' buffers as they were and the outputs' at the two payloads of the inputs. -/
theorem sound_kernel0 (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x3 x4 x5) ∗ owns (c : Thread nD τ) arg8 fullShare (out0_7 x0 x1 x2 x3 x4 x5)) -∗ K ⟨⟩))
      ⊢ wp frame (wpE (defs₀ (F := F)) Variants.none c none) E (cc0__lstm1_kernel i arg1 harg1 arg2 harg2 arg3 harg3 arg4 harg4 arg5 harg5 arg6 harg6 arg7 harg7 arg8 harg8) K := by
  simp only [cc0__lstm1_kernel_eq_skeleton]; unfold cc0__lstm1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The call's proof data on core `c`: its arrays as found; after the body at a point each input's buffer at its
    block and the two outputs' at the payloads of the point's input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the first call, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second pallas_call (the second cell and the head), on any contents `V` of the TensorCore's buffers at its entry.

  The body loads ten whole staging buffers — a 128-row block of the first cell's new hidden array, of the second
  recurrent state and of the second cell state, both halves of the second packed gate weight and its packed bias,
  the two head weights and their biases — and stores three whole 128-row blocks: the new hidden block, the new
  cell block, and the head's output block, each one pure function of the loads.
-/
import proofs.«125369_j48885317763708_2_alg».proof.Proof.Gen.Kernel.Launch
import proofs.«125369_j48885317763708_2_alg».proof.Proof.Gen.Kernel.Skeleton
import proofs.«125369_j48885317763708_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the loads and stores. -/
abbrev rA1 : Rect S128x1024 := Rect.unit (s := S128x1024) ![0, 0] S128x1024.size inb_S128x1024_S128x1024_0_0
abbrev rWg1 : Rect S4096x1024 := Rect.unit (s := S4096x1024) ![0, 0] S4096x1024.size inb_S4096x1024_S4096x1024_0_0
abbrev rBg1 : Rect S1x4096 := Rect.unit (s := S1x4096) ![0, 0] S1x4096.size inb_S1x4096_S1x4096_0_0
abbrev rW31 : Rect S2048x1024 := Rect.unit (s := S2048x1024) ![0, 0] S2048x1024.size inb_S2048x1024_S2048x1024_0_0
abbrev rB31 : Rect S1x2048 := Rect.unit (s := S1x2048) ![0, 0] S1x2048.size inb_S1x2048_S1x2048_0_0
abbrev rW41 : Rect S1024x2048 := Rect.unit (s := S1024x2048) ![0, 0] S1024x2048.size inb_S1024x2048_S1024x2048_0_0
abbrev rB41 : Rect S1x1024 := Rect.unit (s := S1x1024) ![0, 0] S1x1024.size inb_S1x1024_S1x1024_0_0

/-- The new hidden block's buffer after the body. -/
def out1_10 (x0 x1 : Vec F S128x1024 .f32) (x3 x4 : Vec F S4096x1024 .bf16) (x5 : Vec F S1x4096 .f32) : Vec F S128x1024 .f32 :=
  View.canon [⟨rA1, k1_pay4 (View.ld x0 rA1) (View.ld x1 rA1) (View.ld x3 rWg1) (View.ld x4 rWg1) (View.ld x5 rBg1)⟩]

/-- The new cell block's buffer after the body. -/
def out1_11 (x0 x1 x2 : Vec F S128x1024 .f32) (x3 x4 : Vec F S4096x1024 .bf16) (x5 : Vec F S1x4096 .f32) : Vec F S128x1024 .f32 :=
  View.canon [⟨rA1, k1_pay5 (View.ld x0 rA1) (View.ld x1 rA1) (View.ld x3 rWg1) (View.ld x4 rWg1) (View.ld x5 rBg1) (View.ld x2 rA1)⟩]

/-- The head's output block's buffer after the body. -/
def out1_12 (x0 x1 : Vec F S128x1024 .f32) (x3 x4 : Vec F S4096x1024 .bf16) (x5 : Vec F S1x4096 .f32)
    (x6 : Vec F S2048x1024 .bf16) (x7 : Vec F S1x2048 .f32) (x8 : Vec F S1024x2048 .bf16) (x9 : Vec F S1x1024 .f32) : Vec F S128x1024 .f32 :=
  View.canon [⟨rA1, k1_pay1 (k1_pay6 (View.ld x0 rA1) (View.ld x1 rA1) (View.ld x3 rWg1) (View.ld x4 rWg1) (View.ld x5 rBg1) (View.ld x6 rW31))
    (View.ld x7 rB31) (View.ld x8 rW41) (View.ld x9 rB41)⟩]

/-- One whole store covers the buffer. -/
theorem cover1 (p0 : Vec F S128x1024 .f32) (y : S128x1024.Idx) :
    ∃ pc ∈ ([⟨rA1, p0⟩] : List (View.Piece (Elt F) S128x1024 .f32)), y ∈ pc.1.set :=
  View.cover_of_tiled [⟨rA1, p0⟩] S128x1024.size (by rfl) y

set_option maxHeartbeats 1000000 in
/-- The body on whole staging buffers, the inputs' at contents `x0 … x9` and the outputs' at anything, runs to its
    return with the inputs' buffers as they were and the outputs' at the three payloads of the inputs. -/
theorem sound_kernel1 (c : Dev nD) (E : Set ℕ) (i : grid1.Coords)
    (arg1 : Memref sig .tc .vmem S128x1024 .f32) (harg1 : arg1.IsWhole)
    (arg2 : Memref sig .tc .vmem S128x1024 .f32) (harg2 : arg2.IsWhole)
    (arg3 : Memref sig .tc .vmem S128x1024 .f32) (harg3 : arg3.IsWhole)
    (arg4 : Memref sig .tc .vmem S4096x1024 .bf16) (harg4 : arg4.IsWhole)
    (arg5 : Memref sig .tc .vmem S4096x1024 .bf16) (harg5 : arg5.IsWhole)
    (arg6 : Memref sig .tc .vmem S1x4096 .f32) (harg6 : arg6.IsWhole)
    (arg7 : Memref sig .tc .vmem S2048x1024 .bf16) (harg7 : arg7.IsWhole)
    (arg8 : Memref sig .tc .vmem S1x2048 .f32) (harg8 : arg8.IsWhole)
    (arg9 : Memref sig .tc .vmem S1024x2048 .bf16) (harg9 : arg9.IsWhole)
    (arg10 : Memref sig .tc .vmem S1x1024 .f32) (harg10 : arg10.IsWhole)
    (arg11 : Memref sig .tc .vmem S128x1024 .f32) (harg11 : arg11.IsWhole)
    (arg12 : Memref sig .tc .vmem S128x1024 .f32) (harg12 : arg12.IsWhole)
    (arg13 : Memref sig .tc .vmem S128x1024 .f32) (harg13 : arg13.IsWhole)
    (x0 x1 x2 : Vec F S128x1024 .f32) (x3 x4 : Vec F S4096x1024 .bf16) (x5 : Vec F S1x4096 .f32)
    (x6 : Vec F S2048x1024 .bf16) (x7 : Vec F S1x2048 .f32) (x8 : Vec F S1024x2048 .bf16) (x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x3 x4 x5) ∗ owns (c : Thread nD τ) arg12 fullShare (out1_11 x0 x1 x2 x3 x4 x5)
            ∗ owns (c : Thread nD τ) arg13 fullShare (out1_12 x0 x1 x3 x4 x5 x6 x7 x8 x9)) -∗ K ⟨⟩))
      ⊢ wp frame (wpE (defs₀ (F := F)) Variants.none c none) E (cc1__lstm2_mlp_kernel i arg1 harg1 arg2 harg2 arg3 harg3 arg4 harg4 arg5 harg5 arg6 harg6 arg7 harg7 arg8 harg8 arg9 harg9 arg10 harg10 arg11 harg11 arg12 harg12 arg13 harg13) K := by
  simp only [cc1__lstm2_mlp_kernel_eq_skeleton]; unfold cc1__lstm2_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  isplitl [H11]
  · iexists _; isplitr
    swap; · iexact H11
    ipureintro
    exact View.read_writes_eq_canon _ _ _ (cover1 _)
  iexists _; isplitr
  swap; · iexact H12
  ipureintro
  exact View.read_writes_eq_canon _ _ _ (cover1 _)

/-- The call's proof data on core `c`: its arrays as found; after the body at a point each input's buffer at its
    block and the three outputs' at the payloads of the point's input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 3 t) (iblk1 V c 4 t) (iblk1 V c 5 t)
    | ⟨11, _⟩ => out1_11 (iblk1 V c 0 t) (iblk1 V c 1 t) (iblk1 V c 2 t) (iblk1 V c 3 t) (iblk1 V c 4 t) (iblk1 V c 5 t)
    | ⟨12, _⟩ => out1_12 (iblk1 V c 0 t) (iblk1 V c 1 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 3 t) (iblk1 V c 4 t) (iblk1 V c 5 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) := by dsimp only [dat1]
theorem after1_12 (c : Dev nD) (t : Fin cfg1.N) : (dat1 V c).after 12 t = out1_12 (iblk1 V c 0 t) (iblk1 V c 1 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole run of @main: the host operations that pack the weights, then the two pallas_calls, as three segments
  over one thread state — every unscoped buffer of the TensorCore held at the contents of the current boundary.
  The boundary contents are a fold from the launch memory: the host operations' results, then each call's arrays at
  what its write-backs leave and every other buffer as it was. The run's conclusion is that every weakly fair
  execution terminates with every unscoped buffer at the last boundary's contents.
-/
import proofs.«125369_j48885317763708_2_alg».proof.Proof.KRegion0
import proofs.«125369_j48885317763708_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation allocates. -/
theorem hostOps0_freshH : (hostOps0 : List (HloOp τ sig (Elt F))).Forall fun op => op.fresh = ∅ := by
  simp only [List.Forall]; repeat' constructor

/-- Core `c`'s buffers at launch. -/
abbrev Wb0 : Dev nD → Valuation τ sig (Elt F) := fun c b => (s₀ m ρ).mem ((c : Dev nD), b)
/-- After the host operations (the first call's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the first call's exit: its arrays at what the pipeline leaves, every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hFb0 (c : Dev nD) (w : Fin cfg0.W) : (dat0 (Vb1 m ρ) c).arrAt w cfg0.N = Vb2 m ρ c (Pipeline.arrRef spec0 w) :=
  (Wb2_arr m ρ c w).symm
theorem hrestb0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- At the second call's exit: its arrays at what the pipeline leaves, every other buffer as entered. -/
def Wb3 (c : Dev nD) : Valuation τ sig (Elt F) :=
  Pipeline.withArrays spec1 c (Wb2 m ρ c) fun w => (dat1 (Vb2 m ρ) c).arrAt w cfg1.N
theorem Wb3_arr (c : Dev nD) (w : Fin cfg1.W) :
    Wb3 m ρ c (Proc.devRef .tc (Pipeline.arrRef spec1 w)) = (dat1 (Vb2 m ρ) c).arrAt w cfg1.N := by
  unfold Wb3; exact Pipeline.withArrays_arr spec1 launch1.win.arr_inj c _ _ w
theorem Wb3_of_ne (c : Dev nD) (b : Ref sig .tc) (hb : ∀ w, Pipeline.arrRef spec1 w ≠ b) :
    Wb3 m ρ c (Proc.devRef .tc b) = Wb2 m ρ c (Proc.devRef .tc b) := by
  unfold Wb3; exact Pipeline.withArrays_of_ne spec1 c _ _ b hb
abbrev Vb3 : (c : Dev nD) → (b : Ref sig .tc) → Buf (Elt F) ((c : Thread nD τ).loc b) := fun c b => Wb3 m ρ c b
theorem hFb1 (c : Dev nD) (w : Fin cfg1.W) : (dat1 (Vb2 m ρ) c).arrAt w cfg1.N = Vb3 m ρ c (Pipeline.arrRef spec1 w) :=
  (Wb3_arr m ρ c w).symm
theorem hrestb1 (c : Dev nD) : ∀ b, b ∉ Finset.univ.image (Pipeline.arrRef spec1) → Vb3 m ρ c b = Vb2 m ρ c b :=
  fun b hb => Wb3_of_ne m ρ c b fun w e => hb (Finset.mem_image.mpr ⟨w, Finset.mem_univ _, e⟩)

/-- No pallas_call has a prefetched table. -/
abbrev admH : (p : Fin 2) → (pcfgs (F := F) p).Adm := fun p => (cfgs p).toPCfg_adm
/-- Each call's proof data at its entry contents. -/
def pdatsH : (p : Fin 2) → (c : Dev nD) → Dat τ (Elt F) Unit ℕ (UR sig nD τ) ℕ (Pipeline.pin (pcfgs (F := F)) admH p) c
  | ⟨0, _⟩ => fun c => dat0 (Vb1 m ρ) c
  | ⟨1, _⟩ => fun c => dat1 (Vb2 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment over the unscoped buffers. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wb3 m ρ c) ∗ ∃ r, prngReg c r)

set_option backward.isDefEq.respectTransparency.types false in
/-- Pallas call 0 over the thread state: entered with every unscoped buffer at the contents before it, left with
    them at the contents after it. Its arrays are split out of the unscoped buffers and put back at the exit
    contents; the generator register goes into the invariant and comes out; nothing is owed; the kernel has no
    semaphore of its own. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ LH lvH 0 fun _ _ => rfl
  pre c := iprop(StableHlo.held (c : Thread nD τ) (Pipeline.ucRefs τ sig) (Wb1 m ρ c) ∗ RH c)
  post c := iprop(StableHlo.held (c : Thread nD τ) (Pipeline.ucRefs τ sig) (Wb2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vb1 m ρ c) (Vb2 m ρ c) ((pdatsH m ρ 0 c).arrAt · cfg0.N) (hFb0 m ρ c) (hrestb0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at the contents before it, left with
    them at the contents after it. Its arrays are split out of the unscoped buffers and put back at the exit
    contents; the generator register goes into the invariant and comes out; nothing is owed; the kernel has no
    semaphore of its own. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vb2 m ρ) c).loose
  hwaits := Pipeline.hwaits_of_owed_zero _ _ _ _ LH lvH 1 fun _ _ => rfl
  pre c := iprop(StableHlo.held (c : Thread nD τ) (Pipeline.ucRefs τ sig) (Wb2 m ρ c) ∗ RH c)
  post c := iprop(StableHlo.held (c : Thread nD τ) (Pipeline.ucRefs τ sig) (Wb3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vb2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vb2 m ρ c) (Vb3 m ρ c) ((pdatsH m ρ 1 c).arrAt · cfg1.N) (hFb1 m ρ c) (hrestb1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segsH : List (Pipeline.Seg (pcfgs (F := F)) admH (pdatsH m ρ) () defs₀ 𝒱H LH lvH) :=
  [ .host (hsegH hostOps0 hostOps0_sub hostOps0_freshH (Wb0 m ρ)),
    .region (regH0 m ρ),
    .region (regH1 m ρ) ]
theorem main_runH (c : Dev nD) : main (F := F) c = Pipeline.Seg.run (segsH m ρ) := (main_chain c).trans (by chain_rfl)

set_option backward.isDefEq.respectTransparency.types false in
/-- THE RUN: from any memory with zero counters, every weakly fair execution of @main terminates, nothing faulting,
    and every final state has every unscoped buffer of every core at the last boundary's contents. -/
theorem runH : θ_run defs (onTc (τ := τ) (main (F := F))) ⟨m, fun _ => 0, ρ⟩ (fun r => ∀ c : Dev nD,
      ∀ b ∈ Pipeline.ucRefs τ sig, r.2.mem (((c : Thread nD τ)).1, b) = Wb3 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ RH c)) (Tₙ := TnH m ρ)
    (hch := ⟨fun _ => .rfl, fun _ => .rfl, fun _ => .rfl, fun c => by
      show iprop(StableHlo.held (c : Thread nD τ) (Pipeline.ucRefs τ sig) (Wb3 m ρ c) ∗ RH c)
        ⊢ (iprop(TnH m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb3 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb3 m ρ c) s')
      isplitl [Hh] <;> iassumption)
    (hQ := fun s h c => h c)

end Cert.Kernel.Hand

end
-- ==== Proof.KFrame.lean ====
/-
  The argument arrays end as launched.

  The boundary contents are a fold from the launch memory: the host operations, then each call's arrays replaced by
  what its write-backs leave. At an argument's buffer the fold walks back to the launch memory step by step. No host
  operation writes an argument: each writes only its own result. A call leaves every buffer that is none of its
  windows' arrays as it found it, and an INPUT window's array as it found it too: nothing is written back to an
  input, so its contents after the last grid point are its contents at entry. The first call reads arguments 0, 1
  and 3 through input windows, the second call arguments 2 and 4; every other argument is no window of either call.
  The run's conclusion, read at the twenty-five argument buffers, is then the frame statement.
-/
import proofs.«125369_j48885317763708_2_alg».proof.Proof.KRun
import proofs.«125369_j48885317763708_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that is no host operation's result is, after the host operations, as launched. -/
theorem Wb1_of (c : Dev nD) (r : Ref sig .tc) (h : r ∉ hostOps0_W) :
    Wb1 m ρ c (Proc.devRef .tc r) = Wb0 m ρ c (Proc.devRef .tc r) :=
  StableHlo.after_of_writes_sub hostOps0 _ hostOps0_writes h

/-! ## Each argument's buffer at the last boundary is the launch memory's -/

/-- Argument 0 is input window 0 of the first call and no window of the second. -/
theorem Wb3_main_arg0 (c : Dev nD) : Wb3 m ρ c (Proc.devRef .tc main_arg0) = m ((c : Thread nD τ).loc main_arg0) :=
  calc Wb3 m ρ c (Proc.devRef .tc main_arg0)
    _ = Wb2 m ρ c (Proc.devRef .tc main_arg0) := Wb3_of_ne m ρ c main_arg0 (by decide)
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := Wb1_of m ρ c main_arg0 (by decide)
    _ = m ((c : Thread nD τ).loc main_arg0) := rfl

/-- Argument 1 is input window 1 of the first call and no window of the second. -/
theorem Wb3_main_arg1 (c : Dev nD) : Wb3 m ρ c (Proc.devRef .tc main_arg1) = m ((c : Thread nD τ).loc main_arg1) :=
  calc Wb3 m ρ c (Proc.devRef .tc main_arg1)
    _ = Wb2 m ρ c (Proc.devRef .tc main_arg1) := Wb3_of_ne m ρ c main_arg1 (by decide)
    _ = Wb1 m ρ c (Proc.devRef .tc main_arg1) := (Wb2_arr m ρ c 1).trans (((dat0 (Vb1 m ρ) c).arrAt_in 1 rfl _).trans (A_eq0 (Vb1 m ρ) c 1))
    _ = Wb0 m ρ c (Proc.devRef .tc main_arg1) := Wb1_of m ρ c main_arg1 (by decide)
    _ = m ((c : Thread nD τ).loc main_arg1) := rfl

/-- Argument 2 is input window 1 of the second call and no window of the first. -/
theorem Wb3_main_arg2 (c : Dev nD) : Wb3 m ρ c (Proc.devRef .tc main_arg2) = m ((c : Thread nD τ).loc main_arg2) :=
  calc Wb3 m ρ c (Proc.devRef .tc main_arg2)
    _ = Wb2 m ρ c (Proc.devRef .tc main_arg2) := (Wb3_arr m ρ c 1).trans (((dat1 (Vb2 m ρ) c).arrAt_in 1 rfl _).trans (A_eq1 (Vb2 m ρ) c 1))
    _ = Wb1 m ρ c (Proc.devRef .tc main_arg2) := Wb2_of_ne m ρ c main_arg2 (by decide)
    _ = Wb0 m ρ c (Proc.devRef .tc main_arg2) := Wb1_of m ρ c main_arg2 (by decide)
    _ = m ((c : Thread nD τ).loc main_arg2) := rfl

/-- Argument 3 is input window 2 of the first call and no window of the second. -/
theorem Wb3_main_arg3 (c : Dev nD) : Wb3 m ρ c (Proc.devRef .tc main_arg3) = m ((c : Thread nD τ).loc main_arg3) :=
  calc Wb3 m ρ c (Proc.devRef .tc main_arg3)
    _ = Wb2 m ρ c (Proc.devRef .tc main_arg3) := Wb3_of_ne m ρ c main_arg3 (by decide)
    _ = Wb1 m ρ c (Proc.devRef .tc main_arg3) := (Wb2_arr m ρ c 2).trans (((dat0 (Vb1 m ρ) c).arrAt_in 2 rfl _).trans (A_eq0 (Vb1 m ρ) c 2))
    _ = Wb0 m ρ c (Proc.devRef .tc main_arg3) := Wb1_of m ρ c main_arg3 (by decide)
    _ = m ((c : Thread nD τ).loc main_arg3) := rfl

/-- Argument 4 is input window 2 of the second call and no window of the first. -/
theorem Wb3_main_arg4 (c : Dev nD) : Wb3 m ρ c (Proc.devRef .tc main_arg4) = m ((c : Thread nD τ).loc main_arg4) :=
  calc Wb3 m ρ c (Proc.devRef .tc main_arg4)
    _ = Wb2 m ρ c (Proc.devRef .tc main_arg4) := (Wb3_arr m ρ c 2).trans (((dat1 (Vb2 m ρ) c).arrAt_in 2 rfl _).trans (A_eq1 (Vb2 m ρ) c 2))
    _ = Wb1 m ρ c (Proc.devRef .tc main_arg4) := Wb2_of_ne m ρ c main_arg4 (by decide)
    _ = Wb0 m ρ c (Proc.devRef .tc main_arg4) := Wb1_of m ρ c main_arg4 (by decide)
    _ = m ((c : Thread nD τ).loc main_arg4) := rfl

/-- Argument 5 is no window of either call. -/
theorem Wb3_main_arg5 (c : Dev nD) : Wb3 m ρ c (Proc.devRef .tc main_arg5) = m ((c : Thread nD τ).loc main_arg5) :=
  calc Wb3 m ρ c (Proc.devRef .tc main_arg5)
    _ = Wb2 m ρ c (Proc.devRef .tc main_arg5) := Wb3_of_ne m ρ c main_arg5 (by decide)
    _ = Wb1 m ρ c (Proc.devRef .tc main_arg5) := Wb2_of_ne m ρ c main_arg5 (by decide)
    _ = Wb0 m ρ c (Proc.devRef .tc main_arg5) := Wb1_of m ρ c main_arg5 (by decide)
    _ = m ((c : Thread nD τ).loc main_arg5) := rfl

/-- Argument 6 is no window of either call. -/
theorem Wb3_main_arg6 (c : Dev nD) : Wb3 m ρ c (Proc.devRef .tc main_arg6) = m ((c : Thread nD τ).loc main_arg6) :=
  calc Wb3 m ρ c (Proc.devRef .tc main_arg6)
    _ = Wb2 m ρ c (Proc.devRef .tc main_arg6) := Wb3_of_ne m ρ c main_arg6 (by decide)
    _ = Wb1 m ρ c (Proc.devRef .tc main_arg6) := Wb2_of_ne m ρ c main_arg6 (by decide)
    _ = Wb0 m ρ c (Proc.devRef .tc main_arg6) := Wb1_of m ρ c main_arg6 (by decide)
    _ = m ((c : Thread nD τ).loc main_arg6) := rfl

/-- Argument 7 is no window of either call. -/
theorem Wb3_main_arg7 (c : Dev nD) : Wb3 m ρ c (Proc.devRef .tc main_arg7) = m ((c : Thread nD τ).loc main_arg7) :=
  calc Wb3 m ρ c (Proc.devRef .tc main_arg7)
    _ = Wb2 m ρ c (Proc.devRef .tc main_arg7) := Wb3_of_ne m ρ c main_arg7 (by decide)
    _ = Wb1 m ρ c (Proc.devRef .tc main_arg7) := Wb2_of_ne m ρ c main_arg7 (by decide)
    _ = Wb0 m ρ c (Proc.devRef .tc main_arg7) := Wb1_of m ρ c main_arg7 (by decide)
    _ = m ((c : Thread nD τ).loc main_arg7) := rfl

/-- Argument 8 is no window of either call. -/
theorem Wb3_main_arg8 (c : Dev nD) : Wb3 m ρ c (Proc.devRef .tc main_arg8) = m ((c : Thread nD τ).loc main_arg8) :=
  calc Wb3 m ρ c (Proc.devRef .tc main_arg8)
    _ = Wb2 m ρ c (Proc.devRef .tc main_arg8) := Wb3_of_ne m ρ c main_arg8 (by decide)
    _ = Wb1 m ρ c (Proc.devRef .tc main_arg8) := Wb2_of_ne m ρ c main_arg8 (by decide)
    _ = Wb0 m ρ c (Proc.devRef .tc main_arg8) := Wb1_of m ρ c main_arg8 (by decide)
    _ = m ((c : Thread nD τ).loc main_arg8) := rfl

/-- Argument 9 is no window of either call. -/
theorem Wb3_main_arg9 (c : Dev nD) : Wb3 m ρ c (Proc.devRef .tc main_arg9) = m ((c : Thread nD τ).loc main_arg9) :=
  calc Wb3 m ρ c (Proc.devRef .tc main_arg9)
    _ = Wb2 m ρ c (Proc.devRef .tc main_arg9) := Wb3_of_ne m ρ c main_arg9 (by decide)
    _ = Wb1 m ρ c (Proc.devRef .tc main_arg9) := Wb2_of_ne m ρ c main_arg9 (by decide)
    _ = Wb0 m ρ c (Proc.devRef .tc main_arg9) := Wb1_of m ρ c main_arg9 (by decide)
    _ = m ((c : Thread nD τ).loc main_arg9) := rfl

/-- Argument 10 is no window of either call. -/
theorem Wb3_main_arg10 (c : Dev nD) : Wb3 m ρ c (Proc.devRef .tc main_arg10) = m ((c : Thread nD τ).loc main_arg10) :=
  calc Wb3 m ρ c (Proc.devRef .tc main_arg10)
    _ = Wb2 m ρ c (Proc.devRef .tc main_arg10) := Wb3_of_ne m ρ c main_arg10 (by decide)
    _ = Wb1 m ρ c (Proc.devRef .tc main_arg10) := Wb2_of_ne m ρ c main_arg10 (by decide)
    _ = Wb0 m ρ c (Proc.devRef .tc main_arg10) := Wb1_of m ρ c main_arg10 (by decide)
    _ = m ((c : Thread nD τ).loc main_arg10) := rfl

/-- Argument 11 is no window of either call. -/
theorem Wb3_main_arg11 (c : Dev nD) : Wb3 m ρ c (Proc.devRef .tc main_arg11) = m ((c : Thread nD τ).loc main_arg11) :=
  calc Wb3 m ρ c (Proc.devRef .tc main_arg11)
    _ = Wb2 m ρ c (Proc.devRef .tc main_arg11) := Wb3_of_ne m ρ c main_arg11 (by decide)
    _ = Wb1 m ρ c (Proc.devRef .tc main_arg11) := Wb2_of_ne m ρ c main_arg11 (by decide)
    _ = Wb0 m ρ c (Proc.devRef .tc main_arg11) := Wb1_of m ρ c main_arg11 (by decide)
    _ = m ((c : Thread nD τ).loc main_arg11) := rfl

/-- Argument 12 is no window of either call. -/
theorem Wb3_main_arg12 (c : Dev nD) : Wb3 m ρ c (Proc.devRef .tc main_arg12) = m ((c : Thread nD τ).loc main_arg12) :=
  calc Wb3 m ρ c (Proc.devRef .tc main_arg12)
    _ = Wb2 m ρ c (Proc.devRef .tc main_arg12) := Wb3_of_ne m ρ c main_arg12 (by decide)
    _ = Wb1 m ρ c (Proc.devRef .tc main_arg12) := Wb2_of_ne m ρ c main_arg12 (by decide)
    _ = Wb0 m ρ c (Proc.devRef .tc main_arg12) := Wb1_of m ρ c main_arg12 (by decide)
    _ = m ((c : Thread nD τ).loc main_arg12) := rfl

/-- Argument 13 is no window of either call. -/
theorem Wb3_main_arg13 (c : Dev nD) : Wb3 m ρ c (Proc.devRef .tc main_arg13) = m ((c : Thread nD τ).loc main_arg13) :=
  calc Wb3 m ρ c (Proc.devRef .tc main_arg13)
    _ = Wb2 m ρ c (Proc.devRef .tc main_arg13) := Wb3_of_ne m ρ c main_arg13 (by decide)
    _ = Wb1 m ρ c (Proc.devRef .tc main_arg13) := Wb2_of_ne m ρ c main_arg13 (by decide)
    _ = Wb0 m ρ c (Proc.devRef .tc main_arg13) := Wb1_of m ρ c main_arg13 (by decide)
    _ = m ((c : Thread nD τ).loc main_arg13) := rfl

/-- Argument 14 is no window of either call. -/
theorem Wb3_main_arg14 (c : Dev nD) : Wb3 m ρ c (Proc.devRef .tc main_arg14) = m ((c : Thread nD τ).loc main_arg14) :=
  calc Wb3 m ρ c (Proc.devRef .tc main_arg14)
    _ = Wb2 m ρ c (Proc.devRef .tc main_arg14) := Wb3_of_ne m ρ c main_arg14 (by decide)
    _ = Wb1 m ρ c (Proc.devRef .tc main_arg14) := Wb2_of_ne m ρ c main_arg14 (by decide)
    _ = Wb0 m ρ c (Proc.devRef .tc main_arg14) := Wb1_of m ρ c main_arg14 (by decide)
    _ = m ((c : Thread nD τ).loc main_arg14) := rfl

/-- Argument 15 is no window of either call. -/
theorem Wb3_main_arg15 (c : Dev nD) : Wb3 m ρ c (Proc.devRef .tc main_arg15) = m ((c : Thread nD τ).loc main_arg15) :=
  calc Wb3 m ρ c (Proc.devRef .tc main_arg15)
    _ = Wb2 m ρ c (Proc.devRef .tc main_arg15) := Wb3_of_ne m ρ c main_arg15 (by decide)
    _ = Wb1 m ρ c (Proc.devRef .tc main_arg15) := Wb2_of_ne m ρ c main_arg15 (by decide)
    _ = Wb0 m ρ c (Proc.devRef .tc main_arg15) := Wb1_of m ρ c main_arg15 (by decide)
    _ = m ((c : Thread nD τ).loc main_arg15) := rfl

/-- Argument 16 is no window of either call. -/
theorem Wb3_main_arg16 (c : Dev nD) : Wb3 m ρ c (Proc.devRef .tc main_arg16) = m ((c : Thread nD τ).loc main_arg16) :=
  calc Wb3 m ρ c (Proc.devRef .tc main_arg16)
    _ = Wb2 m ρ c (Proc.devRef .tc main_arg16) := Wb3_of_ne m ρ c main_arg16 (by decide)
    _ = Wb1 m ρ c (Proc.devRef .tc main_arg16) := Wb2_of_ne m ρ c main_arg16 (by decide)
    _ = Wb0 m ρ c (Proc.devRef .tc main_arg16) := Wb1_of m ρ c main_arg16 (by decide)
    _ = m ((c : Thread nD τ).loc main_arg16) := rfl

/-- Argument 17 is no window of either call. -/
theorem Wb3_main_arg17 (c : Dev nD) : Wb3 m ρ c (Proc.devRef .tc main_arg17) = m ((c : Thread nD τ).loc main_arg17) :=
  calc Wb3 m ρ c (Proc.devRef .tc main_arg17)
    _ = Wb2 m ρ c (Proc.devRef .tc main_arg17) := Wb3_of_ne m ρ c main_arg17 (by decide)
    _ = Wb1 m ρ c (Proc.devRef .tc main_arg17) := Wb2_of_ne m ρ c main_arg17 (by decide)
    _ = Wb0 m ρ c (Proc.devRef .tc main_arg17) := Wb1_of m ρ c main_arg17 (by decide)
    _ = m ((c : Thread nD τ).loc main_arg17) := rfl

/-- Argument 18 is no window of either call. -/
theorem Wb3_main_arg18 (c : Dev nD) : Wb3 m ρ c (Proc.devRef .tc main_arg18) = m ((c : Thread nD τ).loc main_arg18) :=
  calc Wb3 m ρ c (Proc.devRef .tc main_arg18)
    _ = Wb2 m ρ c (Proc.devRef .tc main_arg18) := Wb3_of_ne m ρ c main_arg18 (by decide)
    _ = Wb1 m ρ c (Proc.devRef .tc main_arg18) := Wb2_of_ne m ρ c main_arg18 (by decide)
    _ = Wb0 m ρ c (Proc.devRef .tc main_arg18) := Wb1_of m ρ c main_arg18 (by decide)
    _ = m ((c : Thread nD τ).loc main_arg18) := rfl

/-- Argument 19 is no window of either call. -/
theorem Wb3_main_arg19 (c : Dev nD) : Wb3 m ρ c (Proc.devRef .tc main_arg19) = m ((c : Thread nD τ).loc main_arg19) :=
  calc Wb3 m ρ c (Proc.devRef .tc main_arg19)
    _ = Wb2 m ρ c (Proc.devRef .tc main_arg19) := Wb3_of_ne m ρ c main_arg19 (by decide)
    _ = Wb1 m ρ c (Proc.devRef .tc main_arg19) := Wb2_of_ne m ρ c main_arg19 (by decide)
    _ = Wb0 m ρ c (Proc.devRef .tc main_arg19) := Wb1_of m ρ c main_arg19 (by decide)
    _ = m ((c : Thread nD τ).loc main_arg19) := rfl

/-- Argument 20 is no window of either call. -/
theorem Wb3_main_arg20 (c : Dev nD) : Wb3 m ρ c (Proc.devRef .tc main_arg20) = m ((c : Thread nD τ).loc main_arg20) :=
  calc Wb3 m ρ c (Proc.devRef .tc main_arg20)
    _ = Wb2 m ρ c (Proc.devRef .tc main_arg20) := Wb3_of_ne m ρ c main_arg20 (by decide)
    _ = Wb1 m ρ c (Proc.devRef .tc main_arg20) := Wb2_of_ne m ρ c main_arg20 (by decide)
    _ = Wb0 m ρ c (Proc.devRef .tc main_arg20) := Wb1_of m ρ c main_arg20 (by decide)
    _ = m ((c : Thread nD τ).loc main_arg20) := rfl

/-- Argument 21 is no window of either call. -/
theorem Wb3_main_arg21 (c : Dev nD) : Wb3 m ρ c (Proc.devRef .tc main_arg21) = m ((c : Thread nD τ).loc main_arg21) :=
  calc Wb3 m ρ c (Proc.devRef .tc main_arg21)
    _ = Wb2 m ρ c (Proc.devRef .tc main_arg21) := Wb3_of_ne m ρ c main_arg21 (by decide)
    _ = Wb1 m ρ c (Proc.devRef .tc main_arg21) := Wb2_of_ne m ρ c main_arg21 (by decide)
    _ = Wb0 m ρ c (Proc.devRef .tc main_arg21) := Wb1_of m ρ c main_arg21 (by decide)
    _ = m ((c : Thread nD τ).loc main_arg21) := rfl

/-- Argument 22 is no window of either call. -/
theorem Wb3_main_arg22 (c : Dev nD) : Wb3 m ρ c (Proc.devRef .tc main_arg22) = m ((c : Thread nD τ).loc main_arg22) :=
  calc Wb3 m ρ c (Proc.devRef .tc main_arg22)
    _ = Wb2 m ρ c (Proc.devRef .tc main_arg22) := Wb3_of_ne m ρ c main_arg22 (by decide)
    _ = Wb1 m ρ c (Proc.devRef .tc main_arg22) := Wb2_of_ne m ρ c main_arg22 (by decide)
    _ = Wb0 m ρ c (Proc.devRef .tc main_arg22) := Wb1_of m ρ c main_arg22 (by decide)
    _ = m ((c : Thread nD τ).loc main_arg22) := rfl

/-- Argument 23 is no window of either call. -/
theorem Wb3_main_arg23 (c : Dev nD) : Wb3 m ρ c (Proc.devRef .tc main_arg23) = m ((c : Thread nD τ).loc main_arg23) :=
  calc Wb3 m ρ c (Proc.devRef .tc main_arg23)
    _ = Wb2 m ρ c (Proc.devRef .tc main_arg23) := Wb3_of_ne m ρ c main_arg23 (by decide)
    _ = Wb1 m ρ c (Proc.devRef .tc main_arg23) := Wb2_of_ne m ρ c main_arg23 (by decide)
    _ = Wb0 m ρ c (Proc.devRef .tc main_arg23) := Wb1_of m ρ c main_arg23 (by decide)
    _ = m ((c : Thread nD τ).loc main_arg23) := rfl

/-- Argument 24 is no window of either call. -/
theorem Wb3_main_arg24 (c : Dev nD) : Wb3 m ρ c (Proc.devRef .tc main_arg24) = m ((c : Thread nD τ).loc main_arg24) :=
  calc Wb3 m ρ c (Proc.devRef .tc main_arg24)
    _ = Wb2 m ρ c (Proc.devRef .tc main_arg24) := Wb3_of_ne m ρ c main_arg24 (by decide)
    _ = Wb1 m ρ c (Proc.devRef .tc main_arg24) := Wb2_of_ne m ρ c main_arg24 (by decide)
    _ = Wb0 m ρ c (Proc.devRef .tc main_arg24) := Wb1_of m ρ c main_arg24 (by decide)
    _ = m ((c : Thread nD τ).loc main_arg24) := rfl

/-! ## The frame statement -/

set_option backward.isDefEq.respectTransparency.types false in
/-- From any memory with zero counters every weakly fair execution of @main terminates, nothing faulting, and every
    final state has the twenty-five argument arrays as launched: the run's conclusion at each argument's buffer,
    then that buffer's walk back to the launch memory. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_ucH main_arg0 (by decide))).trans (Wb3_main_arg0 m ρ c),
      (h c _ (mem_ucH main_arg1 (by decide))).trans (Wb3_main_arg1 m ρ c),
      (h c _ (mem_ucH main_arg2 (by decide))).trans (Wb3_main_arg2 m ρ c),
      (h c _ (mem_ucH main_arg3 (by decide))).trans (Wb3_main_arg3 m ρ c),
      (h c _ (mem_ucH main_arg4 (by decide))).trans (Wb3_main_arg4 m ρ c),
      (h c _ (mem_ucH main_arg5 (by decide))).trans (Wb3_main_arg5 m ρ c),
      (h c _ (mem_ucH main_arg6 (by decide))).trans (Wb3_main_arg6 m ρ c),
      (h c _ (mem_ucH main_arg7 (by decide))).trans (Wb3_main_arg7 m ρ c),
      (h c _ (mem_ucH main_arg8 (by decide))).trans (Wb3_main_arg8 m ρ c),
      (h c _ (mem_ucH main_arg9 (by decide))).trans (Wb3_main_arg9 m ρ c),
      (h c _ (mem_ucH main_arg10 (by decide))).trans (Wb3_main_arg10 m ρ c),
      (h c _ (mem_ucH main_arg11 (by decide))).trans (Wb3_main_arg11 m ρ c),
      (h c _ (mem_ucH main_arg12 (by decide))).trans (Wb3_main_arg12 m ρ c),
      (h c _ (mem_ucH main_arg13 (by decide))).trans (Wb3_main_arg13 m ρ c),
      (h c _ (mem_ucH main_arg14 (by decide))).trans (Wb3_main_arg14 m ρ c),
      (h c _ (mem_ucH main_arg15 (by decide))).trans (Wb3_main_arg15 m ρ c),
      (h c _ (mem_ucH main_arg16 (by decide))).trans (Wb3_main_arg16 m ρ c),
      (h c _ (mem_ucH main_arg17 (by decide))).trans (Wb3_main_arg17 m ρ c),
      (h c _ (mem_ucH main_arg18 (by decide))).trans (Wb3_main_arg18 m ρ c),
      (h c _ (mem_ucH main_arg19 (by decide))).trans (Wb3_main_arg19 m ρ c),
      (h c _ (mem_ucH main_arg20 (by decide))).trans (Wb3_main_arg20 m ρ c),
      (h c _ (mem_ucH main_arg21 (by decide))).trans (Wb3_main_arg21 m ρ c),
      (h c _ (mem_ucH main_arg22 (by decide))).trans (Wb3_main_arg22 m ρ c),
      (h c _ (mem_ucH main_arg23 (by decide))).trans (Wb3_main_arg23 m ρ c),
      (h c _ (mem_ucH main_arg24 (by decide))).trans (Wb3_main_arg24 m ρ c)⟩) (runH m ρ)

end Cert.Kernel.Hand

end
-- ==== Proof.KiRegion0.lean ====
/-
  The first pallas_call (the first cell), on any contents `V` of the TensorCore's buffers at its entry.

  The body loads six whole staging buffers — a 256-row block of the input, of the recurrent state and of the cell
  state, both halves of the packed gate weight, and the packed bias — and stores two whole 256-row blocks: the
  new hidden block and the new cell block, each one pure function of the loads. So at every grid point the two
  output buffers end at those functions of the point's input blocks, and the inputs' buffers are left as found.
-/
import proofs.«125369_j48885317763708_2_alg».proof.Proof.Gen.KernelIdeal.Launch
import proofs.«125369_j48885317763708_2_alg».proof.Proof.Gen.KernelIdeal.Skeleton
import proofs.«125369_j48885317763708_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: when it is not fetched
    its block index has not moved and the body left the buffer as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: when it is not fetched
    its block index has not moved and the body left the buffer as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: when it is not fetched
    its block index has not moved and the body left the buffer as found. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: when it is not fetched
    its block index has not moved and the body left the buffer as found. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: when it is not fetched
    its block index has not moved and the body left the buffer as found. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: when it is not fetched
    its block index has not moved and the body left the buffer as found. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a 256-row block, of a weight half, and of the bias row. -/
abbrev rA0 : Rect S256x1024 := Rect.unit (s := S256x1024) ![0, 0] S256x1024.size inb_S256x1024_S256x1024_0_0
abbrev rW0 : Rect S4096x1024 := Rect.unit (s := S4096x1024) ![0, 0] S4096x1024.size inb_S4096x1024_S4096x1024_0_0
abbrev rB0 : Rect S1x4096 := Rect.unit (s := S1x4096) ![0, 0] S1x4096.size inb_S1x4096_S1x4096_0_0

/-- The new hidden block's buffer after the body: one whole store of the hidden payload of the loads. -/
def out0_6 (x0 x1 : Vec F S256x1024 .f32) (x3 x4 : Vec F S4096x1024 .bf16) (x5 : Vec F S1x4096 .f32) : Vec F S256x1024 .f32 :=
  View.canon [⟨rA0, k0_pay3 (View.ld x0 rA0) (View.ld x1 rA0) (View.ld x3 rW0) (View.ld x4 rW0) (View.ld x5 rB0)⟩]

/-- The new cell block's buffer after the body: one whole store of the cell payload of the loads. -/
def out0_7 (x0 x1 x2 : Vec F S256x1024 .f32) (x3 x4 : Vec F S4096x1024 .bf16) (x5 : Vec F S1x4096 .f32) : Vec F S256x1024 .f32 :=
  View.canon [⟨rA0, k0_pay4 (View.ld x0 rA0) (View.ld x1 rA0) (View.ld x3 rW0) (View.ld x4 rW0) (View.ld x5 rB0) (View.ld x2 rA0)⟩]

/-- One whole store covers the buffer. -/
theorem cover0 (p0 : Vec F S256x1024 .f32) (y : S256x1024.Idx) :
    ∃ pc ∈ ([⟨rA0, p0⟩] : List (View.Piece (Elt F) S256x1024 .f32)), y ∈ pc.1.set :=
  View.cover_of_tiled [⟨rA0, p0⟩] S256x1024.size (by rfl) y

set_option maxHeartbeats 1000000 in
/-- The body on whole staging buffers, the inputs' at contents `x0 … x5` and the outputs' at anything, runs to its
    return with the inputs' buffers as they were and the outputs' at the two payloads of the inputs. -/
theorem sound_kernel0 (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x3 x4 x5) ∗ owns (c : Thread nD τ) arg8 fullShare (out0_7 x0 x1 x2 x3 x4 x5)) -∗ K ⟨⟩))
      ⊢ wp frame (wpE (defs₀ (F := F)) Variants.none c none) E (cc0__lstm1_kernel i arg1 harg1 arg2 harg2 arg3 harg3 arg4 harg4 arg5 harg5 arg6 harg6 arg7 harg7 arg8 harg8) K := by
  simp only [cc0__lstm1_kernel_eq_skeleton]; unfold cc0__lstm1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The call's proof data on core `c`: its arrays as found; after the body at a point each input's buffer at its
    block and the two outputs' at the payloads of the point's input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the first call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The second pallas_call (the second cell and the head), on any contents `V` of the TensorCore's buffers at its entry.

  The body loads ten whole staging buffers — a 128-row block of the first cell's new hidden array, of the second
  recurrent state and of the second cell state, both halves of the second packed gate weight and its packed bias,
  the two head weights and their biases — and stores three whole 128-row blocks: the new hidden block, the new
  cell block, and the head's output block, each one pure function of the loads.
-/
import proofs.«125369_j48885317763708_2_alg».proof.Proof.Gen.KernelIdeal.Launch
import proofs.«125369_j48885317763708_2_alg».proof.Proof.Gen.KernelIdeal.Skeleton
import proofs.«125369_j48885317763708_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the loads and stores. -/
abbrev rA1 : Rect S128x1024 := Rect.unit (s := S128x1024) ![0, 0] S128x1024.size inb_S128x1024_S128x1024_0_0
abbrev rWg1 : Rect S4096x1024 := Rect.unit (s := S4096x1024) ![0, 0] S4096x1024.size inb_S4096x1024_S4096x1024_0_0
abbrev rBg1 : Rect S1x4096 := Rect.unit (s := S1x4096) ![0, 0] S1x4096.size inb_S1x4096_S1x4096_0_0
abbrev rW31 : Rect S2048x1024 := Rect.unit (s := S2048x1024) ![0, 0] S2048x1024.size inb_S2048x1024_S2048x1024_0_0
abbrev rB31 : Rect S1x2048 := Rect.unit (s := S1x2048) ![0, 0] S1x2048.size inb_S1x2048_S1x2048_0_0
abbrev rW41 : Rect S1024x2048 := Rect.unit (s := S1024x2048) ![0, 0] S1024x2048.size inb_S1024x2048_S1024x2048_0_0
abbrev rB41 : Rect S1x1024 := Rect.unit (s := S1x1024) ![0, 0] S1x1024.size inb_S1x1024_S1x1024_0_0

/-- The new hidden block's buffer after the body. -/
def out1_10 (x0 x1 : Vec F S128x1024 .f32) (x3 x4 : Vec F S4096x1024 .bf16) (x5 : Vec F S1x4096 .f32) : Vec F S128x1024 .f32 :=
  View.canon [⟨rA1, k1_pay4 (View.ld x0 rA1) (View.ld x1 rA1) (View.ld x3 rWg1) (View.ld x4 rWg1) (View.ld x5 rBg1)⟩]

/-- The new cell block's buffer after the body. -/
def out1_11 (x0 x1 x2 : Vec F S128x1024 .f32) (x3 x4 : Vec F S4096x1024 .bf16) (x5 : Vec F S1x4096 .f32) : Vec F S128x1024 .f32 :=
  View.canon [⟨rA1, k1_pay5 (View.ld x0 rA1) (View.ld x1 rA1) (View.ld x3 rWg1) (View.ld x4 rWg1) (View.ld x5 rBg1) (View.ld x2 rA1)⟩]

/-- The head's output block's buffer after the body. -/
def out1_12 (x0 x1 : Vec F S128x1024 .f32) (x3 x4 : Vec F S4096x1024 .bf16) (x5 : Vec F S1x4096 .f32)
    (x6 : Vec F S2048x1024 .bf16) (x7 : Vec F S1x2048 .f32) (x8 : Vec F S1024x2048 .bf16) (x9 : Vec F S1x1024 .f32) : Vec F S128x1024 .f32 :=
  View.canon [⟨rA1, k1_pay1 (k1_pay6 (View.ld x0 rA1) (View.ld x1 rA1) (View.ld x3 rWg1) (View.ld x4 rWg1) (View.ld x5 rBg1) (View.ld x6 rW31))
    (View.ld x7 rB31) (View.ld x8 rW41) (View.ld x9 rB41)⟩]

/-- One whole store covers the buffer. -/
theorem cover1 (p0 : Vec F S128x1024 .f32) (y : S128x1024.Idx) :
    ∃ pc ∈ ([⟨rA1, p0⟩] : List (View.Piece (Elt F) S128x1024 .f32)), y ∈ pc.1.set :=
  View.cover_of_tiled [⟨rA1, p0⟩] S128x1024.size (by rfl) y

set_option maxHeartbeats 1000000 in
/-- The body on whole staging buffers, the inputs' at contents `x0 … x9` and the outputs' at anything, runs to its
    return with the inputs' buffers as they were and the outputs' at the three payloads of the inputs. -/
theorem sound_kernel1 (c : Dev nD) (E : Set ℕ) (i : grid1.Coords)
    (arg1 : Memref sig .tc .vmem S128x1024 .f32) (harg1 : arg1.IsWhole)
    (arg2 : Memref sig .tc .vmem S128x1024 .f32) (harg2 : arg2.IsWhole)
    (arg3 : Memref sig .tc .vmem S128x1024 .f32) (harg3 : arg3.IsWhole)
    (arg4 : Memref sig .tc .vmem S4096x1024 .bf16) (harg4 : arg4.IsWhole)
    (arg5 : Memref sig .tc .vmem S4096x1024 .bf16) (harg5 : arg5.IsWhole)
    (arg6 : Memref sig .tc .vmem S1x4096 .f32) (harg6 : arg6.IsWhole)
    (arg7 : Memref sig .tc .vmem S2048x1024 .bf16) (harg7 : arg7.IsWhole)
    (arg8 : Memref sig .tc .vmem S1x2048 .f32) (harg8 : arg8.IsWhole)
    (arg9 : Memref sig .tc .vmem S1024x2048 .bf16) (harg9 : arg9.IsWhole)
    (arg10 : Memref sig .tc .vmem S1x1024 .f32) (harg10 : arg10.IsWhole)
    (arg11 : Memref sig .tc .vmem S128x1024 .f32) (harg11 : arg11.IsWhole)
    (arg12 : Memref sig .tc .vmem S128x1024 .f32) (harg12 : arg12.IsWhole)
    (arg13 : Memref sig .tc .vmem S128x1024 .f32) (harg13 : arg13.IsWhole)
    (x0 x1 x2 : Vec F S128x1024 .f32) (x3 x4 : Vec F S4096x1024 .bf16) (x5 : Vec F S1x4096 .f32)
    (x6 : Vec F S2048x1024 .bf16) (x7 : Vec F S1x2048 .f32) (x8 : Vec F S1024x2048 .bf16) (x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x3 x4 x5) ∗ owns (c : Thread nD τ) arg12 fullShare (out1_11 x0 x1 x2 x3 x4 x5)
            ∗ owns (c : Thread nD τ) arg13 fullShare (out1_12 x0 x1 x3 x4 x5 x6 x7 x8 x9)) -∗ K ⟨⟩))
      ⊢ wp frame (wpE (defs₀ (F := F)) Variants.none c none) E (cc1__lstm2_mlp_kernel i arg1 harg1 arg2 harg2 arg3 harg3 arg4 harg4 arg5 harg5 arg6 harg6 arg7 harg7 arg8 harg8 arg9 harg9 arg10 harg10 arg11 harg11 arg12 harg12 arg13 harg13) K := by
  simp only [cc1__lstm2_mlp_kernel_eq_skeleton]; unfold cc1__lstm2_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  isplitl [H11]
  · iexists _; isplitr
    swap; · iexact H11
    ipureintro
    exact View.read_writes_eq_canon _ _ _ (cover1 _)
  iexists _; isplitr
  swap; · iexact H12
  ipureintro
  exact View.read_writes_eq_canon _ _ _ (cover1 _)

/-- The call's proof data on core `c`: its arrays as found; after the body at a point each input's buffer at its
    block and the three outputs' at the payloads of the point's input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 3 t) (iblk1 V c 4 t) (iblk1 V c 5 t)
    | ⟨11, _⟩ => out1_11 (iblk1 V c 0 t) (iblk1 V c 1 t) (iblk1 V c 2 t) (iblk1 V c 3 t) (iblk1 V c 4 t) (iblk1 V c 5 t)
    | ⟨12, _⟩ => out1_12 (iblk1 V c 0 t) (iblk1 V c 1 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 3 t) (iblk1 V c 4 t) (iblk1 V c 5 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) := by dsimp only [dat1]
theorem after1_12 (c : Dev nD) (t : Fin cfg1.N) : (dat1 V c).after 12 t = out1_12 (iblk1 V c 0 t) (iblk1 V c 1 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The whole run of @main: the host operations that pack the weights, then the two pallas_calls, as three segments
  over one thread state — every unscoped buffer of the TensorCore held at the contents of the current boundary.
  The boundary contents are a fold from the launch memory: the host operations' results, then each call's arrays at
  what its write-backs leave and every other buffer as it was. The run's conclusion is that every weakly fair
  execution terminates with every unscoped buffer at the last boundary's contents.
-/
import proofs.«125369_j48885317763708_2_alg».proof.Proof.KiRegion0
import proofs.«125369_j48885317763708_2_alg».proof.Proof.KiRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation allocates. -/
theorem hostOps0_freshH : (hostOps0 : List (HloOp τ sig (Elt F))).Forall fun op => op.fresh = ∅ := by
  simp only [List.Forall]; repeat' constructor

/-- Core `c`'s buffers at launch. -/
abbrev Wb0 : Dev nD → Valuation τ sig (Elt F) := fun c b => (s₀ m ρ).mem ((c : Dev nD), b)
/-- After the host operations (the first call's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the first call's exit: its arrays at what the pipeline leaves, every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hFb0 (c : Dev nD) (w : Fin cfg0.W) : (dat0 (Vb1 m ρ) c).arrAt w cfg0.N = Vb2 m ρ c (Pipeline.arrRef spec0 w) :=
  (Wb2_arr m ρ c w).symm
theorem hrestb0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- At the second call's exit: its arrays at what the pipeline leaves, every other buffer as entered. -/
def Wb3 (c : Dev nD) : Valuation τ sig (Elt F) :=
  Pipeline.withArrays spec1 c (Wb2 m ρ c) fun w => (dat1 (Vb2 m ρ) c).arrAt w cfg1.N
theorem Wb3_arr (c : Dev nD) (w : Fin cfg1.W) :
    Wb3 m ρ c (Proc.devRef .tc (Pipeline.arrRef spec1 w)) = (dat1 (Vb2 m ρ) c).arrAt w cfg1.N := by
  unfold Wb3; exact Pipeline.withArrays_arr spec1 launch1.win.arr_inj c _ _ w
theorem Wb3_of_ne (c : Dev nD) (b : Ref sig .tc) (hb : ∀ w, Pipeline.arrRef spec1 w ≠ b) :
    Wb3 m ρ c (Proc.devRef .tc b) = Wb2 m ρ c (Proc.devRef .tc b) := by
  unfold Wb3; exact Pipeline.withArrays_of_ne spec1 c _ _ b hb
abbrev Vb3 : (c : Dev nD) → (b : Ref sig .tc) → Buf (Elt F) ((c : Thread nD τ).loc b) := fun c b => Wb3 m ρ c b
theorem hFb1 (c : Dev nD) (w : Fin cfg1.W) : (dat1 (Vb2 m ρ) c).arrAt w cfg1.N = Vb3 m ρ c (Pipeline.arrRef spec1 w) :=
  (Wb3_arr m ρ c w).symm
theorem hrestb1 (c : Dev nD) : ∀ b, b ∉ Finset.univ.image (Pipeline.arrRef spec1) → Vb3 m ρ c b = Vb2 m ρ c b :=
  fun b hb => Wb3_of_ne m ρ c b fun w e => hb (Finset.mem_image.mpr ⟨w, Finset.mem_univ _, e⟩)

/-- No pallas_call has a prefetched table. -/
abbrev admH : (p : Fin 2) → (pcfgs (F := F) p).Adm := fun p => (cfgs p).toPCfg_adm
/-- Each call's proof data at its entry contents. -/
def pdatsH : (p : Fin 2) → (c : Dev nD) → Dat τ (Elt F) Unit ℕ (UR sig nD τ) ℕ (Pipeline.pin (pcfgs (F := F)) admH p) c
  | ⟨0, _⟩ => fun c => dat0 (Vb1 m ρ) c
  | ⟨1, _⟩ => fun c => dat1 (Vb2 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment over the unscoped buffers. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wb3 m ρ c) ∗ ∃ r, prngReg c r)

set_option backward.isDefEq.respectTransparency.types false in
/-- Pallas call 0 over the thread state: entered with every unscoped buffer at the contents before it, left with
    them at the contents after it. Its arrays are split out of the unscoped buffers and put back at the exit
    contents; the generator register goes into the invariant and comes out; nothing is owed; the kernel has no
    semaphore of its own. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ LH lvH 0 fun _ _ => rfl
  pre c := iprop(StableHlo.held (c : Thread nD τ) (Pipeline.ucRefs τ sig) (Wb1 m ρ c) ∗ RH c)
  post c := iprop(StableHlo.held (c : Thread nD τ) (Pipeline.ucRefs τ sig) (Wb2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vb1 m ρ c) (Vb2 m ρ c) ((pdatsH m ρ 0 c).arrAt · cfg0.N) (hFb0 m ρ c) (hrestb0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at the contents before it, left with
    them at the contents after it. Its arrays are split out of the unscoped buffers and put back at the exit
    contents; the generator register goes into the invariant and comes out; nothing is owed; the kernel has no
    semaphore of its own. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vb2 m ρ) c).loose
  hwaits := Pipeline.hwaits_of_owed_zero _ _ _ _ LH lvH 1 fun _ _ => rfl
  pre c := iprop(StableHlo.held (c : Thread nD τ) (Pipeline.ucRefs τ sig) (Wb2 m ρ c) ∗ RH c)
  post c := iprop(StableHlo.held (c : Thread nD τ) (Pipeline.ucRefs τ sig) (Wb3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vb2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vb2 m ρ c) (Vb3 m ρ c) ((pdatsH m ρ 1 c).arrAt · cfg1.N) (hFb1 m ρ c) (hrestb1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segsH : List (Pipeline.Seg (pcfgs (F := F)) admH (pdatsH m ρ) () defs₀ 𝒱H LH lvH) :=
  [ .host (hsegH hostOps0 hostOps0_sub hostOps0_freshH (Wb0 m ρ)),
    .region (regH0 m ρ),
    .region (regH1 m ρ) ]
theorem main_runH (c : Dev nD) : main (F := F) c = Pipeline.Seg.run (segsH m ρ) := (main_chain c).trans (by chain_rfl)

set_option backward.isDefEq.respectTransparency.types false in
/-- THE RUN: from any memory with zero counters, every weakly fair execution of @main terminates, nothing faulting,
    and every final state has every unscoped buffer of every core at the last boundary's contents. -/
theorem runH : θ_run defs (onTc (τ := τ) (main (F := F))) ⟨m, fun _ => 0, ρ⟩ (fun r => ∀ c : Dev nD,
      ∀ b ∈ Pipeline.ucRefs τ sig, r.2.mem (((c : Thread nD τ)).1, b) = Wb3 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ RH c)) (Tₙ := TnH m ρ)
    (hch := ⟨fun _ => .rfl, fun _ => .rfl, fun _ => .rfl, fun c => by
      show iprop(StableHlo.held (c : Thread nD τ) (Pipeline.ucRefs τ sig) (Wb3 m ρ c) ∗ RH c)
        ⊢ (iprop(TnH m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb3 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb3 m ρ c) s')
      isplitl [Hh] <;> iassumption)
    (hQ := fun s h c => h c)

end Cert.KernelIdeal.Hand

end
-- ==== Proof.KiFrame.lean ====
/-
  The argument arrays end as launched.

  The boundary contents are a fold from the launch memory: the host operations, then each call's arrays replaced by
  what its write-backs leave. At an argument's buffer the fold walks back to the launch memory step by step. No host
  operation writes an argument: each writes only its own result. A call leaves every buffer that is none of its
  windows' arrays as it found it, and an INPUT window's array as it found it too: nothing is written back to an
  input, so its contents after the last grid point are its contents at entry. The first call reads arguments 0, 1
  and 3 through input windows, the second call arguments 2 and 4; every other argument is no window of either call.
  The run's conclusion, read at the twenty-five argument buffers, is then the frame statement.
-/
import proofs.«125369_j48885317763708_2_alg».proof.Proof.KiRun
import proofs.«125369_j48885317763708_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that is no host operation's result is, after the host operations, as launched. -/
theorem Wb1_of (c : Dev nD) (r : Ref sig .tc) (h : r ∉ hostOps0_W) :
    Wb1 m ρ c (Proc.devRef .tc r) = Wb0 m ρ c (Proc.devRef .tc r) :=
  StableHlo.after_of_writes_sub hostOps0 _ hostOps0_writes h

/-! ## Each argument's buffer at the last boundary is the launch memory's -/

/-- Argument 0 is input window 0 of the first call and no window of the second. -/
theorem Wb3_main_arg0 (c : Dev nD) : Wb3 m ρ c (Proc.devRef .tc main_arg0) = m ((c : Thread nD τ).loc main_arg0) :=
  calc Wb3 m ρ c (Proc.devRef .tc main_arg0)
    _ = Wb2 m ρ c (Proc.devRef .tc main_arg0) := Wb3_of_ne m ρ c main_arg0 (by decide)
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := Wb1_of m ρ c main_arg0 (by decide)
    _ = m ((c : Thread nD τ).loc main_arg0) := rfl

/-- Argument 1 is input window 1 of the first call and no window of the second. -/
theorem Wb3_main_arg1 (c : Dev nD) : Wb3 m ρ c (Proc.devRef .tc main_arg1) = m ((c : Thread nD τ).loc main_arg1) :=
  calc Wb3 m ρ c (Proc.devRef .tc main_arg1)
    _ = Wb2 m ρ c (Proc.devRef .tc main_arg1) := Wb3_of_ne m ρ c main_arg1 (by decide)
    _ = Wb1 m ρ c (Proc.devRef .tc main_arg1) := (Wb2_arr m ρ c 1).trans (((dat0 (Vb1 m ρ) c).arrAt_in 1 rfl _).trans (A_eq0 (Vb1 m ρ) c 1))
    _ = Wb0 m ρ c (Proc.devRef .tc main_arg1) := Wb1_of m ρ c main_arg1 (by decide)
    _ = m ((c : Thread nD τ).loc main_arg1) := rfl

/-- Argument 2 is input window 1 of the second call and no window of the first. -/
theorem Wb3_main_arg2 (c : Dev nD) : Wb3 m ρ c (Proc.devRef .tc main_arg2) = m ((c : Thread nD τ).loc main_arg2) :=
  calc Wb3 m ρ c (Proc.devRef .tc main_arg2)
    _ = Wb2 m ρ c (Proc.devRef .tc main_arg2) := (Wb3_arr m ρ c 1).trans (((dat1 (Vb2 m ρ) c).arrAt_in 1 rfl _).trans (A_eq1 (Vb2 m ρ) c 1))
    _ = Wb1 m ρ c (Proc.devRef .tc main_arg2) := Wb2_of_ne m ρ c main_arg2 (by decide)
    _ = Wb0 m ρ c (Proc.devRef .tc main_arg2) := Wb1_of m ρ c main_arg2 (by decide)
    _ = m ((c : Thread nD τ).loc main_arg2) := rfl

/-- Argument 3 is input window 2 of the first call and no window of the second. -/
theorem Wb3_main_arg3 (c : Dev nD) : Wb3 m ρ c (Proc.devRef .tc main_arg3) = m ((c : Thread nD τ).loc main_arg3) :=
  calc Wb3 m ρ c (Proc.devRef .tc main_arg3)
    _ = Wb2 m ρ c (Proc.devRef .tc main_arg3) := Wb3_of_ne m ρ c main_arg3 (by decide)
    _ = Wb1 m ρ c (Proc.devRef .tc main_arg3) := (Wb2_arr m ρ c 2).trans (((dat0 (Vb1 m ρ) c).arrAt_in 2 rfl _).trans (A_eq0 (Vb1 m ρ) c 2))
    _ = Wb0 m ρ c (Proc.devRef .tc main_arg3) := Wb1_of m ρ c main_arg3 (by decide)
    _ = m ((c : Thread nD τ).loc main_arg3) := rfl

/-- Argument 4 is input window 2 of the second call and no window of the first. -/
theorem Wb3_main_arg4 (c : Dev nD) : Wb3 m ρ c (Proc.devRef .tc main_arg4) = m ((c : Thread nD τ).loc main_arg4) :=
  calc Wb3 m ρ c (Proc.devRef .tc main_arg4)
    _ = Wb2 m ρ c (Proc.devRef .tc main_arg4) := (Wb3_arr m ρ c 2).trans (((dat1 (Vb2 m ρ) c).arrAt_in 2 rfl _).trans (A_eq1 (Vb2 m ρ) c 2))
    _ = Wb1 m ρ c (Proc.devRef .tc main_arg4) := Wb2_of_ne m ρ c main_arg4 (by decide)
    _ = Wb0 m ρ c (Proc.devRef .tc main_arg4) := Wb1_of m ρ c main_arg4 (by decide)
    _ = m ((c : Thread nD τ).loc main_arg4) := rfl

/-- Argument 5 is no window of either call. -/
theorem Wb3_main_arg5 (c : Dev nD) : Wb3 m ρ c (Proc.devRef .tc main_arg5) = m ((c : Thread nD τ).loc main_arg5) :=
  calc Wb3 m ρ c (Proc.devRef .tc main_arg5)
    _ = Wb2 m ρ c (Proc.devRef .tc main_arg5) := Wb3_of_ne m ρ c main_arg5 (by decide)
    _ = Wb1 m ρ c (Proc.devRef .tc main_arg5) := Wb2_of_ne m ρ c main_arg5 (by decide)
    _ = Wb0 m ρ c (Proc.devRef .tc main_arg5) := Wb1_of m ρ c main_arg5 (by decide)
    _ = m ((c : Thread nD τ).loc main_arg5) := rfl

/-- Argument 6 is no window of either call. -/
theorem Wb3_main_arg6 (c : Dev nD) : Wb3 m ρ c (Proc.devRef .tc main_arg6) = m ((c : Thread nD τ).loc main_arg6) :=
  calc Wb3 m ρ c (Proc.devRef .tc main_arg6)
    _ = Wb2 m ρ c (Proc.devRef .tc main_arg6) := Wb3_of_ne m ρ c main_arg6 (by decide)
    _ = Wb1 m ρ c (Proc.devRef .tc main_arg6) := Wb2_of_ne m ρ c main_arg6 (by decide)
    _ = Wb0 m ρ c (Proc.devRef .tc main_arg6) := Wb1_of m ρ c main_arg6 (by decide)
    _ = m ((c : Thread nD τ).loc main_arg6) := rfl

/-- Argument 7 is no window of either call. -/
theorem Wb3_main_arg7 (c : Dev nD) : Wb3 m ρ c (Proc.devRef .tc main_arg7) = m ((c : Thread nD τ).loc main_arg7) :=
  calc Wb3 m ρ c (Proc.devRef .tc main_arg7)
    _ = Wb2 m ρ c (Proc.devRef .tc main_arg7) := Wb3_of_ne m ρ c main_arg7 (by decide)
    _ = Wb1 m ρ c (Proc.devRef .tc main_arg7) := Wb2_of_ne m ρ c main_arg7 (by decide)
    _ = Wb0 m ρ c (Proc.devRef .tc main_arg7) := Wb1_of m ρ c main_arg7 (by decide)
    _ = m ((c : Thread nD τ).loc main_arg7) := rfl

/-- Argument 8 is no window of either call. -/
theorem Wb3_main_arg8 (c : Dev nD) : Wb3 m ρ c (Proc.devRef .tc main_arg8) = m ((c : Thread nD τ).loc main_arg8) :=
  calc Wb3 m ρ c (Proc.devRef .tc main_arg8)
    _ = Wb2 m ρ c (Proc.devRef .tc main_arg8) := Wb3_of_ne m ρ c main_arg8 (by decide)
    _ = Wb1 m ρ c (Proc.devRef .tc main_arg8) := Wb2_of_ne m ρ c main_arg8 (by decide)
    _ = Wb0 m ρ c (Proc.devRef .tc main_arg8) := Wb1_of m ρ c main_arg8 (by decide)
    _ = m ((c : Thread nD τ).loc main_arg8) := rfl

/-- Argument 9 is no window of either call. -/
theorem Wb3_main_arg9 (c : Dev nD) : Wb3 m ρ c (Proc.devRef .tc main_arg9) = m ((c : Thread nD τ).loc main_arg9) :=
  calc Wb3 m ρ c (Proc.devRef .tc main_arg9)
    _ = Wb2 m ρ c (Proc.devRef .tc main_arg9) := Wb3_of_ne m ρ c main_arg9 (by decide)
    _ = Wb1 m ρ c (Proc.devRef .tc main_arg9) := Wb2_of_ne m ρ c main_arg9 (by decide)
    _ = Wb0 m ρ c (Proc.devRef .tc main_arg9) := Wb1_of m ρ c main_arg9 (by decide)
    _ = m ((c : Thread nD τ).loc main_arg9) := rfl

/-- Argument 10 is no window of either call. -/
theorem Wb3_main_arg10 (c : Dev nD) : Wb3 m ρ c (Proc.devRef .tc main_arg10) = m ((c : Thread nD τ).loc main_arg10) :=
  calc Wb3 m ρ c (Proc.devRef .tc main_arg10)
    _ = Wb2 m ρ c (Proc.devRef .tc main_arg10) := Wb3_of_ne m ρ c main_arg10 (by decide)
    _ = Wb1 m ρ c (Proc.devRef .tc main_arg10) := Wb2_of_ne m ρ c main_arg10 (by decide)
    _ = Wb0 m ρ c (Proc.devRef .tc main_arg10) := Wb1_of m ρ c main_arg10 (by decide)
    _ = m ((c : Thread nD τ).loc main_arg10) := rfl

/-- Argument 11 is no window of either call. -/
theorem Wb3_main_arg11 (c : Dev nD) : Wb3 m ρ c (Proc.devRef .tc main_arg11) = m ((c : Thread nD τ).loc main_arg11) :=
  calc Wb3 m ρ c (Proc.devRef .tc main_arg11)
    _ = Wb2 m ρ c (Proc.devRef .tc main_arg11) := Wb3_of_ne m ρ c main_arg11 (by decide)
    _ = Wb1 m ρ c (Proc.devRef .tc main_arg11) := Wb2_of_ne m ρ c main_arg11 (by decide)
    _ = Wb0 m ρ c (Proc.devRef .tc main_arg11) := Wb1_of m ρ c main_arg11 (by decide)
    _ = m ((c : Thread nD τ).loc main_arg11) := rfl

/-- Argument 12 is no window of either call. -/
theorem Wb3_main_arg12 (c : Dev nD) : Wb3 m ρ c (Proc.devRef .tc main_arg12) = m ((c : Thread nD τ).loc main_arg12) :=
  calc Wb3 m ρ c (Proc.devRef .tc main_arg12)
    _ = Wb2 m ρ c (Proc.devRef .tc main_arg12) := Wb3_of_ne m ρ c main_arg12 (by decide)
    _ = Wb1 m ρ c (Proc.devRef .tc main_arg12) := Wb2_of_ne m ρ c main_arg12 (by decide)
    _ = Wb0 m ρ c (Proc.devRef .tc main_arg12) := Wb1_of m ρ c main_arg12 (by decide)
    _ = m ((c : Thread nD τ).loc main_arg12) := rfl

/-- Argument 13 is no window of either call. -/
theorem Wb3_main_arg13 (c : Dev nD) : Wb3 m ρ c (Proc.devRef .tc main_arg13) = m ((c : Thread nD τ).loc main_arg13) :=
  calc Wb3 m ρ c (Proc.devRef .tc main_arg13)
    _ = Wb2 m ρ c (Proc.devRef .tc main_arg13) := Wb3_of_ne m ρ c main_arg13 (by decide)
    _ = Wb1 m ρ c (Proc.devRef .tc main_arg13) := Wb2_of_ne m ρ c main_arg13 (by decide)
    _ = Wb0 m ρ c (Proc.devRef .tc main_arg13) := Wb1_of m ρ c main_arg13 (by decide)
    _ = m ((c : Thread nD τ).loc main_arg13) := rfl

/-- Argument 14 is no window of either call. -/
theorem Wb3_main_arg14 (c : Dev nD) : Wb3 m ρ c (Proc.devRef .tc main_arg14) = m ((c : Thread nD τ).loc main_arg14) :=
  calc Wb3 m ρ c (Proc.devRef .tc main_arg14)
    _ = Wb2 m ρ c (Proc.devRef .tc main_arg14) := Wb3_of_ne m ρ c main_arg14 (by decide)
    _ = Wb1 m ρ c (Proc.devRef .tc main_arg14) := Wb2_of_ne m ρ c main_arg14 (by decide)
    _ = Wb0 m ρ c (Proc.devRef .tc main_arg14) := Wb1_of m ρ c main_arg14 (by decide)
    _ = m ((c : Thread nD τ).loc main_arg14) := rfl

/-- Argument 15 is no window of either call. -/
theorem Wb3_main_arg15 (c : Dev nD) : Wb3 m ρ c (Proc.devRef .tc main_arg15) = m ((c : Thread nD τ).loc main_arg15) :=
  calc Wb3 m ρ c (Proc.devRef .tc main_arg15)
    _ = Wb2 m ρ c (Proc.devRef .tc main_arg15) := Wb3_of_ne m ρ c main_arg15 (by decide)
    _ = Wb1 m ρ c (Proc.devRef .tc main_arg15) := Wb2_of_ne m ρ c main_arg15 (by decide)
    _ = Wb0 m ρ c (Proc.devRef .tc main_arg15) := Wb1_of m ρ c main_arg15 (by decide)
    _ = m ((c : Thread nD τ).loc main_arg15) := rfl

/-- Argument 16 is no window of either call. -/
theorem Wb3_main_arg16 (c : Dev nD) : Wb3 m ρ c (Proc.devRef .tc main_arg16) = m ((c : Thread nD τ).loc main_arg16) :=
  calc Wb3 m ρ c (Proc.devRef .tc main_arg16)
    _ = Wb2 m ρ c (Proc.devRef .tc main_arg16) := Wb3_of_ne m ρ c main_arg16 (by decide)
    _ = Wb1 m ρ c (Proc.devRef .tc main_arg16) := Wb2_of_ne m ρ c main_arg16 (by decide)
    _ = Wb0 m ρ c (Proc.devRef .tc main_arg16) := Wb1_of m ρ c main_arg16 (by decide)
    _ = m ((c : Thread nD τ).loc main_arg16) := rfl

/-- Argument 17 is no window of either call. -/
theorem Wb3_main_arg17 (c : Dev nD) : Wb3 m ρ c (Proc.devRef .tc main_arg17) = m ((c : Thread nD τ).loc main_arg17) :=
  calc Wb3 m ρ c (Proc.devRef .tc main_arg17)
    _ = Wb2 m ρ c (Proc.devRef .tc main_arg17) := Wb3_of_ne m ρ c main_arg17 (by decide)
    _ = Wb1 m ρ c (Proc.devRef .tc main_arg17) := Wb2_of_ne m ρ c main_arg17 (by decide)
    _ = Wb0 m ρ c (Proc.devRef .tc main_arg17) := Wb1_of m ρ c main_arg17 (by decide)
    _ = m ((c : Thread nD τ).loc main_arg17) := rfl

/-- Argument 18 is no window of either call. -/
theorem Wb3_main_arg18 (c : Dev nD) : Wb3 m ρ c (Proc.devRef .tc main_arg18) = m ((c : Thread nD τ).loc main_arg18) :=
  calc Wb3 m ρ c (Proc.devRef .tc main_arg18)
    _ = Wb2 m ρ c (Proc.devRef .tc main_arg18) := Wb3_of_ne m ρ c main_arg18 (by decide)
    _ = Wb1 m ρ c (Proc.devRef .tc main_arg18) := Wb2_of_ne m ρ c main_arg18 (by decide)
    _ = Wb0 m ρ c (Proc.devRef .tc main_arg18) := Wb1_of m ρ c main_arg18 (by decide)
    _ = m ((c : Thread nD τ).loc main_arg18) := rfl

/-- Argument 19 is no window of either call. -/
theorem Wb3_main_arg19 (c : Dev nD) : Wb3 m ρ c (Proc.devRef .tc main_arg19) = m ((c : Thread nD τ).loc main_arg19) :=
  calc Wb3 m ρ c (Proc.devRef .tc main_arg19)
    _ = Wb2 m ρ c (Proc.devRef .tc main_arg19) := Wb3_of_ne m ρ c main_arg19 (by decide)
    _ = Wb1 m ρ c (Proc.devRef .tc main_arg19) := Wb2_of_ne m ρ c main_arg19 (by decide)
    _ = Wb0 m ρ c (Proc.devRef .tc main_arg19) := Wb1_of m ρ c main_arg19 (by decide)
    _ = m ((c : Thread nD τ).loc main_arg19) := rfl

/-- Argument 20 is no window of either call. -/
theorem Wb3_main_arg20 (c : Dev nD) : Wb3 m ρ c (Proc.devRef .tc main_arg20) = m ((c : Thread nD τ).loc main_arg20) :=
  calc Wb3 m ρ c (Proc.devRef .tc main_arg20)
    _ = Wb2 m ρ c (Proc.devRef .tc main_arg20) := Wb3_of_ne m ρ c main_arg20 (by decide)
    _ = Wb1 m ρ c (Proc.devRef .tc main_arg20) := Wb2_of_ne m ρ c main_arg20 (by decide)
    _ = Wb0 m ρ c (Proc.devRef .tc main_arg20) := Wb1_of m ρ c main_arg20 (by decide)
    _ = m ((c : Thread nD τ).loc main_arg20) := rfl

/-- Argument 21 is no window of either call. -/
theorem Wb3_main_arg21 (c : Dev nD) : Wb3 m ρ c (Proc.devRef .tc main_arg21) = m ((c : Thread nD τ).loc main_arg21) :=
  calc Wb3 m ρ c (Proc.devRef .tc main_arg21)
    _ = Wb2 m ρ c (Proc.devRef .tc main_arg21) := Wb3_of_ne m ρ c main_arg21 (by decide)
    _ = Wb1 m ρ c (Proc.devRef .tc main_arg21) := Wb2_of_ne m ρ c main_arg21 (by decide)
    _ = Wb0 m ρ c (Proc.devRef .tc main_arg21) := Wb1_of m ρ c main_arg21 (by decide)
    _ = m ((c : Thread nD τ).loc main_arg21) := rfl

/-- Argument 22 is no window of either call. -/
theorem Wb3_main_arg22 (c : Dev nD) : Wb3 m ρ c (Proc.devRef .tc main_arg22) = m ((c : Thread nD τ).loc main_arg22) :=
  calc Wb3 m ρ c (Proc.devRef .tc main_arg22)
    _ = Wb2 m ρ c (Proc.devRef .tc main_arg22) := Wb3_of_ne m ρ c main_arg22 (by decide)
    _ = Wb1 m ρ c (Proc.devRef .tc main_arg22) := Wb2_of_ne m ρ c main_arg22 (by decide)
    _ = Wb0 m ρ c (Proc.devRef .tc main_arg22) := Wb1_of m ρ c main_arg22 (by decide)
    _ = m ((c : Thread nD τ).loc main_arg22) := rfl

/-- Argument 23 is no window of either call. -/
theorem Wb3_main_arg23 (c : Dev nD) : Wb3 m ρ c (Proc.devRef .tc main_arg23) = m ((c : Thread nD τ).loc main_arg23) :=
  calc Wb3 m ρ c (Proc.devRef .tc main_arg23)
    _ = Wb2 m ρ c (Proc.devRef .tc main_arg23) := Wb3_of_ne m ρ c main_arg23 (by decide)
    _ = Wb1 m ρ c (Proc.devRef .tc main_arg23) := Wb2_of_ne m ρ c main_arg23 (by decide)
    _ = Wb0 m ρ c (Proc.devRef .tc main_arg23) := Wb1_of m ρ c main_arg23 (by decide)
    _ = m ((c : Thread nD τ).loc main_arg23) := rfl

/-- Argument 24 is no window of either call. -/
theorem Wb3_main_arg24 (c : Dev nD) : Wb3 m ρ c (Proc.devRef .tc main_arg24) = m ((c : Thread nD τ).loc main_arg24) :=
  calc Wb3 m ρ c (Proc.devRef .tc main_arg24)
    _ = Wb2 m ρ c (Proc.devRef .tc main_arg24) := Wb3_of_ne m ρ c main_arg24 (by decide)
    _ = Wb1 m ρ c (Proc.devRef .tc main_arg24) := Wb2_of_ne m ρ c main_arg24 (by decide)
    _ = Wb0 m ρ c (Proc.devRef .tc main_arg24) := Wb1_of m ρ c main_arg24 (by decide)
    _ = m ((c : Thread nD τ).loc main_arg24) := rfl

/-! ## The frame statement -/

set_option backward.isDefEq.respectTransparency.types false in
/-- From any memory with zero counters every weakly fair execution of @main terminates, nothing faulting, and every
    final state has the twenty-five argument arrays as launched: the run's conclusion at each argument's buffer,
    then that buffer's walk back to the launch memory. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_ucH main_arg0 (by decide))).trans (Wb3_main_arg0 m ρ c),
      (h c _ (mem_ucH main_arg1 (by decide))).trans (Wb3_main_arg1 m ρ c),
      (h c _ (mem_ucH main_arg2 (by decide))).trans (Wb3_main_arg2 m ρ c),
      (h c _ (mem_ucH main_arg3 (by decide))).trans (Wb3_main_arg3 m ρ c),
      (h c _ (mem_ucH main_arg4 (by decide))).trans (Wb3_main_arg4 m ρ c),
      (h c _ (mem_ucH main_arg5 (by decide))).trans (Wb3_main_arg5 m ρ c),
      (h c _ (mem_ucH main_arg6 (by decide))).trans (Wb3_main_arg6 m ρ c),
      (h c _ (mem_ucH main_arg7 (by decide))).trans (Wb3_main_arg7 m ρ c),
      (h c _ (mem_ucH main_arg8 (by decide))).trans (Wb3_main_arg8 m ρ c),
      (h c _ (mem_ucH main_arg9 (by decide))).trans (Wb3_main_arg9 m ρ c),
      (h c _ (mem_ucH main_arg10 (by decide))).trans (Wb3_main_arg10 m ρ c),
      (h c _ (mem_ucH main_arg11 (by decide))).trans (Wb3_main_arg11 m ρ c),
      (h c _ (mem_ucH main_arg12 (by decide))).trans (Wb3_main_arg12 m ρ c),
      (h c _ (mem_ucH main_arg13 (by decide))).trans (Wb3_main_arg13 m ρ c),
      (h c _ (mem_ucH main_arg14 (by decide))).trans (Wb3_main_arg14 m ρ c),
      (h c _ (mem_ucH main_arg15 (by decide))).trans (Wb3_main_arg15 m ρ c),
      (h c _ (mem_ucH main_arg16 (by decide))).trans (Wb3_main_arg16 m ρ c),
      (h c _ (mem_ucH main_arg17 (by decide))).trans (Wb3_main_arg17 m ρ c),
      (h c _ (mem_ucH main_arg18 (by decide))).trans (Wb3_main_arg18 m ρ c),
      (h c _ (mem_ucH main_arg19 (by decide))).trans (Wb3_main_arg19 m ρ c),
      (h c _ (mem_ucH main_arg20 (by decide))).trans (Wb3_main_arg20 m ρ c),
      (h c _ (mem_ucH main_arg21 (by decide))).trans (Wb3_main_arg21 m ρ c),
      (h c _ (mem_ucH main_arg22 (by decide))).trans (Wb3_main_arg22 m ρ c),
      (h c _ (mem_ucH main_arg23 (by decide))).trans (Wb3_main_arg23 m ρ c),
      (h c _ (mem_ucH main_arg24 (by decide))).trans (Wb3_main_arg24 m ρ c)⟩) (runH m ρ)

end Cert.KernelIdeal.Hand

end
-- ==== Proof.KiBlocks0.lean ====
/-
  The first call's windows read at coordinates. Point `t` of its grid of 16 takes rows 256·t … 256·t + 255 of the
  three batch arrays and writes the same rows of the two results; the packed weights and the packed bias are taken
  whole at every point. So an entry of a block is the array's entry at the block's row offset, and the sixteen
  output blocks tile the result arrays.
-/
import proofs.«125369_j48885317763708_2_alg».proof.Proof.KiRegion0
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat Cfg Window)

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-- The block index maps over the grid: the batch windows' row block is the point's number, their column block 0;
    the resident windows sit at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt0 (t : Fin cfg0.N) : t.val < 16 := by have h := t.isLt; have e : cfg0.N = 16 := N_0; omega

/-- A batch row from a point's number and a row inside its block. -/
abbrev brow0 (t : Fin cfg0.N) (p : Fin 256) : Fin 4096 := ⟨t.val * 256 + p.val, by have := t_lt0 t; have := p.isLt; omega⟩

/-- An entry of a batch window's block is the array's entry at the block's row offset. -/
theorem blk0_0_apply (c : Dev nD) (t : Fin cfg0.N) (p : Fin 256) (k : Fin 1024) :
    iblk0 V c 0 t (ix2 p k) = (V c main_arg0 : S4096x1024.Idx → Elt F .f32) (ix2 (brow0 t p) k) := by
  obtain ⟨e0, e1, -⟩ := idx_facts0 t
  show (V c main_arg0 : S4096x1024.Idx → Elt F .f32) (((cfg0.win 0).blk t).view.emb (ix2 p k)) = _
  refine congrArg _ ?_
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

theorem blk0_1_apply (c : Dev nD) (t : Fin cfg0.N) (p : Fin 256) (k : Fin 1024) :
    iblk0 V c 1 t (ix2 p k) = (V c main_arg1 : S4096x1024.Idx → Elt F .f32) (ix2 (brow0 t p) k) := by
  obtain ⟨-, -, e0, e1, -⟩ := idx_facts0 t
  show (V c main_arg1 : S4096x1024.Idx → Elt F .f32) (((cfg0.win 1).blk t).view.emb (ix2 p k)) = _
  refine congrArg _ ?_
  funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

theorem blk0_2_apply (c : Dev nD) (t : Fin cfg0.N) (p : Fin 256) (k : Fin 1024) :
    iblk0 V c 2 t (ix2 p k) = (V c main_arg3 : S4096x1024.Idx → Elt F .f32) (ix2 (brow0 t p) k) := by
  obtain ⟨-, -, -, -, e0, e1, -⟩ := idx_facts0 t
  show (V c main_arg3 : S4096x1024.Idx → Elt F .f32) (((cfg0.win 2).blk t).view.emb (ix2 p k)) = _
  refine congrArg _ ?_
  funext a; apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega

/-- The resident windows' block is the whole array. -/
theorem blk0_3_apply (c : Dev nD) (t : Fin cfg0.N) (J : Fin 4096) (k : Fin 1024) :
    iblk0 V c 3 t (ix2 J k) = (V c main_v2 : S4096x1024.Idx → Elt F .bf16) (ix2 J k) := by
  obtain ⟨-, -, -, -, -, -, e0, e1, -⟩ := idx_facts0 t
  show (V c main_v2 : S4096x1024.Idx → Elt F .bf16) (((cfg0.win 3).blk t).view.emb (ix2 J k)) = _
  refine congrArg _ ?_
  funext a; apply Fin.ext
  match a with
  | ⟨0, _⟩ => show win0_3.index t (0 : Fin 2) * 4096 + 1 * J.val = J.val; omega
  | ⟨1, _⟩ => show win0_3.index t (1 : Fin 2) * 1024 + 1 * k.val = k.val; omega

theorem blk0_4_apply (c : Dev nD) (t : Fin cfg0.N) (J : Fin 4096) (k : Fin 1024) :
    iblk0 V c 4 t (ix2 J k) = (V c main_v3 : S4096x1024.Idx → Elt F .bf16) (ix2 J k) := by
  obtain ⟨-, -, -, -, -, -, -, -, e0, e1, -⟩ := idx_facts0 t
  show (V c main_v3 : S4096x1024.Idx → Elt F .bf16) (((cfg0.win 4).blk t).view.emb (ix2 J k)) = _
  refine congrArg _ ?_
  funext a; apply Fin.ext
  match a with
  | ⟨0, _⟩ => show win0_4.index t (0 : Fin 2) * 4096 + 1 * J.val = J.val; omega
  | ⟨1, _⟩ => show win0_4.index t (1 : Fin 2) * 1024 + 1 * k.val = k.val; omega

theorem blk0_5_apply (c : Dev nD) (t : Fin cfg0.N) (z : Fin 1) (J : Fin 4096) :
    iblk0 V c 5 t (ix2 z J) = (V c main_v5 : S1x4096.Idx → Elt F .f32) (ix2 z J) := by
  obtain ⟨-, -, -, -, -, -, -, -, -, -, e0, e1, -⟩ := idx_facts0 t
  show (V c main_v5 : S1x4096.Idx → Elt F .f32) (((cfg0.win 5).blk t).view.emb (ix2 z J)) = _
  refine congrArg _ ?_
  funext a; apply Fin.ext
  match a with
  | ⟨0, _⟩ => show win0_5.index t (0 : Fin 2) * 1 + 1 * z.val = z.val; omega
  | ⟨1, _⟩ => show win0_5.index t (1 : Fin 2) * 4096 + 1 * J.val = J.val; omega

/-- Where an output block's entry lands in its array. -/
theorem emb0_6 (t : Fin cfg0.N) (p : Fin 256) (q : Fin 1024) :
    ((cfg0.win 6).blk t).view.emb (ix2 p q) = (ix2 (brow0 t p) q : S4096x1024.Idx) := by
  obtain ⟨-, -, -, -, -, -, -, -, -, -, -, -, e0, e1, -⟩ := idx_facts0 t
  funext a; apply Fin.ext
  match a with
  | ⟨0, _⟩ => show win0_6.index t (0 : Fin 2) * 256 + 1 * p.val = t.val * 256 + p.val; omega
  | ⟨1, _⟩ => show win0_6.index t (1 : Fin 2) * 1024 + 1 * q.val = q.val; omega

theorem emb0_7 (t : Fin cfg0.N) (p : Fin 256) (q : Fin 1024) :
    ((cfg0.win 7).blk t).view.emb (ix2 p q) = (ix2 (brow0 t p) q : S4096x1024.Idx) := by
  obtain ⟨-, -, -, -, -, -, -, -, -, -, -, -, -, -, e0, e1⟩ := idx_facts0 t
  funext a; apply Fin.ext
  match a with
  | ⟨0, _⟩ => show win0_7.index t (0 : Fin 2) * 256 + 1 * p.val = t.val * 256 + p.val; omega
  | ⟨1, _⟩ => show win0_7.index t (1 : Fin 2) * 1024 + 1 * q.val = q.val; omega

/-- An index of a result array is in point `t`'s block iff each coordinate is in the block's range. -/
theorem mem_blk0_6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v16_0).slice (win0_6.rect t)).set ↔ _
  rw [View.set_slice_whole, Rect.mem_set_unit]
  exact Iff.rfl

theorem mem_blk0_7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v16_1).slice (win0_7.rect t)).set ↔ _
  rw [View.set_slice_whole, Rect.mem_set_unit]
  exact Iff.rfl

/-- The sixteen blocks of 256 rows tile the 4096 rows: row `r` is in point `r / 256`'s block. -/
theorem cover0_6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  let t : Fin cfg0.N := ⟨(i 0).val / 256, by omega⟩
  obtain ⟨-, -, -, -, -, -, -, -, -, -, -, -, e0, e1, -⟩ := idx_facts0 t
  refine ⟨t, flush0_6 t, ?_⟩
  rw [mem_blk0_6]
  intro a
  have ht : t.val = (i 0).val / 256 := rfl
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

theorem cover0_7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  let t : Fin cfg0.N := ⟨(i 0).val / 256, by omega⟩
  obtain ⟨-, -, -, -, -, -, -, -, -, -, -, -, -, -, e0, e1⟩ := idx_facts0 t
  refine ⟨t, flush0_7 t, ?_⟩
  rw [mem_blk0_7]
  intro a
  have ht : t.val = (i 0).val / 256 := rfl
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

end Cert.KernelIdeal.Hand

end
-- ==== Proof.Spec.lean ====
/-
  The mathematics both programs compute, over the extended reals, stated once and away from either program.

  A gate's pre-activation is an inner product of the input row with the first 1024 columns of the gate's weight
  row, plus an inner product of the recurrent row with the last 1024 columns, plus the bias entry. The cell's new
  hidden value is the output gate times the hyperbolic tangent of the (already squashed) candidate; the new cell
  value is forget gate times old cell plus candidate times input gate. The head is a rectified affine layer
  followed by an affine layer. Arrays are functions of literal coordinates.
-/
import Idealize.ShloMosaic.PureOps.Ideal
import Idealize.ShloMosaic.Lib.ValueIdx

noncomputable section

open scoped BigOperators

namespace Cert.Spec

open Idealize.ShloMosaic

/-- A matrix of extended reals with literal extents. -/
abbrev Mat (a b : ℕ) : Type := Fin a → Fin b → EReal

/-- The inner product of two rows. -/
def dot {n : ℕ} (x w : Fin n → EReal) : EReal := ∑ k : Fin n, x k * w k

/-- A gate's pre-activation from the input row, the recurrent row, the two halves of the weight row and the bias. -/
def pre (x h wx wh : Fin 1024 → EReal) (b : EReal) : EReal := (dot x wx + dot h wh) + b

/-- The new hidden value from the output gate's and the candidate's pre-activations. -/
def hnew (po pc : EReal) : EReal := Ideal.logistic po * Ideal.tanh (Ideal.tanh pc)

/-- The new cell value from the forget, input and candidate pre-activations and the old cell value. -/
def cnew (pf pi pc c : EReal) : EReal := Ideal.logistic pf * c + Ideal.tanh pc * Ideal.logistic pi

/-- The rectifier. -/
def relu (y : EReal) : EReal := max y 0

/-- The first 1024 columns of row `j` of a [1024, 2048] weight. -/
def wx (W : Mat 1024 2048) (j : Fin 1024) : Fin 1024 → EReal := fun k => W j ⟨k.val, by have := k.isLt; omega⟩

/-- The last 1024 columns of row `j` of a [1024, 2048] weight. -/
def wh (W : Mat 1024 2048) (j : Fin 1024) : Fin 1024 → EReal := fun k => W j ⟨1024 + k.val, by have := k.isLt; omega⟩

/-- One gate's pre-activation at row `r`, unit `j`. -/
def gate (x h : Mat 4096 1024) (W : Mat 1024 2048) (b : Fin 1024 → EReal) (r : Fin 4096) (j : Fin 1024) : EReal :=
  pre (x r) (h r) (wx W j) (wh W j) (b j)

/-- The cell's new hidden array. -/
def cellH (x h : Mat 4096 1024) (Wc Wo : Mat 1024 2048) (bc bo : Fin 1024 → EReal) : Mat 4096 1024 :=
  fun r j => hnew (gate x h Wo bo r j) (gate x h Wc bc r j)

/-- The cell's new cell array. -/
def cellC (x h c : Mat 4096 1024) (Wf Wi Wc : Mat 1024 2048) (bf bi bc : Fin 1024 → EReal) : Mat 4096 1024 :=
  fun r j => cnew (gate x h Wf bf r j) (gate x h Wi bi r j) (gate x h Wc bc r j) (c r j)

/-- The head's hidden layer: a rectified affine map. -/
def head3 (h2 : Mat 4096 1024) (W3 : Mat 2048 1024) (b3 : Fin 2048 → EReal) : Mat 4096 2048 :=
  fun r n => relu (dot (h2 r) (W3 n) + b3 n)

/-- The head's output layer: an affine map. -/
def head4 (y : Mat 4096 2048) (W4 : Mat 1024 2048) (b4 : Fin 1024 → EReal) : Mat 4096 1024 :=
  fun r q => dot (y r) (W4 q) + b4 q

/-- A [a, b] array read as a matrix. -/
abbrev matOf {a b : ℕ} (A : (⟨2, ![a, b]⟩ : Shape).Idx → EReal) : Mat a b := fun r k => A (ValueIdx.ix2 r k)

/-- A [a] array read as a row. -/
abbrev rowOf {a : ℕ} (A : (⟨1, ![a]⟩ : Shape).Idx → EReal) : Fin a → EReal := fun k => A (ValueIdx.ix1 k)

/-- A matrix written back as a [a, b] array. -/
abbrev arrOf {a b : ℕ} (M : Mat a b) : (⟨2, ![a, b]⟩ : Shape).Idx → EReal := fun i => M (i 0) (i 1)

/-- The twenty-five argument arrays, as matrices and rows. -/
structure Args where
  X : Mat 4096 1024
  hidden1 : Mat 4096 1024
  hidden2 : Mat 4096 1024
  cell1 : Mat 4096 1024
  cell2 : Mat 4096 1024
  Wf1 : Mat 1024 2048
  bf1 : Fin 1024 → EReal
  Wi1 : Mat 1024 2048
  bi1 : Fin 1024 → EReal
  Wc1 : Mat 1024 2048
  bc1 : Fin 1024 → EReal
  Wo1 : Mat 1024 2048
  bo1 : Fin 1024 → EReal
  Wf2 : Mat 1024 2048
  bf2 : Fin 1024 → EReal
  Wi2 : Mat 1024 2048
  bi2 : Fin 1024 → EReal
  Wc2 : Mat 1024 2048
  bc2 : Fin 1024 → EReal
  Wo2 : Mat 1024 2048
  bo2 : Fin 1024 → EReal
  W3 : Mat 2048 1024
  b3 : Fin 2048 → EReal
  W4 : Mat 1024 2048
  b4 : Fin 1024 → EReal

/-- The first cell's new hidden array. -/
def h1 (A : Args) : Mat 4096 1024 := cellH A.X A.hidden1 A.Wc1 A.Wo1 A.bc1 A.bo1
/-- The first cell's new cell array. -/
def c1 (A : Args) : Mat 4096 1024 := cellC A.X A.hidden1 A.cell1 A.Wf1 A.Wi1 A.Wc1 A.bf1 A.bi1 A.bc1
/-- The second cell's new hidden array: its input is the first cell's new hidden array. -/
def h2 (A : Args) : Mat 4096 1024 := cellH (h1 A) A.hidden2 A.Wc2 A.Wo2 A.bc2 A.bo2
/-- The second cell's new cell array. -/
def c2 (A : Args) : Mat 4096 1024 := cellC (h1 A) A.hidden2 A.cell2 A.Wf2 A.Wi2 A.Wc2 A.bf2 A.bi2 A.bc2
/-- The head's output on the second cell's new hidden array. -/
def out (A : Args) : Mat 4096 1024 := head4 (head3 (h2 A) A.W3 A.b3) A.W4 A.b4

/-- The arguments read off twenty-five arrays of literal shapes, in the programs' argument order. -/
def argsOf (a0 a1 a2 a3 a4 : (⟨2, ![4096, 1024]⟩ : Shape).Idx → EReal)
    (a5 : (⟨2, ![1024, 2048]⟩ : Shape).Idx → EReal) (a6 : (⟨1, ![1024]⟩ : Shape).Idx → EReal)
    (a7 : (⟨2, ![1024, 2048]⟩ : Shape).Idx → EReal) (a8 : (⟨1, ![1024]⟩ : Shape).Idx → EReal)
    (a9 : (⟨2, ![1024, 2048]⟩ : Shape).Idx → EReal) (a10 : (⟨1, ![1024]⟩ : Shape).Idx → EReal)
    (a11 : (⟨2, ![1024, 2048]⟩ : Shape).Idx → EReal) (a12 : (⟨1, ![1024]⟩ : Shape).Idx → EReal)
    (a13 : (⟨2, ![1024, 2048]⟩ : Shape).Idx → EReal) (a14 : (⟨1, ![1024]⟩ : Shape).Idx → EReal)
    (a15 : (⟨2, ![1024, 2048]⟩ : Shape).Idx → EReal) (a16 : (⟨1, ![1024]⟩ : Shape).Idx → EReal)
    (a17 : (⟨2, ![1024, 2048]⟩ : Shape).Idx → EReal) (a18 : (⟨1, ![1024]⟩ : Shape).Idx → EReal)
    (a19 : (⟨2, ![1024, 2048]⟩ : Shape).Idx → EReal) (a20 : (⟨1, ![1024]⟩ : Shape).Idx → EReal)
    (a21 : (⟨2, ![2048, 1024]⟩ : Shape).Idx → EReal) (a22 : (⟨1, ![2048]⟩ : Shape).Idx → EReal)
    (a23 : (⟨2, ![1024, 2048]⟩ : Shape).Idx → EReal) (a24 : (⟨1, ![1024]⟩ : Shape).Idx → EReal) : Args where
  X := matOf a0
  hidden1 := matOf a1
  hidden2 := matOf a2
  cell1 := matOf a3
  cell2 := matOf a4
  Wf1 := matOf a5
  bf1 := rowOf a6
  Wi1 := matOf a7
  bi1 := rowOf a8
  Wc1 := matOf a9
  bc1 := rowOf a10
  Wo1 := matOf a11
  bo1 := rowOf a12
  Wf2 := matOf a13
  bf2 := rowOf a14
  Wi2 := matOf a15
  bi2 := rowOf a16
  Wc2 := matOf a17
  bc2 := rowOf a18
  Wo2 := matOf a19
  bo2 := rowOf a20
  W3 := matOf a21
  b3 := rowOf a22
  W4 := matOf a23
  b4 := rowOf a24

end Cert.Spec

end
-- ==== Proof.PayLib.lean ====
/-
  A block product read at an entry, and the rows and bias entries the two kernels' arithmetic is stated over.

  Both kernels multiply an [m, K] block by an [n, K] block, contracting the last axis of each, into a zero
  accumulator. Over the extended reals entry (p, q) of such a product is the inner product of row p of the first
  block with row q of the second: the contraction's one coordinate runs over the K columns of both rows.
-/
import proofs.«125369_j48885317763708_2_alg».proof.Proof.Gen.KernelIdeal.Skeleton
import proofs.«125369_j48885317763708_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayIdeal

open Idealize.ShloMosaic ValueIdx

/-- In a product contracting both operands' last axis, the left operand's row is the output's row. -/
theorem lhsIdx_row {m n K : ℕ} (j : (⟨2, ![m, n]⟩ : Shape).Idx) (kk : (DotDims.transposedRhs m K n).contr.Idx) :
    ((DotDims.transposedRhs m K n).lhsIdx j kk 0).val = (j 0).val := by
  unfold DotDims.lhsIdx
  rw [dif_neg (show ¬(0 : Fin (⟨2, ![m, K]⟩ : Shape).rank) ∈ (DotDims.transposedRhs m K n).lhsBatch from List.not_mem_nil),
    dif_pos (show (0 : Fin (⟨2, ![m, K]⟩ : Shape).rank) ∈ (DotDims.transposedRhs m K n).lhsNonContracting from
      List.mem_singleton.mpr rfl)]
  rfl

/-- … and the right operand's row is the output's column. -/
theorem rhsIdx_row {m n K : ℕ} (j : (⟨2, ![m, n]⟩ : Shape).Idx) (kk : (DotDims.transposedRhs m K n).contr.Idx) :
    ((DotDims.transposedRhs m K n).rhsIdx j kk 0).val = (j 1).val := by
  unfold DotDims.rhsIdx
  rw [dif_neg (show ¬(0 : Fin (⟨2, ![n, K]⟩ : Shape).rank) ∈ (DotDims.transposedRhs m K n).rhsBatch from List.not_mem_nil),
    dif_pos (show (0 : Fin (⟨2, ![n, K]⟩ : Shape).rank) ∈ (DotDims.transposedRhs m K n).rhsNonContracting from
      List.mem_singleton.mpr rfl)]
  rfl

/-- The left operand's index at output (p, q) and contraction coordinate k is (p, k). -/
theorem lhsIdx_rows {m n K : ℕ} (p : Fin m) (q : Fin n) (k : Fin K) :
    (DotDims.transposedRhs m K n).lhsIdx (ix2 p q) ((contrEquiv1 (DotDims.transposedRhs m K n) K rfl rfl).symm k) = ix2 p k := by
  funext a
  refine Fin.ext ?_
  match a with
  | ⟨0, _⟩ => exact lhsIdx_row _ _
  | ⟨1, _⟩ =>
    exact ((DotDims.transposedRhs m K n).lhsIdx_val_of_single rfl _ _).trans
      (contrEquiv1_symm_val (DotDims.transposedRhs m K n) K rfl rfl k)

/-- The right operand's index there is (q, k). -/
theorem rhsIdx_rows {m n K : ℕ} (p : Fin m) (q : Fin n) (k : Fin K) :
    (DotDims.transposedRhs m K n).rhsIdx (ix2 p q) ((contrEquiv1 (DotDims.transposedRhs m K n) K rfl rfl).symm k) = ix2 q k := by
  funext a
  refine Fin.ext ?_
  match a with
  | ⟨0, _⟩ => exact rhsIdx_row _ _
  | ⟨1, _⟩ =>
    exact ((DotDims.transposedRhs m K n).rhsIdx_val_of_single rfl _ _).trans
      (contrEquiv1_symm_val (DotDims.transposedRhs m K n) K rfl rfl k)

/-- A product of an [m, K] block with an [n, K] block over their last axes, accumulated into zero: entry (p, q) is
    the inner product of row p of the first with row q of the second. -/
theorem matmul_rows {m n K : ℕ} {φ₁ φ₂ : FTy} (D : DotDims ⟨2, ![m, K]⟩ ⟨2, ![n, K]⟩ ⟨2, ![m, n]⟩)
    (hD : D = DotDims.transposedRhs m K n)
    (lhs : FVec Ideal ⟨2, ![m, K]⟩ φ₁) (rhs : FVec Ideal ⟨2, ![n, K]⟩ φ₂) (p : Fin m) (q : Fin n) :
    matmul (F := Ideal) D none lhs rhs (constant (F := Ideal) ⟨2, ![m, n]⟩ .f32 0x00000000#32) (ix2 p q)
      = Cert.Spec.dot (fun k => lhs (ix2 p k)) (fun k => rhs (ix2 q k)) := by
  subst hD
  unfold Cert.Spec.dot
  refine (Ideal.matmul_constant_zero_apply _ none lhs rhs (ix2 p q)).trans ?_
  rw [← Equiv.sum_comp (contrEquiv1 (DotDims.transposedRhs m K n) K rfl rfl).symm]
  refine Finset.sum_congr rfl fun k _ => ?_
  rw [lhsIdx_rows, rhsIdx_rows]

/-- Row `p` of a two-axis block. -/
abbrev row {a b : ℕ} {φ : FTy} (v : FVec Ideal ⟨2, ![a, b]⟩ φ) (p : Fin a) : Fin b → EReal := fun k => v (ix2 p k)
/-- Row `J` of a weight block. -/
abbrev wrow {a b : ℕ} {φ : FTy} (v : FVec Ideal ⟨2, ![a, b]⟩ φ) (J : Fin a) : Fin b → EReal := fun k => v (ix2 J k)
/-- Entry `J` of a one-row bias block. -/
abbrev bias {b : ℕ} (v : FVec Ideal ⟨2, ![1, b]⟩ .f32) (J : Fin b) : EReal := v (ix2 (0 : Fin 1) J)

end Cert.PayIdeal

end
-- ==== Proof.PayIdeal0.lean ====
/-
  The first cell's arithmetic at an entry, over the extended reals.

  The kernel forms one [256, 4096] block of gate pre-activations: entry (p, J) is the inner product of input row p
  with row J of the input weights, plus the inner product of recurrent row p with row J of the recurrent weights,
  plus bias entry J. Columns 0..1023 are the forget gate, 1024..2047 the input gate, 2048..3071 the candidate,
  3072..4095 the output gate. The new hidden value is logistic(output) times tanh of the squashed candidate; the
  new cell value is logistic(forget) times the old cell plus the squashed candidate times logistic(input).
-/
import proofs.«125369_j48885317763708_2_alg».proof.Proof.PayLib

noncomputable section

open scoped BigOperators

namespace Cert.PayIdeal

open Cert.KernelIdeal Cert.KernelIdeal.Gen Idealize.ShloMosaic ValueIdx

/-- The first kernel's gate pre-activation at row `p`, gate column `J`. -/
abbrev pre0 (v0 v2 : FVec Ideal S256x1024 .f32) (v4 v7 : FVec Ideal S4096x1024 .bf16) (v11 : FVec Ideal S1x4096 .f32)
    (p : Fin 256) (J : Fin 4096) : EReal :=
  Cert.Spec.pre (row v0 p) (row v2 p) (wrow v4 J) (wrow v7 J) (bias v11 J)
/-- The gates block: input row times weight row plus recurrent row times weight row, plus the bias entry. -/
theorem pay0_gates (v0 v2 : FVec Ideal S256x1024 .f32) (v4 v7 : FVec Ideal S4096x1024 .bf16) (v11 : FVec Ideal S1x4096 .f32)
    (p : Fin 256) (J : Fin 4096) :
    k0_pay1 (F := Ideal) v0 v2 v4 v7 v11 (ix2 p J) = pre0 v0 v2 v4 v7 v11 p J := by
  have e4 := shapeCast_self v4 shapeCasts_S4096x1024_S4096x1024
  have e7 := shapeCast_self v7 shapeCasts_S4096x1024_S4096x1024
  have e11 := shapeCast_self v11 shapeCasts_S1x4096_S1x4096
  show (matmul (F := Ideal) dot_S256x1024_S4096x1024_S256x4096_1_1_0_0_n_n none (truncf .bf16 v0 bitsLt_bf16_f32)
          (shapeCast S4096x1024 v4 shapeCasts_S4096x1024_S4096x1024) (constant (F := Ideal) S256x4096 .f32 0x00000000#32) (ix2 p J)
        + matmul (F := Ideal) dot_S256x1024_S4096x1024_S256x4096_1_1_0_0_n_n none (truncf .bf16 v2 bitsLt_bf16_f32)
          (shapeCast S4096x1024 v7 shapeCasts_S4096x1024_S4096x1024) (constant (F := Ideal) S256x4096 .f32 0x00000000#32) (ix2 p J))
        + broadcastTo S256x4096 (shapeCast S1x4096 v11 shapeCasts_S1x4096_S1x4096) broadcasts_S1x4096_S256x4096 (ix2 p J) = _
  rw [e4, e7, e11, matmul_rows dot_S256x1024_S4096x1024_S256x4096_1_1_0_0_n_n rfl,
    matmul_rows dot_S256x1024_S4096x1024_S256x4096_1_1_0_0_n_n rfl, broadcastTo_1b_ab_apply]
  rfl

/-- The new hidden block: the output gate times the hyperbolic tangent of the squashed candidate. -/
theorem pay0_h (v0 v2 : FVec Ideal S256x1024 .f32) (v4 v7 : FVec Ideal S4096x1024 .bf16) (v11 : FVec Ideal S1x4096 .f32)
    (p : Fin 256) (q : Fin 1024) :
    k0_pay3 (F := Ideal) v0 v2 v4 v7 v11 (ix2 p q)
      = Cert.Spec.hnew (pre0 v0 v2 v4 v7 v11 p ⟨3072 + q.val, by have := q.isLt; omega⟩)
          (pre0 v0 v2 v4 v7 v11 p ⟨2048 + q.val, by have := q.isLt; omega⟩) := by
  rw [← pay0_gates, ← pay0_gates]
  show Ideal.logistic (extractStridedSlice S256x1024 ![0, 3072] (k0_pay1 (F := Ideal) v0 v2 v4 v7 v11) slices_S256x4096_o0_3072_S256x1024 (ix2 p q))
      * Ideal.tanh (Ideal.tanh (extractStridedSlice S256x1024 ![0, 2048] (k0_pay1 (F := Ideal) v0 v2 v4 v7 v11) slices_S256x4096_o0_2048_S256x1024 (ix2 p q))) = _
  rw [slice2_axis1_eq, slice2_axis1_eq]
  rfl

/-- The new cell block: forget gate times old cell plus squashed candidate times input gate. -/
theorem pay0_c (v0 v2 : FVec Ideal S256x1024 .f32) (v4 v7 : FVec Ideal S4096x1024 .bf16) (v11 : FVec Ideal S1x4096 .f32)
    (v25 : FVec Ideal S256x1024 .f32) (p : Fin 256) (q : Fin 1024) :
    k0_pay4 (F := Ideal) v0 v2 v4 v7 v11 v25 (ix2 p q)
      = Cert.Spec.cnew (pre0 v0 v2 v4 v7 v11 p ⟨q.val, by have := q.isLt; omega⟩)
          (pre0 v0 v2 v4 v7 v11 p ⟨1024 + q.val, by have := q.isLt; omega⟩)
          (pre0 v0 v2 v4 v7 v11 p ⟨2048 + q.val, by have := q.isLt; omega⟩) (v25 (ix2 p q)) := by
  rw [← pay0_gates, ← pay0_gates, ← pay0_gates]
  show Ideal.logistic (extractStridedSlice S256x1024 ![0, 0] (k0_pay1 (F := Ideal) v0 v2 v4 v7 v11) slices_S256x4096_o0_0_S256x1024 (ix2 p q)) * v25 (ix2 p q)
      + Ideal.tanh (extractStridedSlice S256x1024 ![0, 2048] (k0_pay1 (F := Ideal) v0 v2 v4 v7 v11) slices_S256x4096_o0_2048_S256x1024 (ix2 p q))
        * Ideal.logistic (extractStridedSlice S256x1024 ![0, 1024] (k0_pay1 (F := Ideal) v0 v2 v4 v7 v11) slices_S256x4096_o0_1024_S256x1024 (ix2 p q)) = _
  rw [slice2_axis1_eq, slice2_axis1_eq, slice2_axis1_eq]
  have h0 : (⟨0 + q.val, by have := q.isLt; omega⟩ : Fin 4096) = ⟨q.val, by have := q.isLt; omega⟩ := Fin.ext (Nat.zero_add _)
  rw [h0]
  rfl

end Cert.PayIdeal

end
-- ==== Proof.KiValue0.lean ====
/-
  The first call's two result arrays in closed form, at the exact instance, from the contents `V` the call finds:
  entry (r, j) of the new hidden array is the output gate times the hyperbolic tangent of the squashed candidate,
  entry (r, j) of the new cell array is forget gate times old cell plus squashed candidate times input gate, the
  gates' pre-activations read at batch row r and at the packed columns j, 1024 + j, 2048 + j, 3072 + j. Each point's
  written-back block is the block of these functions, and the blocks tile the arrays.
-/
import proofs.«125369_j48885317763708_2_alg».proof.Proof.KiBlocks0
import proofs.«125369_j48885317763708_2_alg».proof.Proof.PayIdeal0

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat Cfg Window)
open Cert.PayIdeal (row wrow bias pre0)

variable (V : (c : Dev nD) → (b : Ref sig .tc) → Buf (Elt Ideal) ((c : Thread nD τ).loc b))

/-- A gate's pre-activation of the first cell at batch row `r` and packed column `J`, from the entry contents. -/
def gateV0 (c : Dev nD) (r : Fin 4096) (J : Fin 4096) : EReal :=
  Cert.Spec.pre (fun k => (V c main_arg0 : S4096x1024.Idx → EReal) (ix2 r k)) (fun k => (V c main_arg1 : S4096x1024.Idx → EReal) (ix2 r k))
    (fun k => (V c main_v2 : S4096x1024.Idx → EReal) (ix2 J k)) (fun k => (V c main_v3 : S4096x1024.Idx → EReal) (ix2 J k))
    ((V c main_v5 : S1x4096.Idx → EReal) (ix2 (0 : Fin 1) J))

/-- The first cell's new hidden array. -/
def GH0 (c : Dev nD) : S4096x1024.Idx → EReal := fun i =>
  Cert.Spec.hnew (gateV0 V c ⟨(i 0).val, idx2_lt0 i⟩ ⟨3072 + (i 1).val, by have := idx2_lt1 i; omega⟩)
    (gateV0 V c ⟨(i 0).val, idx2_lt0 i⟩ ⟨2048 + (i 1).val, by have := idx2_lt1 i; omega⟩)

/-- The first cell's new cell array. -/
def GC0 (c : Dev nD) : S4096x1024.Idx → EReal := fun i =>
  Cert.Spec.cnew (gateV0 V c ⟨(i 0).val, idx2_lt0 i⟩ ⟨(i 1).val, by have := idx2_lt1 i; omega⟩)
    (gateV0 V c ⟨(i 0).val, idx2_lt0 i⟩ ⟨1024 + (i 1).val, by have := idx2_lt1 i; omega⟩)
    (gateV0 V c ⟨(i 0).val, idx2_lt0 i⟩ ⟨2048 + (i 1).val, by have := idx2_lt1 i; omega⟩)
    ((V c main_arg3 : S4096x1024.Idx → EReal) i)

/-- A block's pre-activation is the arrays' pre-activation at the block's row offset. -/
theorem pre0_eq (c : Dev nD) (t : Fin cfg0.N) (p : Fin 256) (J : Fin 4096) :
    pre0 (iblk0 V c 0 t) (iblk0 V c 1 t) (iblk0 V c 3 t) (iblk0 V c 4 t) (iblk0 V c 5 t) p J = gateV0 V c (brow0 t p) J := by
  have h0 : row (φ := .f32) (iblk0 V c 0 t : FVec Ideal S256x1024 .f32) p = fun k => (V c main_arg0 : S4096x1024.Idx → EReal) (ix2 (brow0 t p) k) :=
    funext fun k => blk0_0_apply V c t p k
  have h1 : row (φ := .f32) (iblk0 V c 1 t : FVec Ideal S256x1024 .f32) p = fun k => (V c main_arg1 : S4096x1024.Idx → EReal) (ix2 (brow0 t p) k) :=
    funext fun k => blk0_1_apply V c t p k
  have h3 : wrow (φ := .bf16) (iblk0 V c 3 t : FVec Ideal S4096x1024 .bf16) J = fun k => (V c main_v2 : S4096x1024.Idx → EReal) (ix2 J k) :=
    funext fun k => blk0_3_apply V c t J k
  have h4 : wrow (φ := .bf16) (iblk0 V c 4 t : FVec Ideal S4096x1024 .bf16) J = fun k => (V c main_v3 : S4096x1024.Idx → EReal) (ix2 J k) :=
    funext fun k => blk0_4_apply V c t J k
  have h5 : bias (iblk0 V c 5 t : FVec Ideal S1x4096 .f32) J = (V c main_v5 : S1x4096.Idx → EReal) (ix2 (0 : Fin 1) J) :=
    blk0_5_apply V c t 0 J
  show Cert.Spec.pre (row (φ := .f32) (iblk0 V c 0 t : FVec Ideal S256x1024 .f32) p) (row (φ := .f32) (iblk0 V c 1 t : FVec Ideal S256x1024 .f32) p)
    (wrow (φ := .bf16) (iblk0 V c 3 t : FVec Ideal S4096x1024 .bf16) J) (wrow (φ := .bf16) (iblk0 V c 4 t : FVec Ideal S4096x1024 .bf16) J)
    (bias (iblk0 V c 5 t : FVec Ideal S1x4096 .f32) J) = _
  rw [h0, h1, h3, h4, h5]
  rfl

/-- What point `t` writes back of the new hidden array is block `t` of its closed form. -/
theorem flushed0_6_eq (c : Dev nD) (t : Fin cfg0.N) :
    (dat0 V c).flushed 6 t = ((cfg0.win 6).blk t).view.read (Elt Ideal) (GH0 V c) := by
  show (cfg0.win 6).cut (grid0.coords t) ((dat0 V c).after 6 t) = _
  rw [after0_6]
  unfold out0_6
  rw [View.canon_unit_zero hz0]
  simp only [View.ld_unit_zero (S := S256x1024) hz0, View.ld_unit_zero (S := S4096x1024) hz0, View.ld_unit_zero (S := S1x4096) hz0]
  funext y
  obtain ⟨p, q, rfl⟩ : ∃ (p : Fin 256) (q : Fin 1024), y = ix2 p q := ⟨y 0, y 1, eq_ix2 y⟩
  show k0_pay3 (F := Ideal) (iblk0 V c 0 t) (iblk0 V c 1 t) (iblk0 V c 3 t) (iblk0 V c 4 t) (iblk0 V c 5 t) (ix2 p q)
    = GH0 V c (((cfg0.win 6).blk t).view.emb (ix2 p q))
  rw [emb0_6, Cert.PayIdeal.pay0_h, pre0_eq, pre0_eq]
  rfl

/-- What point `t` writes back of the new cell array is block `t` of its closed form. -/
theorem flushed0_7_eq (c : Dev nD) (t : Fin cfg0.N) :
    (dat0 V c).flushed 7 t = ((cfg0.win 7).blk t).view.read (Elt Ideal) (GC0 V c) := by
  show (cfg0.win 7).cut (grid0.coords t) ((dat0 V c).after 7 t) = _
  rw [after0_7]
  unfold out0_7
  rw [View.canon_unit_zero hz0]
  simp only [View.ld_unit_zero (S := S256x1024) hz0, View.ld_unit_zero (S := S4096x1024) hz0, View.ld_unit_zero (S := S1x4096) hz0]
  funext y
  obtain ⟨p, q, rfl⟩ : ∃ (p : Fin 256) (q : Fin 1024), y = ix2 p q := ⟨y 0, y 1, eq_ix2 y⟩
  show k0_pay4 (F := Ideal) (iblk0 V c 0 t) (iblk0 V c 1 t) (iblk0 V c 3 t) (iblk0 V c 4 t) (iblk0 V c 5 t) (iblk0 V c 2 t) (ix2 p q)
    = GC0 V c (((cfg0.win 7).blk t).view.emb (ix2 p q))
  rw [emb0_7, Cert.PayIdeal.pay0_c, pre0_eq, pre0_eq, pre0_eq, blk0_2_apply]
  rfl

/-- The new hidden array after the call. -/
theorem final0_6 (c : Dev nD) : (dat0 V c).arrAt 6 cfg0.N = GH0 V c :=
  (dat0 V c).arrAt_eq_of_cover 6 (GH0 V c) (fun t _ => flushed0_6_eq V c t) cover0_6

/-- The new cell array after the call. -/
theorem final0_7 (c : Dev nD) : (dat0 V c).arrAt 7 cfg0.N = GC0 V c :=
  (dat0 V c).arrAt_eq_of_cover 7 (GC0 V c) (fun t _ => flushed0_7_eq V c t) cover0_7

end Cert.KernelIdeal.Hand

end
-- ==== Proof.KiBlocks1.lean ====
/-
  The second call's windows read at coordinates. Point `t` of its grid of 32 takes rows 128·t … 128·t + 127 of the
  three batch arrays and writes the same rows of the three results; the packed weights, the head's weights and all
  biases are taken whole at every point. The thirty-two output blocks tile the result arrays.
-/
import proofs.«125369_j48885317763708_2_alg».proof.Proof.KiRegion1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat Cfg Window)

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-- The block index maps over the grid: the batch windows' row block is the point's number, their column block 0;
    the resident windows sit at block (0, 0). One pair of facts per window, in the windows' order. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0)
    ∧ (win1_12.index t (0 : Fin 2) = t.val ∧ win1_12.index t (1 : Fin 2) = 0) :=
  (by decide +kernel : ∀ t : Fin grid1.N, _)

theorem t_lt1 (t : Fin cfg1.N) : t.val < 32 := by have h := t.isLt; have e : cfg1.N = 32 := N_1; omega

/-- A batch row from a point's number and a row inside its block. -/
abbrev brow1 (t : Fin cfg1.N) (p : Fin 128) : Fin 4096 := ⟨t.val * 128 + p.val, by have := t_lt1 t; have := p.isLt; omega⟩

theorem blk1_0_apply (c : Dev nD) (t : Fin cfg1.N) (p : Fin 128) (k : Fin 1024) :
    iblk1 V c 0 t (ix2 p k) = (V c main_v16_0 : S4096x1024.Idx → Elt F .f32) (ix2 (brow1 t p) k) := by
  have e0 := (idx_facts1 t).1.1
  have e1 := (idx_facts1 t).1.2
  show (V c main_v16_0 : S4096x1024.Idx → Elt F .f32) (((cfg1.win 0).blk t).view.emb (ix2 p k)) = _
  refine congrArg _ ?_
  funext a; apply Fin.ext
  match a with
  | ⟨0, _⟩ => show win1_0.index t (0 : Fin 2) * 128 + 1 * p.val = t.val * 128 + p.val; omega
  | ⟨1, _⟩ => show win1_0.index t (1 : Fin 2) * 1024 + 1 * k.val = k.val; omega

theorem blk1_1_apply (c : Dev nD) (t : Fin cfg1.N) (p : Fin 128) (k : Fin 1024) :
    iblk1 V c 1 t (ix2 p k) = (V c main_arg2 : S4096x1024.Idx → Elt F .f32) (ix2 (brow1 t p) k) := by
  have e0 := (idx_facts1 t).2.1.1
  have e1 := (idx_facts1 t).2.1.2
  show (V c main_arg2 : S4096x1024.Idx → Elt F .f32) (((cfg1.win 1).blk t).view.emb (ix2 p k)) = _
  refine congrArg _ ?_
  funext a; apply Fin.ext
  match a with
  | ⟨0, _⟩ => show win1_1.index t (0 : Fin 2) * 128 + 1 * p.val = t.val * 128 + p.val; omega
  | ⟨1, _⟩ => show win1_1.index t (1 : Fin 2) * 1024 + 1 * k.val = k.val; omega

theorem blk1_2_apply (c : Dev nD) (t : Fin cfg1.N) (p : Fin 128) (k : Fin 1024) :
    iblk1 V c 2 t (ix2 p k) = (V c main_arg4 : S4096x1024.Idx → Elt F .f32) (ix2 (brow1 t p) k) := by
  have e0 := (idx_facts1 t).2.2.1.1
  have e1 := (idx_facts1 t).2.2.1.2
  show (V c main_arg4 : S4096x1024.Idx → Elt F .f32) (((cfg1.win 2).blk t).view.emb (ix2 p k)) = _
  refine congrArg _ ?_
  funext a; apply Fin.ext
  match a with
  | ⟨0, _⟩ => show win1_2.index t (0 : Fin 2) * 128 + 1 * p.val = t.val * 128 + p.val; omega
  | ⟨1, _⟩ => show win1_2.index t (1 : Fin 2) * 1024 + 1 * k.val = k.val; omega

theorem blk1_3_apply (c : Dev nD) (t : Fin cfg1.N) (J : Fin 4096) (k : Fin 1024) :
    iblk1 V c 3 t (ix2 J k) = (V c main_v8 : S4096x1024.Idx → Elt F .bf16) (ix2 J k) := by
  have e0 := (idx_facts1 t).2.2.2.1.1
  have e1 := (idx_facts1 t).2.2.2.1.2
  show (V c main_v8 : S4096x1024.Idx → Elt F .bf16) (((cfg1.win 3).blk t).view.emb (ix2 J k)) = _
  refine congrArg _ ?_
  funext a; apply Fin.ext
  match a with
  | ⟨0, _⟩ => show win1_3.index t (0 : Fin 2) * 4096 + 1 * J.val = J.val; omega
  | ⟨1, _⟩ => show win1_3.index t (1 : Fin 2) * 1024 + 1 * k.val = k.val; omega

theorem blk1_4_apply (c : Dev nD) (t : Fin cfg1.N) (J : Fin 4096) (k : Fin 1024) :
    iblk1 V c 4 t (ix2 J k) = (V c main_v9 : S4096x1024.Idx → Elt F .bf16) (ix2 J k) := by
  have e0 := (idx_facts1 t).2.2.2.2.1.1
  have e1 := (idx_facts1 t).2.2.2.2.1.2
  show (V c main_v9 : S4096x1024.Idx → Elt F .bf16) (((cfg1.win 4).blk t).view.emb (ix2 J k)) = _
  refine congrArg _ ?_
  funext a; apply Fin.ext
  match a with
  | ⟨0, _⟩ => show win1_4.index t (0 : Fin 2) * 4096 + 1 * J.val = J.val; omega
  | ⟨1, _⟩ => show win1_4.index t (1 : Fin 2) * 1024 + 1 * k.val = k.val; omega

theorem blk1_5_apply (c : Dev nD) (t : Fin cfg1.N) (J : Fin 1) (k : Fin 4096) :
    iblk1 V c 5 t (ix2 J k) = (V c main_v11 : S1x4096.Idx → Elt F .f32) (ix2 J k) := by
  have e0 := (idx_facts1 t).2.2.2.2.2.1.1
  have e1 := (idx_facts1 t).2.2.2.2.2.1.2
  show (V c main_v11 : S1x4096.Idx → Elt F .f32) (((cfg1.win 5).blk t).view.emb (ix2 J k)) = _
  refine congrArg _ ?_
  funext a; apply Fin.ext
  match a with
  | ⟨0, _⟩ => show win1_5.index t (0 : Fin 2) * 1 + 1 * J.val = J.val; omega
  | ⟨1, _⟩ => show win1_5.index t (1 : Fin 2) * 4096 + 1 * k.val = k.val; omega

theorem blk1_6_apply (c : Dev nD) (t : Fin cfg1.N) (J : Fin 2048) (k : Fin 1024) :
    iblk1 V c 6 t (ix2 J k) = (V c main_v12 : S2048x1024.Idx → Elt F .bf16) (ix2 J k) := by
  have e0 := (idx_facts1 t).2.2.2.2.2.2.1.1
  have e1 := (idx_facts1 t).2.2.2.2.2.2.1.2
  show (V c main_v12 : S2048x1024.Idx → Elt F .bf16) (((cfg1.win 6).blk t).view.emb (ix2 J k)) = _
  refine congrArg _ ?_
  funext a; apply Fin.ext
  match a with
  | ⟨0, _⟩ => show win1_6.index t (0 : Fin 2) * 2048 + 1 * J.val = J.val; omega
  | ⟨1, _⟩ => show win1_6.index t (1 : Fin 2) * 1024 + 1 * k.val = k.val; omega

theorem blk1_7_apply (c : Dev nD) (t : Fin cfg1.N) (J : Fin 1) (k : Fin 2048) :
    iblk1 V c 7 t (ix2 J k) = (V c main_v13 : S1x2048.Idx → Elt F .f32) (ix2 J k) := by
  have e0 := (idx_facts1 t).2.2.2.2.2.2.2.1.1
  have e1 := (idx_facts1 t).2.2.2.2.2.2.2.1.2
  show (V c main_v13 : S1x2048.Idx → Elt F .f32) (((cfg1.win 7).blk t).view.emb (ix2 J k)) = _
  refine congrArg _ ?_
  funext a; apply Fin.ext
  match a with
  | ⟨0, _⟩ => show win1_7.index t (0 : Fin 2) * 1 + 1 * J.val = J.val; omega
  | ⟨1, _⟩ => show win1_7.index t (1 : Fin 2) * 2048 + 1 * k.val = k.val; omega

theorem blk1_8_apply (c : Dev nD) (t : Fin cfg1.N) (J : Fin 1024) (k : Fin 2048) :
    iblk1 V c 8 t (ix2 J k) = (V c main_v14 : S1024x2048.Idx → Elt F .bf16) (ix2 J k) := by
  have e0 := (idx_facts1 t).2.2.2.2.2.2.2.2.1.1
  have e1 := (idx_facts1 t).2.2.2.2.2.2.2.2.1.2
  show (V c main_v14 : S1024x2048.Idx → Elt F .bf16) (((cfg1.win 8).blk t).view.emb (ix2 J k)) = _
  refine congrArg _ ?_
  funext a; apply Fin.ext
  match a with
  | ⟨0, _⟩ => show win1_8.index t (0 : Fin 2) * 1024 + 1 * J.val = J.val; omega
  | ⟨1, _⟩ => show win1_8.index t (1 : Fin 2) * 2048 + 1 * k.val = k.val; omega

theorem blk1_9_apply (c : Dev nD) (t : Fin cfg1.N) (J : Fin 1) (k : Fin 1024) :
    iblk1 V c 9 t (ix2 J k) = (V c main_v15 : S1x1024.Idx → Elt F .f32) (ix2 J k) := by
  have e0 := (idx_facts1 t).2.2.2.2.2.2.2.2.2.1.1
  have e1 := (idx_facts1 t).2.2.2.2.2.2.2.2.2.1.2
  show (V c main_v15 : S1x1024.Idx → Elt F .f32) (((cfg1.win 9).blk t).view.emb (ix2 J k)) = _
  refine congrArg _ ?_
  funext a; apply Fin.ext
  match a with
  | ⟨0, _⟩ => show win1_9.index t (0 : Fin 2) * 1 + 1 * J.val = J.val; omega
  | ⟨1, _⟩ => show win1_9.index t (1 : Fin 2) * 1024 + 1 * k.val = k.val; omega

theorem emb1_10 (t : Fin cfg1.N) (p : Fin 128) (q : Fin 1024) :
    ((cfg1.win 10).blk t).view.emb (ix2 p q) = (ix2 (brow1 t p) q : S4096x1024.Idx) := by
  have e0 := (idx_facts1 t).2.2.2.2.2.2.2.2.2.2.1.1
  have e1 := (idx_facts1 t).2.2.2.2.2.2.2.2.2.2.1.2
  funext a; apply Fin.ext
  match a with
  | ⟨0, _⟩ => show win1_10.index t (0 : Fin 2) * 128 + 1 * p.val = t.val * 128 + p.val; omega
  | ⟨1, _⟩ => show win1_10.index t (1 : Fin 2) * 1024 + 1 * q.val = q.val; omega

theorem mem_blk1_10 (t : Fin cfg1.N) (i : S4096x1024.Idx) :
    i ∈ ((cfg1.win 10).blk t).view.set ↔ ∀ a : Fin 2, win1_10.index t a * S128x1024.size a ≤ (i a).val ∧ (i a).val < win1_10.index t a * S128x1024.size a + S128x1024.size a := by
  show i ∈ ((View.whole main_v17_0).slice (win1_10.rect t)).set ↔ _
  rw [View.set_slice_whole, Rect.mem_set_unit]
  exact Iff.rfl

theorem cover1_10 (i : S4096x1024.Idx) : ∃ t : Fin cfg1.N, (cfg1.win 10).flush t = true ∧ i ∈ ((cfg1.win 10).blk t).view.set := by
  have hi0 : (i 0).val < 4096 := (i 0).isLt
  have hi1 : (i 1).val < 1024 := (i 1).isLt
  have hN : cfg1.N = 32 := N_1
  let t : Fin cfg1.N := ⟨(i 0).val / 128, by omega⟩
  have e0 := (idx_facts1 t).2.2.2.2.2.2.2.2.2.2.1.1
  have e1 := (idx_facts1 t).2.2.2.2.2.2.2.2.2.2.1.2
  refine ⟨t, flush1_10 t, ?_⟩
  rw [mem_blk1_10]
  intro a
  have ht : t.val = (i 0).val / 128 := rfl
  match a with
  | ⟨0, _⟩ => show win1_10.index t (0 : Fin 2) * 128 ≤ (i 0).val ∧ (i 0).val < win1_10.index t (0 : Fin 2) * 128 + 128; omega
  | ⟨1, _⟩ => show win1_10.index t (1 : Fin 2) * 1024 ≤ (i 1).val ∧ (i 1).val < win1_10.index t (1 : Fin 2) * 1024 + 1024; omega

theorem emb1_11 (t : Fin cfg1.N) (p : Fin 128) (q : Fin 1024) :
    ((cfg1.win 11).blk t).view.emb (ix2 p q) = (ix2 (brow1 t p) q : S4096x1024.Idx) := by
  have e0 := (idx_facts1 t).2.2.2.2.2.2.2.2.2.2.2.1.1
  have e1 := (idx_facts1 t).2.2.2.2.2.2.2.2.2.2.2.1.2
  funext a; apply Fin.ext
  match a with
  | ⟨0, _⟩ => show win1_11.index t (0 : Fin 2) * 128 + 1 * p.val = t.val * 128 + p.val; omega
  | ⟨1, _⟩ => show win1_11.index t (1 : Fin 2) * 1024 + 1 * q.val = q.val; omega

theorem mem_blk1_11 (t : Fin cfg1.N) (i : S4096x1024.Idx) :
    i ∈ ((cfg1.win 11).blk t).view.set ↔ ∀ a : Fin 2, win1_11.index t a * S128x1024.size a ≤ (i a).val ∧ (i a).val < win1_11.index t a * S128x1024.size a + S128x1024.size a := by
  show i ∈ ((View.whole main_v17_1).slice (win1_11.rect t)).set ↔ _
  rw [View.set_slice_whole, Rect.mem_set_unit]
  exact Iff.rfl

theorem cover1_11 (i : S4096x1024.Idx) : ∃ t : Fin cfg1.N, (cfg1.win 11).flush t = true ∧ i ∈ ((cfg1.win 11).blk t).view.set := by
  have hi0 : (i 0).val < 4096 := (i 0).isLt
  have hi1 : (i 1).val < 1024 := (i 1).isLt
  have hN : cfg1.N = 32 := N_1
  let t : Fin cfg1.N := ⟨(i 0).val / 128, by omega⟩
  have e0 := (idx_facts1 t).2.2.2.2.2.2.2.2.2.2.2.1.1
  have e1 := (idx_facts1 t).2.2.2.2.2.2.2.2.2.2.2.1.2
  refine ⟨t, flush1_11 t, ?_⟩
  rw [mem_blk1_11]
  intro a
  have ht : t.val = (i 0).val / 128 := rfl
  match a with
  | ⟨0, _⟩ => show win1_11.index t (0 : Fin 2) * 128 ≤ (i 0).val ∧ (i 0).val < win1_11.index t (0 : Fin 2) * 128 + 128; omega
  | ⟨1, _⟩ => show win1_11.index t (1 : Fin 2) * 1024 ≤ (i 1).val ∧ (i 1).val < win1_11.index t (1 : Fin 2) * 1024 + 1024; omega

theorem emb1_12 (t : Fin cfg1.N) (p : Fin 128) (q : Fin 1024) :
    ((cfg1.win 12).blk t).view.emb (ix2 p q) = (ix2 (brow1 t p) q : S4096x1024.Idx) := by
  have e0 := (idx_facts1 t).2.2.2.2.2.2.2.2.2.2.2.2.1
  have e1 := (idx_facts1 t).2.2.2.2.2.2.2.2.2.2.2.2.2
  funext a; apply Fin.ext
  match a with
  | ⟨0, _⟩ => show win1_12.index t (0 : Fin 2) * 128 + 1 * p.val = t.val * 128 + p.val; omega
  | ⟨1, _⟩ => show win1_12.index t (1 : Fin 2) * 1024 + 1 * q.val = q.val; omega

theorem mem_blk1_12 (t : Fin cfg1.N) (i : S4096x1024.Idx) :
    i ∈ ((cfg1.win 12).blk t).view.set ↔ ∀ a : Fin 2, win1_12.index t a * S128x1024.size a ≤ (i a).val ∧ (i a).val < win1_12.index t a * S128x1024.size a + S128x1024.size a := by
  show i ∈ ((View.whole main_v17_2).slice (win1_12.rect t)).set ↔ _
  rw [View.set_slice_whole, Rect.mem_set_unit]
  exact Iff.rfl

theorem cover1_12 (i : S4096x1024.Idx) : ∃ t : Fin cfg1.N, (cfg1.win 12).flush t = true ∧ i ∈ ((cfg1.win 12).blk t).view.set := by
  have hi0 : (i 0).val < 4096 := (i 0).isLt
  have hi1 : (i 1).val < 1024 := (i 1).isLt
  have hN : cfg1.N = 32 := N_1
  let t : Fin cfg1.N := ⟨(i 0).val / 128, by omega⟩
  have e0 := (idx_facts1 t).2.2.2.2.2.2.2.2.2.2.2.2.1
  have e1 := (idx_facts1 t).2.2.2.2.2.2.2.2.2.2.2.2.2
  refine ⟨t, flush1_12 t, ?_⟩
  rw [mem_blk1_12]
  intro a
  have ht : t.val = (i 0).val / 128 := rfl
  match a with
  | ⟨0, _⟩ => show win1_12.index t (0 : Fin 2) * 128 ≤ (i 0).val ∧ (i 0).val < win1_12.index t (0 : Fin 2) * 128 + 128; omega
  | ⟨1, _⟩ => show win1_12.index t (1 : Fin 2) * 1024 ≤ (i 1).val ∧ (i 1).val < win1_12.index t (1 : Fin 2) * 1024 + 1024; omega

end Cert.KernelIdeal.Hand

end
-- ==== Proof.PayIdeal1.lean ====
/-
  The second cell's and the head's arithmetic at an entry, over the extended reals.

  On a [128, ·] block of rows the kernel forms the [128, 4096] gate pre-activations exactly as the first cell does
  (forget, input, candidate, output in column blocks of 1024), the new hidden and cell values from them, then the
  head: the new hidden block times the transpose of the [2048, 1024] weights, the bias added and the rectifier
  applied, and that times the transpose of the [1024, 2048] weights plus the last bias.
-/
import proofs.«125369_j48885317763708_2_alg».proof.Proof.PayLib

noncomputable section

open scoped BigOperators

namespace Cert.PayIdeal

open Cert.KernelIdeal Cert.KernelIdeal.Gen Idealize.ShloMosaic ValueIdx

/-- The second kernel's gate pre-activation at row `p`, gate column `J`. -/
abbrev pre1 (v0 v3 : FVec Ideal S128x1024 .f32) (v5 v8 : FVec Ideal S4096x1024 .bf16) (v12 : FVec Ideal S1x4096 .f32)
    (p : Fin 128) (J : Fin 4096) : EReal :=
  Cert.Spec.pre (row v0 p) (row v3 p) (wrow v5 J) (wrow v8 J) (bias v12 J)

/-- The gates block: input row times weight row plus recurrent row times weight row, plus the bias entry. -/
theorem pay1_gates (v0 v3 : FVec Ideal S128x1024 .f32) (v5 v8 : FVec Ideal S4096x1024 .bf16) (v12 : FVec Ideal S1x4096 .f32)
    (p : Fin 128) (J : Fin 4096) :
    k1_pay2 (F := Ideal) v0 v3 v5 v8 v12 (ix2 p J) = pre1 v0 v3 v5 v8 v12 p J := by
  have e0 := shapeCast_self v0 shapeCasts_S128x1024_S128x1024
  have e5 := shapeCast_self v5 shapeCasts_S4096x1024_S4096x1024
  have e8 := shapeCast_self v8 shapeCasts_S4096x1024_S4096x1024
  have e12 := shapeCast_self v12 shapeCasts_S1x4096_S1x4096
  show (matmul (F := Ideal) dot_S128x1024_S4096x1024_S128x4096_1_1_0_0_n_n none
          (truncf .bf16 (shapeCast S128x1024 v0 shapeCasts_S128x1024_S128x1024) bitsLt_bf16_f32)
          (shapeCast S4096x1024 v5 shapeCasts_S4096x1024_S4096x1024) (constant (F := Ideal) S128x4096 .f32 0x00000000#32) (ix2 p J)
        + matmul (F := Ideal) dot_S128x1024_S4096x1024_S128x4096_1_1_0_0_n_n none (truncf .bf16 v3 bitsLt_bf16_f32)
          (shapeCast S4096x1024 v8 shapeCasts_S4096x1024_S4096x1024) (constant (F := Ideal) S128x4096 .f32 0x00000000#32) (ix2 p J))
        + broadcastTo S128x4096 (shapeCast S1x4096 v12 shapeCasts_S1x4096_S1x4096) broadcasts_S1x4096_S128x4096 (ix2 p J) = _
  rw [e0, e5, e8, e12, matmul_rows dot_S128x1024_S4096x1024_S128x4096_1_1_0_0_n_n rfl,
    matmul_rows dot_S128x1024_S4096x1024_S128x4096_1_1_0_0_n_n rfl, broadcastTo_1b_ab_apply]
  rfl

/-- The new hidden block: the output gate times the hyperbolic tangent of the squashed candidate. -/
theorem pay1_h (v0 v3 : FVec Ideal S128x1024 .f32) (v5 v8 : FVec Ideal S4096x1024 .bf16) (v12 : FVec Ideal S1x4096 .f32)
    (p : Fin 128) (q : Fin 1024) :
    k1_pay4 (F := Ideal) v0 v3 v5 v8 v12 (ix2 p q)
      = Cert.Spec.hnew (pre1 v0 v3 v5 v8 v12 p ⟨3072 + q.val, by have := q.isLt; omega⟩)
          (pre1 v0 v3 v5 v8 v12 p ⟨2048 + q.val, by have := q.isLt; omega⟩) := by
  rw [← pay1_gates, ← pay1_gates]
  show Ideal.logistic (extractStridedSlice S128x1024 ![0, 3072] (k1_pay2 (F := Ideal) v0 v3 v5 v8 v12) slices_S128x4096_o0_3072_S128x1024 (ix2 p q))
      * Ideal.tanh (Ideal.tanh (extractStridedSlice S128x1024 ![0, 2048] (k1_pay2 (F := Ideal) v0 v3 v5 v8 v12) slices_S128x4096_o0_2048_S128x1024 (ix2 p q))) = _
  rw [slice2_axis1_eq, slice2_axis1_eq]
  rfl

/-- The new cell block: forget gate times old cell plus squashed candidate times input gate. -/
theorem pay1_c (v0 v3 : FVec Ideal S128x1024 .f32) (v5 v8 : FVec Ideal S4096x1024 .bf16) (v12 : FVec Ideal S1x4096 .f32)
    (v26 : FVec Ideal S128x1024 .f32) (p : Fin 128) (q : Fin 1024) :
    k1_pay5 (F := Ideal) v0 v3 v5 v8 v12 v26 (ix2 p q)
      = Cert.Spec.cnew (pre1 v0 v3 v5 v8 v12 p ⟨q.val, by have := q.isLt; omega⟩)
          (pre1 v0 v3 v5 v8 v12 p ⟨1024 + q.val, by have := q.isLt; omega⟩)
          (pre1 v0 v3 v5 v8 v12 p ⟨2048 + q.val, by have := q.isLt; omega⟩) (v26 (ix2 p q)) := by
  rw [← pay1_gates, ← pay1_gates, ← pay1_gates]
  show Ideal.logistic (extractStridedSlice S128x1024 ![0, 0] (k1_pay2 (F := Ideal) v0 v3 v5 v8 v12) slices_S128x4096_o0_0_S128x1024 (ix2 p q)) * v26 (ix2 p q)
      + Ideal.tanh (extractStridedSlice S128x1024 ![0, 2048] (k1_pay2 (F := Ideal) v0 v3 v5 v8 v12) slices_S128x4096_o0_2048_S128x1024 (ix2 p q))
        * Ideal.logistic (extractStridedSlice S128x1024 ![0, 1024] (k1_pay2 (F := Ideal) v0 v3 v5 v8 v12) slices_S128x4096_o0_1024_S128x1024 (ix2 p q)) = _
  rw [slice2_axis1_eq, slice2_axis1_eq, slice2_axis1_eq]
  have h0 : (⟨0 + q.val, by have := q.isLt; omega⟩ : Fin 4096) = ⟨q.val, by have := q.isLt; omega⟩ := Fin.ext (Nat.zero_add _)
  rw [h0]
  rfl

/-- The head's first product: row `p` of the new hidden block against row `n` of the [2048, 1024] weights. -/
theorem pay1_mid (v0 v3 : FVec Ideal S128x1024 .f32) (v5 v8 : FVec Ideal S4096x1024 .bf16) (v12 : FVec Ideal S1x4096 .f32)
    (v33 : FVec Ideal S2048x1024 .bf16) (p : Fin 128) (n : Fin 2048) :
    k1_pay6 (F := Ideal) v0 v3 v5 v8 v12 v33 (ix2 p n)
      = Cert.Spec.dot (fun k => k1_pay4 (F := Ideal) v0 v3 v5 v8 v12 (ix2 p k)) (fun k => v33 (ix2 n k)) := by
  have e33 := shapeCast_self v33 shapeCasts_S2048x1024_S2048x1024
  show matmul (F := Ideal) dot_S128x1024_S2048x1024_S128x2048_1_1_0_0_n_n none
        (truncf .bf16 (k1_pay4 (F := Ideal) v0 v3 v5 v8 v12) bitsLt_bf16_f32)
        (shapeCast S2048x1024 v33 shapeCasts_S2048x1024_S2048x1024) (constant (F := Ideal) S128x2048 .f32 0x00000000#32) (ix2 p n) = _
  rw [e33, matmul_rows dot_S128x1024_S2048x1024_S128x2048_1_1_0_0_n_n rfl]
  rfl

/-- The same with the new hidden row written out by the gates. -/
theorem pay1_mid_gates (v0 v3 : FVec Ideal S128x1024 .f32) (v5 v8 : FVec Ideal S4096x1024 .bf16) (v12 : FVec Ideal S1x4096 .f32)
    (v33 : FVec Ideal S2048x1024 .bf16) (p : Fin 128) (n : Fin 2048) :
    k1_pay6 (F := Ideal) v0 v3 v5 v8 v12 v33 (ix2 p n)
      = Cert.Spec.dot (fun k : Fin 1024 => Cert.Spec.hnew (pre1 v0 v3 v5 v8 v12 p ⟨3072 + k.val, by have := k.isLt; omega⟩)
          (pre1 v0 v3 v5 v8 v12 p ⟨2048 + k.val, by have := k.isLt; omega⟩)) (fun k => v33 (ix2 n k)) :=
  (pay1_mid v0 v3 v5 v8 v12 v33 p n).trans
    (congrArg (fun f => Cert.Spec.dot f (fun k => v33 (ix2 n k))) (funext fun k => pay1_h v0 v3 v5 v8 v12 p k))

/-- The head's output: the rectified first layer's row `p` against row `q` of the [1024, 2048] weights, plus the bias. -/
theorem pay1_out (v35 : FVec Ideal S128x2048 .f32) (v36 : FVec Ideal S1x2048 .f32) (v43 : FVec Ideal S1024x2048 .bf16)
    (v46 : FVec Ideal S1x1024 .f32) (p : Fin 128) (q : Fin 1024) :
    k1_pay1 (F := Ideal) v35 v36 v43 v46 (ix2 p q)
      = Cert.Spec.dot (fun n => Cert.Spec.relu (v35 (ix2 p n) + v36 (ix2 (0 : Fin 1) n))) (fun n => v43 (ix2 q n))
        + v46 (ix2 (0 : Fin 1) q) := by
  have e36 := shapeCast_self v36 shapeCasts_S1x2048_S1x2048
  have e43 := shapeCast_self v43 shapeCasts_S1024x2048_S1024x2048
  have e46 := shapeCast_self v46 shapeCasts_S1x1024_S1x1024
  show matmul (F := Ideal) dot_S128x2048_S1024x2048_S128x1024_1_1_0_0_n_n none
        (truncf .bf16 (maximumf (addf v35 (broadcastTo S128x2048 (shapeCast S1x2048 v36 shapeCasts_S1x2048_S1x2048) broadcasts_S1x2048_S128x2048))
          (broadcast S128x2048 (Scalar.ofBits (F := Ideal) .f32 0x00000000#32))) bitsLt_bf16_f32)
        (shapeCast S1024x2048 v43 shapeCasts_S1024x2048_S1024x2048) (constant (F := Ideal) S128x1024 .f32 0x00000000#32) (ix2 p q)
      + broadcastTo S128x1024 (shapeCast S1x1024 v46 shapeCasts_S1x1024_S1x1024) broadcasts_S1x1024_S128x1024 (ix2 p q) = _
  rw [e36, e43, e46, matmul_rows dot_S128x2048_S1024x2048_S128x1024_1_1_0_0_n_n rfl, broadcastTo_1b_ab_apply]
  refine congrArg (· + v46 (ix2 (0 : Fin 1) q)) ?_
  refine congrArg (fun f => Cert.Spec.dot f (fun n => v43 (ix2 q n))) (funext fun n => ?_)
  show max (v35 (ix2 p n) + broadcastTo S128x2048 v36 broadcasts_S1x2048_S128x2048 (ix2 p n)) (Ideal.ofBits .f32 0x00000000#32)
      = Cert.Spec.relu _
  rw [broadcastTo_1b_ab_apply, Ideal.ofBits_zero_f32]
  rfl

end Cert.PayIdeal

end
-- ==== Proof.KiValue1.lean ====
/-
  The second call's three result arrays in closed form, at the exact instance, from the contents `V` the call
  finds: the second cell's new hidden and new cell arrays exactly as the first cell's (its input the first cell's
  new hidden array as found), and the head's output — entry (r, q) is the inner product of the rectified hidden
  layer's row r with row q of the last weight, plus the last bias; the hidden layer's entry (r, n) is the inner
  product of the new hidden row r with row n of the first head weight, plus its bias.
-/
import proofs.«125369_j48885317763708_2_alg».proof.Proof.KiBlocks1
import proofs.«125369_j48885317763708_2_alg».proof.Proof.PayIdeal1

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat Cfg Window)
open Cert.PayIdeal (row wrow bias pre1)

variable (V : (c : Dev nD) → (b : Ref sig .tc) → Buf (Elt Ideal) ((c : Thread nD τ).loc b))

/-- A gate's pre-activation of the second cell at batch row `r` and packed column `J`, from the entry contents. -/
def gateV1 (c : Dev nD) (r : Fin 4096) (J : Fin 4096) : EReal :=
  Cert.Spec.pre (fun k => (V c main_v16_0 : S4096x1024.Idx → EReal) (ix2 r k)) (fun k => (V c main_arg2 : S4096x1024.Idx → EReal) (ix2 r k))
    (fun k => (V c main_v8 : S4096x1024.Idx → EReal) (ix2 J k)) (fun k => (V c main_v9 : S4096x1024.Idx → EReal) (ix2 J k))
    ((V c main_v11 : S1x4096.Idx → EReal) (ix2 (0 : Fin 1) J))

/-- Row `r` of the second cell's new hidden array. -/
def hrow1 (c : Dev nD) (r : Fin 4096) : Fin 1024 → EReal := fun k =>
  Cert.Spec.hnew (gateV1 V c r ⟨3072 + k.val, by have := k.isLt; omega⟩) (gateV1 V c r ⟨2048 + k.val, by have := k.isLt; omega⟩)

/-- The second cell's new hidden array. -/
def GH1 (c : Dev nD) : S4096x1024.Idx → EReal := fun i => hrow1 V c ⟨(i 0).val, idx2_lt0 i⟩ ⟨(i 1).val, idx2_lt1 i⟩

/-- The second cell's new cell array. -/
def GC1 (c : Dev nD) : S4096x1024.Idx → EReal := fun i =>
  Cert.Spec.cnew (gateV1 V c ⟨(i 0).val, idx2_lt0 i⟩ ⟨(i 1).val, by have := idx2_lt1 i; omega⟩)
    (gateV1 V c ⟨(i 0).val, idx2_lt0 i⟩ ⟨1024 + (i 1).val, by have := idx2_lt1 i; omega⟩)
    (gateV1 V c ⟨(i 0).val, idx2_lt0 i⟩ ⟨2048 + (i 1).val, by have := idx2_lt1 i; omega⟩)
    ((V c main_arg4 : S4096x1024.Idx → EReal) i)

/-- Row `r` of the head's rectified hidden layer. -/
def midrow1 (c : Dev nD) (r : Fin 4096) : Fin 2048 → EReal := fun n =>
  Cert.Spec.relu (Cert.Spec.dot (hrow1 V c r) (fun k => (V c main_v12 : S2048x1024.Idx → EReal) (ix2 n k))
    + (V c main_v13 : S1x2048.Idx → EReal) (ix2 (0 : Fin 1) n))

/-- The head's output array. -/
def GO1 (c : Dev nD) : S4096x1024.Idx → EReal := fun i =>
  Cert.Spec.dot (midrow1 V c ⟨(i 0).val, idx2_lt0 i⟩) (fun n => (V c main_v14 : S1024x2048.Idx → EReal) (ix2 (⟨(i 1).val, idx2_lt1 i⟩ : Fin 1024) n))
    + (V c main_v15 : S1x1024.Idx → EReal) (ix2 (0 : Fin 1) (⟨(i 1).val, idx2_lt1 i⟩ : Fin 1024))

/-- A block's pre-activation is the arrays' pre-activation at the block's row offset. -/
theorem pre1_eq (c : Dev nD) (t : Fin cfg1.N) (p : Fin 128) (J : Fin 4096) :
    pre1 (iblk1 V c 0 t) (iblk1 V c 1 t) (iblk1 V c 3 t) (iblk1 V c 4 t) (iblk1 V c 5 t) p J = gateV1 V c (brow1 t p) J := by
  have h0 : row (φ := .f32) (iblk1 V c 0 t : FVec Ideal S128x1024 .f32) p = fun k => (V c main_v16_0 : S4096x1024.Idx → EReal) (ix2 (brow1 t p) k) :=
    funext fun k => blk1_0_apply V c t p k
  have h1 : row (φ := .f32) (iblk1 V c 1 t : FVec Ideal S128x1024 .f32) p = fun k => (V c main_arg2 : S4096x1024.Idx → EReal) (ix2 (brow1 t p) k) :=
    funext fun k => blk1_1_apply V c t p k
  have h3 : wrow (φ := .bf16) (iblk1 V c 3 t : FVec Ideal S4096x1024 .bf16) J = fun k => (V c main_v8 : S4096x1024.Idx → EReal) (ix2 J k) :=
    funext fun k => blk1_3_apply V c t J k
  have h4 : wrow (φ := .bf16) (iblk1 V c 4 t : FVec Ideal S4096x1024 .bf16) J = fun k => (V c main_v9 : S4096x1024.Idx → EReal) (ix2 J k) :=
    funext fun k => blk1_4_apply V c t J k
  have h5 : bias (iblk1 V c 5 t : FVec Ideal S1x4096 .f32) J = (V c main_v11 : S1x4096.Idx → EReal) (ix2 (0 : Fin 1) J) :=
    blk1_5_apply V c t 0 J
  show Cert.Spec.pre (row (φ := .f32) (iblk1 V c 0 t : FVec Ideal S128x1024 .f32) p) (row (φ := .f32) (iblk1 V c 1 t : FVec Ideal S128x1024 .f32) p)
    (wrow (φ := .bf16) (iblk1 V c 3 t : FVec Ideal S4096x1024 .bf16) J) (wrow (φ := .bf16) (iblk1 V c 4 t : FVec Ideal S4096x1024 .bf16) J)
    (bias (iblk1 V c 5 t : FVec Ideal S1x4096 .f32) J) = _
  rw [h0, h1, h3, h4, h5]
  rfl

/-- A block's new hidden row is the array's new hidden row at the block's row offset. -/
theorem hrow1_eq (c : Dev nD) (t : Fin cfg1.N) (p : Fin 128) :
    (fun k : Fin 1024 => Cert.Spec.hnew
      (pre1 (iblk1 V c 0 t) (iblk1 V c 1 t) (iblk1 V c 3 t) (iblk1 V c 4 t) (iblk1 V c 5 t) p ⟨3072 + k.val, by have := k.isLt; omega⟩)
      (pre1 (iblk1 V c 0 t) (iblk1 V c 1 t) (iblk1 V c 3 t) (iblk1 V c 4 t) (iblk1 V c 5 t) p ⟨2048 + k.val, by have := k.isLt; omega⟩))
      = hrow1 V c (brow1 t p) :=
  funext fun k => by rw [pre1_eq, pre1_eq]; rfl

/-- The block's pre-rectifier head entry at the block's row offset. -/
theorem mid1_eq (c : Dev nD) (t : Fin cfg1.N) (p : Fin 128) (n : Fin 2048) :
    k1_pay6 (F := Ideal) (iblk1 V c 0 t) (iblk1 V c 1 t) (iblk1 V c 3 t) (iblk1 V c 4 t) (iblk1 V c 5 t) (iblk1 V c 6 t) (ix2 p n)
      = Cert.Spec.dot (hrow1 V c (brow1 t p)) (fun k => (V c main_v12 : S2048x1024.Idx → EReal) (ix2 n k)) := by
  have hw : (fun k => (iblk1 V c 6 t : FVec Ideal S2048x1024 .bf16) (ix2 n k)) = fun k => (V c main_v12 : S2048x1024.Idx → EReal) (ix2 n k) :=
    funext fun k => blk1_6_apply V c t n k
  exact (Cert.PayIdeal.pay1_mid_gates _ _ _ _ _ _ p n).trans (congrArg₂ Cert.Spec.dot (hrow1_eq V c t p) hw)

theorem flushed1_10_eq (c : Dev nD) (t : Fin cfg1.N) :
    (dat1 V c).flushed 10 t = ((cfg1.win 10).blk t).view.read (Elt Ideal) (GH1 V c) := by
  show (cfg1.win 10).cut (grid1.coords t) ((dat1 V c).after 10 t) = _
  rw [after1_10]
  unfold out1_10
  rw [View.canon_unit_zero hz1]
  simp only [View.ld_unit_zero (S := S128x1024) hz1, View.ld_unit_zero (S := S4096x1024) hz1, View.ld_unit_zero (S := S1x4096) hz1]
  funext y
  obtain ⟨p, q, rfl⟩ : ∃ (p : Fin 128) (q : Fin 1024), y = ix2 p q := ⟨y 0, y 1, eq_ix2 y⟩
  show k1_pay4 (F := Ideal) (iblk1 V c 0 t) (iblk1 V c 1 t) (iblk1 V c 3 t) (iblk1 V c 4 t) (iblk1 V c 5 t) (ix2 p q)
    = GH1 V c (((cfg1.win 10).blk t).view.emb (ix2 p q))
  rw [emb1_10, Cert.PayIdeal.pay1_h, pre1_eq, pre1_eq]
  rfl

theorem flushed1_11_eq (c : Dev nD) (t : Fin cfg1.N) :
    (dat1 V c).flushed 11 t = ((cfg1.win 11).blk t).view.read (Elt Ideal) (GC1 V c) := by
  show (cfg1.win 11).cut (grid1.coords t) ((dat1 V c).after 11 t) = _
  rw [after1_11]
  unfold out1_11
  rw [View.canon_unit_zero hz1]
  simp only [View.ld_unit_zero (S := S128x1024) hz1, View.ld_unit_zero (S := S4096x1024) hz1, View.ld_unit_zero (S := S1x4096) hz1]
  funext y
  obtain ⟨p, q, rfl⟩ : ∃ (p : Fin 128) (q : Fin 1024), y = ix2 p q := ⟨y 0, y 1, eq_ix2 y⟩
  show k1_pay5 (F := Ideal) (iblk1 V c 0 t) (iblk1 V c 1 t) (iblk1 V c 3 t) (iblk1 V c 4 t) (iblk1 V c 5 t) (iblk1 V c 2 t) (ix2 p q)
    = GC1 V c (((cfg1.win 11).blk t).view.emb (ix2 p q))
  rw [emb1_11, Cert.PayIdeal.pay1_c, pre1_eq, pre1_eq, pre1_eq, blk1_2_apply]
  rfl

theorem flushed1_12_eq (c : Dev nD) (t : Fin cfg1.N) :
    (dat1 V c).flushed 12 t = ((cfg1.win 12).blk t).view.read (Elt Ideal) (GO1 V c) := by
  show (cfg1.win 12).cut (grid1.coords t) ((dat1 V c).after 12 t) = _
  rw [after1_12]
  unfold out1_12
  rw [View.canon_unit_zero hz1]
  simp only [View.ld_unit_zero (S := S128x1024) hz1, View.ld_unit_zero (S := S4096x1024) hz1, View.ld_unit_zero (S := S1x4096) hz1,
    View.ld_unit_zero (S := S2048x1024) hz1, View.ld_unit_zero (S := S1x2048) hz1, View.ld_unit_zero (S := S1024x2048) hz1,
    View.ld_unit_zero (S := S1x1024) hz1]
  funext y
  obtain ⟨p, q, rfl⟩ : ∃ (p : Fin 128) (q : Fin 1024), y = ix2 p q := ⟨y 0, y 1, eq_ix2 y⟩
  show k1_pay1 (F := Ideal) (k1_pay6 (F := Ideal) (iblk1 V c 0 t) (iblk1 V c 1 t) (iblk1 V c 3 t) (iblk1 V c 4 t) (iblk1 V c 5 t) (iblk1 V c 6 t))
      (iblk1 V c 7 t) (iblk1 V c 8 t) (iblk1 V c 9 t) (ix2 p q)
    = GO1 V c (((cfg1.win 12).blk t).view.emb (ix2 p q))
  rw [emb1_12, Cert.PayIdeal.pay1_out]
  have hm : (fun n : Fin 2048 => Cert.Spec.relu
        (k1_pay6 (F := Ideal) (iblk1 V c 0 t) (iblk1 V c 1 t) (iblk1 V c 3 t) (iblk1 V c 4 t) (iblk1 V c 5 t) (iblk1 V c 6 t) (ix2 p n)
          + (iblk1 V c 7 t : FVec Ideal S1x2048 .f32) (ix2 (0 : Fin 1) n)))
      = midrow1 V c (brow1 t p) :=
    funext fun n => by rw [mid1_eq, blk1_7_apply]; rfl
  have hw : (fun n => (iblk1 V c 8 t : FVec Ideal S1024x2048 .bf16) (ix2 q n)) = fun n => (V c main_v14 : S1024x2048.Idx → EReal) (ix2 q n) :=
    funext fun n => blk1_8_apply V c t q n
  have hb : (iblk1 V c 9 t : FVec Ideal S1x1024 .f32) (ix2 (0 : Fin 1) q) = (V c main_v15 : S1x1024.Idx → EReal) (ix2 (0 : Fin 1) q) :=
    blk1_9_apply V c t 0 q
  exact congrArg₂ (· + ·) (congrArg₂ Cert.Spec.dot hm hw) hb

theorem final1_10 (c : Dev nD) : (dat1 V c).arrAt 10 cfg1.N = GH1 V c :=
  (dat1 V c).arrAt_eq_of_cover 10 (GH1 V c) (fun t _ => flushed1_10_eq V c t) cover1_10

theorem final1_11 (c : Dev nD) : (dat1 V c).arrAt 11 cfg1.N = GC1 V c :=
  (dat1 V c).arrAt_eq_of_cover 11 (GC1 V c) (fun t _ => flushed1_11_eq V c t) cover1_11

theorem final1_12 (c : Dev nD) : (dat1 V c).arrAt 12 cfg1.N = GO1 V c :=
  (dat1 V c).arrAt_eq_of_cover 12 (GO1 V c) (fun t _ => flushed1_12_eq V c t) cover1_12

end Cert.KernelIdeal.Hand

end
-- ==== Proof.KiBound.lean ====
/-
  The contents of the five result buffers at the last boundary of the run, at the exact instance: the first call's
  two results are its closed forms of the contents after the host operations; the second call's three results are
  its closed forms of the contents after the first call, and the second call leaves the first call's results alone
  (one it reads through an input window, the other it never touches).
-/
import proofs.«125369_j48885317763708_2_alg».proof.Proof.KiRun
import proofs.«125369_j48885317763708_2_alg».proof.Proof.KiValue0
import proofs.«125369_j48885317763708_2_alg».proof.Proof.KiValue1

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat Cfg Window)

variable (m : (ℓ : Loc nD τ sig) → Buf (Elt Ideal) ℓ) (ρ : Dev nD → PrngReg)

/-- After the first call its first result holds the first cell's new hidden array. -/
theorem Vb2_h1 (c : Dev nD) : (Vb2 m ρ c main_v16_0 : S4096x1024.Idx → EReal) = GH0 (Vb1 m ρ) c :=
  (Wb2_arr m ρ c 6).trans (final0_6 (Vb1 m ρ) c)

/-- After the first call its second result holds the first cell's new cell array. -/
theorem Vb2_c1 (c : Dev nD) : (Vb2 m ρ c main_v16_1 : S4096x1024.Idx → EReal) = GC0 (Vb1 m ρ) c :=
  (Wb2_arr m ρ c 7).trans (final0_7 (Vb1 m ρ) c)

/-- A buffer that is no array of the first call keeps its contents through it. -/
theorem Vb2_keep (c : Dev nD) (b : Ref sig .tc) (hb : ∀ w, Pipeline.arrRef spec0 w ≠ b) : Vb2 m ρ c b = Vb1 m ρ c b :=
  Wb2_of_ne m ρ c b hb

/-- At the end the head's output buffer holds the head's closed form of the contents after the first call. -/
theorem Wb3_out (c : Dev nD) : (Wb3 m ρ c (Proc.devRef .tc main_v17_2) : S4096x1024.Idx → EReal) = GO1 (Vb2 m ρ) c :=
  (Wb3_arr m ρ c 12).trans (final1_12 (Vb2 m ρ) c)

theorem Wb3_h2 (c : Dev nD) : (Wb3 m ρ c (Proc.devRef .tc main_v17_0) : S4096x1024.Idx → EReal) = GH1 (Vb2 m ρ) c :=
  (Wb3_arr m ρ c 10).trans (final1_10 (Vb2 m ρ) c)

theorem Wb3_c2 (c : Dev nD) : (Wb3 m ρ c (Proc.devRef .tc main_v17_1) : S4096x1024.Idx → EReal) = GC1 (Vb2 m ρ) c :=
  (Wb3_arr m ρ c 11).trans (final1_11 (Vb2 m ρ) c)

/-- The second call reads the first cell's new hidden array through an input window and leaves it as found. -/
theorem Wb3_h1 (c : Dev nD) : (Wb3 m ρ c (Proc.devRef .tc main_v16_0) : S4096x1024.Idx → EReal) = GH0 (Vb1 m ρ) c :=
  (Wb3_arr m ρ c 0).trans (((dat1 (Vb2 m ρ) c).arrAt_in 0 rfl _).trans ((A_eq1 (Vb2 m ρ) c 0).trans (Vb2_h1 m ρ c)))

/-- The second call never touches the first cell's new cell array. -/
theorem Wb3_c1 (c : Dev nD) : (Wb3 m ρ c (Proc.devRef .tc main_v16_1) : S4096x1024.Idx → EReal) = GC0 (Vb1 m ρ) c :=
  (Wb3_of_ne m ρ c main_v16_1 (by decide)).trans (Vb2_c1 m ρ c)

end Cert.KernelIdeal.Hand

end
-- ==== Proof.KiGlue.lean ====
/-
  The kernel's closed forms meet the specification once the entry contents are identified.

  A gate's pre-activation read at batch row r and packed column J is the specification's gate at (r, j) when the
  arrays found hold the input, the recurrent array, the two 1024-entry halves of weight row j at row J, and bias
  entry j at column J. Given that for the four packed column ranges j, 1024 + j, 2048 + j, 3072 + j, the new hidden
  and new cell arrays are the specification's cell functions; and given the new hidden rows and the head's weights
  and biases, the output array is the specification's head. Nothing here runs a program: every statement unfolds
  the two sides and rewrites with its hypotheses.
-/
import proofs.«125369_j48885317763708_2_alg».proof.Proof.KiValue0
import proofs.«125369_j48885317763708_2_alg».proof.Proof.KiValue1
import proofs.«125369_j48885317763708_2_alg».proof.Proof.Spec

noncomputable section

namespace Cert.KernelIdeal.Hand

open Cert.KernelIdeal Cert.KernelIdeal.Gen
open Idealize.ShloMosaic Idealize.ShloMosaic.TcCoe ValueIdx

variable (V : (c : Dev nD) → (b : Ref sig .tc) → Buf (Elt Ideal) ((c : Thread nD τ).loc b))

/-! ## The first cell -/

/-- The pre-activation read at batch row r and packed column J is the specification's gate at (r, j), once the
    entry contents are known to hold the input, the recurrent array, the two halves of weight row j and bias
    entry j. -/
theorem gateV0_of (c : Dev nD) (x h : Cert.Spec.Mat 4096 1024) (W : Cert.Spec.Mat 1024 2048) (b : Fin 1024 → EReal)
    (J : Fin 4096) (j : Fin 1024)
    (hx : ∀ (r : Fin 4096) (k : Fin 1024), (V c main_arg0 : S4096x1024.Idx → EReal) (ix2 r k) = x r k)
    (hh : ∀ (r : Fin 4096) (k : Fin 1024), (V c main_arg1 : S4096x1024.Idx → EReal) (ix2 r k) = h r k)
    (hwx : ∀ k : Fin 1024, (V c main_v2 : S4096x1024.Idx → EReal) (ix2 J k) = W j ⟨k.val, by have := k.isLt; omega⟩)
    (hwh : ∀ k : Fin 1024, (V c main_v3 : S4096x1024.Idx → EReal) (ix2 J k) = W j ⟨1024 + k.val, by have := k.isLt; omega⟩)
    (hb : (V c main_v5 : S1x4096.Idx → EReal) (ix2 (0 : Fin 1) J) = b j) (r : Fin 4096) :
    gateV0 V c r J = Cert.Spec.gate x h W b r j := by
  have e0 : (fun k => (V c main_arg0 : S4096x1024.Idx → EReal) (ix2 r k)) = x r := funext (hx r)
  have e1 : (fun k => (V c main_arg1 : S4096x1024.Idx → EReal) (ix2 r k)) = h r := funext (hh r)
  have e2 : (fun k => (V c main_v2 : S4096x1024.Idx → EReal) (ix2 J k)) = Cert.Spec.wx W j := funext hwx
  have e3 : (fun k => (V c main_v3 : S4096x1024.Idx → EReal) (ix2 J k)) = Cert.Spec.wh W j := funext hwh
  unfold gateV0 Cert.Spec.gate
  rw [e0, e1, e2, e3, hb]

/-- The first cell's new hidden array is the specification's. -/
theorem GH0_of (c : Dev nD) (x h : Cert.Spec.Mat 4096 1024) (Wc Wo : Cert.Spec.Mat 1024 2048) (bc bo : Fin 1024 → EReal)
    (hc : ∀ (r : Fin 4096) (j : Fin 1024), gateV0 V c r ⟨2048 + j.val, by have := j.isLt; omega⟩ = Cert.Spec.gate x h Wc bc r j)
    (ho : ∀ (r : Fin 4096) (j : Fin 1024), gateV0 V c r ⟨3072 + j.val, by have := j.isLt; omega⟩ = Cert.Spec.gate x h Wo bo r j) :
    GH0 V c = Cert.Spec.arrOf (Cert.Spec.cellH x h Wc Wo bc bo) := by
  funext i
  obtain ⟨r, j, rfl⟩ : ∃ (r : Fin 4096) (j : Fin 1024), i = ix2 r j := ⟨i 0, i 1, eq_ix2 i⟩
  show Cert.Spec.hnew (gateV0 V c r ⟨3072 + j.val, _⟩) (gateV0 V c r ⟨2048 + j.val, _⟩) = _
  rw [ho, hc]
  rfl

/-- The first cell's new cell array is the specification's. -/
theorem GC0_of (c : Dev nD) (x h cm : Cert.Spec.Mat 4096 1024) (Wf Wi Wc : Cert.Spec.Mat 1024 2048) (bf bi bc : Fin 1024 → EReal)
    (hf : ∀ (r : Fin 4096) (j : Fin 1024), gateV0 V c r ⟨j.val, by have := j.isLt; omega⟩ = Cert.Spec.gate x h Wf bf r j)
    (hi : ∀ (r : Fin 4096) (j : Fin 1024), gateV0 V c r ⟨1024 + j.val, by have := j.isLt; omega⟩ = Cert.Spec.gate x h Wi bi r j)
    (hc : ∀ (r : Fin 4096) (j : Fin 1024), gateV0 V c r ⟨2048 + j.val, by have := j.isLt; omega⟩ = Cert.Spec.gate x h Wc bc r j)
    (hcell : ∀ (r : Fin 4096) (j : Fin 1024), (V c main_arg3 : S4096x1024.Idx → EReal) (ix2 r j) = cm r j) :
    GC0 V c = Cert.Spec.arrOf (Cert.Spec.cellC x h cm Wf Wi Wc bf bi bc) := by
  funext i
  obtain ⟨r, j, rfl⟩ : ∃ (r : Fin 4096) (j : Fin 1024), i = ix2 r j := ⟨i 0, i 1, eq_ix2 i⟩
  show Cert.Spec.cnew (gateV0 V c r ⟨j.val, _⟩) (gateV0 V c r ⟨1024 + j.val, _⟩) (gateV0 V c r ⟨2048 + j.val, _⟩)
    ((V c main_arg3 : S4096x1024.Idx → EReal) (ix2 r j)) = _
  rw [hf, hi, hc, hcell]
  rfl

/-! ## The second cell -/

/-- The pre-activation read at batch row r and packed column J is the specification's gate at (r, j), once the
    entry contents are known to hold the input, the recurrent array, the two halves of weight row j and bias
    entry j. -/
theorem gateV1_of (c : Dev nD) (x h : Cert.Spec.Mat 4096 1024) (W : Cert.Spec.Mat 1024 2048) (b : Fin 1024 → EReal)
    (J : Fin 4096) (j : Fin 1024)
    (hx : ∀ (r : Fin 4096) (k : Fin 1024), (V c main_v16_0 : S4096x1024.Idx → EReal) (ix2 r k) = x r k)
    (hh : ∀ (r : Fin 4096) (k : Fin 1024), (V c main_arg2 : S4096x1024.Idx → EReal) (ix2 r k) = h r k)
    (hwx : ∀ k : Fin 1024, (V c main_v8 : S4096x1024.Idx → EReal) (ix2 J k) = W j ⟨k.val, by have := k.isLt; omega⟩)
    (hwh : ∀ k : Fin 1024, (V c main_v9 : S4096x1024.Idx → EReal) (ix2 J k) = W j ⟨1024 + k.val, by have := k.isLt; omega⟩)
    (hb : (V c main_v11 : S1x4096.Idx → EReal) (ix2 (0 : Fin 1) J) = b j) (r : Fin 4096) :
    gateV1 V c r J = Cert.Spec.gate x h W b r j := by
  have e0 : (fun k => (V c main_v16_0 : S4096x1024.Idx → EReal) (ix2 r k)) = x r := funext (hx r)
  have e1 : (fun k => (V c main_arg2 : S4096x1024.Idx → EReal) (ix2 r k)) = h r := funext (hh r)
  have e2 : (fun k => (V c main_v8 : S4096x1024.Idx → EReal) (ix2 J k)) = Cert.Spec.wx W j := funext hwx
  have e3 : (fun k => (V c main_v9 : S4096x1024.Idx → EReal) (ix2 J k)) = Cert.Spec.wh W j := funext hwh
  unfold gateV1 Cert.Spec.gate
  rw [e0, e1, e2, e3, hb]

/-- Row r of the second cell's new hidden array is the specification's row. -/
theorem hrow1_of (c : Dev nD) (x h : Cert.Spec.Mat 4096 1024) (Wc Wo : Cert.Spec.Mat 1024 2048) (bc bo : Fin 1024 → EReal)
    (hc : ∀ (r : Fin 4096) (j : Fin 1024), gateV1 V c r ⟨2048 + j.val, by have := j.isLt; omega⟩ = Cert.Spec.gate x h Wc bc r j)
    (ho : ∀ (r : Fin 4096) (j : Fin 1024), gateV1 V c r ⟨3072 + j.val, by have := j.isLt; omega⟩ = Cert.Spec.gate x h Wo bo r j) (r : Fin 4096) :
    hrow1 V c r = Cert.Spec.cellH x h Wc Wo bc bo r := by
  funext k
  show Cert.Spec.hnew (gateV1 V c r ⟨3072 + k.val, _⟩) (gateV1 V c r ⟨2048 + k.val, _⟩) = _
  rw [ho, hc]
  rfl

/-- The second cell's new hidden array is the specification's. -/
theorem GH1_of (c : Dev nD) (x h : Cert.Spec.Mat 4096 1024) (Wc Wo : Cert.Spec.Mat 1024 2048) (bc bo : Fin 1024 → EReal)
    (hc : ∀ (r : Fin 4096) (j : Fin 1024), gateV1 V c r ⟨2048 + j.val, by have := j.isLt; omega⟩ = Cert.Spec.gate x h Wc bc r j)
    (ho : ∀ (r : Fin 4096) (j : Fin 1024), gateV1 V c r ⟨3072 + j.val, by have := j.isLt; omega⟩ = Cert.Spec.gate x h Wo bo r j) :
    GH1 V c = Cert.Spec.arrOf (Cert.Spec.cellH x h Wc Wo bc bo) := by
  funext i
  obtain ⟨r, j, rfl⟩ : ∃ (r : Fin 4096) (j : Fin 1024), i = ix2 r j := ⟨i 0, i 1, eq_ix2 i⟩
  show hrow1 V c r j = _
  rw [hrow1_of V c x h Wc Wo bc bo hc ho r]

/-- The second cell's new cell array is the specification's. -/
theorem GC1_of (c : Dev nD) (x h cm : Cert.Spec.Mat 4096 1024) (Wf Wi Wc : Cert.Spec.Mat 1024 2048) (bf bi bc : Fin 1024 → EReal)
    (hf : ∀ (r : Fin 4096) (j : Fin 1024), gateV1 V c r ⟨j.val, by have := j.isLt; omega⟩ = Cert.Spec.gate x h Wf bf r j)
    (hi : ∀ (r : Fin 4096) (j : Fin 1024), gateV1 V c r ⟨1024 + j.val, by have := j.isLt; omega⟩ = Cert.Spec.gate x h Wi bi r j)
    (hc : ∀ (r : Fin 4096) (j : Fin 1024), gateV1 V c r ⟨2048 + j.val, by have := j.isLt; omega⟩ = Cert.Spec.gate x h Wc bc r j)
    (hcell : ∀ (r : Fin 4096) (j : Fin 1024), (V c main_arg4 : S4096x1024.Idx → EReal) (ix2 r j) = cm r j) :
    GC1 V c = Cert.Spec.arrOf (Cert.Spec.cellC x h cm Wf Wi Wc bf bi bc) := by
  funext i
  obtain ⟨r, j, rfl⟩ : ∃ (r : Fin 4096) (j : Fin 1024), i = ix2 r j := ⟨i 0, i 1, eq_ix2 i⟩
  show Cert.Spec.cnew (gateV1 V c r ⟨j.val, _⟩) (gateV1 V c r ⟨1024 + j.val, _⟩) (gateV1 V c r ⟨2048 + j.val, _⟩)
    ((V c main_arg4 : S4096x1024.Idx → EReal) (ix2 r j)) = _
  rw [hf, hi, hc, hcell]
  rfl

/-! ## The head -/

/-- The output array is the specification's head of the new hidden rows. -/
theorem GO1_of (c : Dev nD) (h2 : Cert.Spec.Mat 4096 1024) (W3 : Cert.Spec.Mat 2048 1024) (b3 : Fin 2048 → EReal)
    (W4 : Cert.Spec.Mat 1024 2048) (b4 : Fin 1024 → EReal)
    (hh2 : ∀ r : Fin 4096, hrow1 V c r = h2 r)
    (hW3 : ∀ (n : Fin 2048) (k : Fin 1024), (V c main_v12 : S2048x1024.Idx → EReal) (ix2 n k) = W3 n k)
    (hb3 : ∀ n : Fin 2048, (V c main_v13 : S1x2048.Idx → EReal) (ix2 (0 : Fin 1) n) = b3 n)
    (hW4 : ∀ (q : Fin 1024) (n : Fin 2048), (V c main_v14 : S1024x2048.Idx → EReal) (ix2 q n) = W4 q n)
    (hb4 : ∀ q : Fin 1024, (V c main_v15 : S1x1024.Idx → EReal) (ix2 (0 : Fin 1) q) = b4 q) :
    GO1 V c = Cert.Spec.arrOf (Cert.Spec.head4 (Cert.Spec.head3 h2 W3 b3) W4 b4) := by
  funext i
  obtain ⟨r, q, rfl⟩ : ∃ (r : Fin 4096) (q : Fin 1024), i = ix2 r q := ⟨i 0, i 1, eq_ix2 i⟩
  have hm : midrow1 V c r = Cert.Spec.head3 h2 W3 b3 r := by
    funext n
    have e3 : (fun k => (V c main_v12 : S2048x1024.Idx → EReal) (ix2 n k)) = W3 n := funext (hW3 n)
    show Cert.Spec.relu (Cert.Spec.dot (hrow1 V c r) (fun k => (V c main_v12 : S2048x1024.Idx → EReal) (ix2 n k))
      + (V c main_v13 : S1x2048.Idx → EReal) (ix2 (0 : Fin 1) n)) = _
    rw [hh2 r, e3, hb3 n]
    rfl
  have e4 : (fun n => (V c main_v14 : S1024x2048.Idx → EReal) (ix2 q n)) = W4 q := funext (hW4 q)
  show Cert.Spec.dot (midrow1 V c r) (fun n => (V c main_v14 : S1024x2048.Idx → EReal) (ix2 q n))
    + (V c main_v15 : S1x1024.Idx → EReal) (ix2 (0 : Fin 1) q) = _
  rw [hm, e4, hb4 q]
  rfl

end Cert.KernelIdeal.Hand

end
-- ==== Proof.HostPack.lean ====
/-
  The host operations that pack the weights, read entry by entry over the extended reals.

  Before either cell runs, the four [1024, 2048] gate weights of a cell are stacked along the rows into one
  [4096, 2048] matrix (gate g occupies rows g·1024 … g·1024 + 1023), narrowed to the 16-bit format (the identity on
  extended reals), and cut into its first 1024 columns (the part that multiplies the input) and its last 1024 columns
  (the part that multiplies the recurrent state). The four [1024] biases are laid end to end into [4096] and viewed as
  one row [1, 4096]. The head's two weights are only narrowed, its two biases only viewed as one row.

  Every statement below says which entry of which ARGUMENT an entry of a packed buffer is; nothing else about the
  packed buffers is ever needed. Arguments themselves are not written by any of these operations.
-/
import proofs.«125369_j48885317763708_2_alg».proof.Proof.Gen.KernelIdeal.Launch
import proofs.«125369_j48885317763708_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout

noncomputable section

namespace Cert.HostPack

open Cert.KernelIdeal Cert.KernelIdeal.Gen Idealize.ShloMosaic ValueIdx

/-! ## The packing as pure functions of the argument arrays -/

/-- Four [1024, 2048] matrices stacked along the rows. -/
def stackW (w0 w1 w2 w3 : S1024x2048.Idx → EReal) : S4096x2048.Idx → EReal :=
  concatenate S4096x2048 0 [⟨S1024x2048, w0⟩, ⟨S1024x2048, w1⟩, ⟨S1024x2048, w2⟩, ⟨S1024x2048, w3⟩]
    concatenates_S1024x2048_S1024x2048_S1024x2048_S1024x2048_S4096x2048_d0

/-- The stacked matrix narrowed to the 16-bit format: on extended reals, the same entries. -/
def packW (w0 w1 w2 w3 : S1024x2048.Idx → EReal) : S4096x2048.Idx → EReal :=
  truncf (F := Ideal) .bf16 (stackW w0 w1 w2 w3 : FVec Ideal S4096x2048 .f32) bitsLt_bf16_f32

theorem packW_apply (w0 w1 w2 w3 : S1024x2048.Idx → EReal) (i : S4096x2048.Idx) :
    packW w0 w1 w2 w3 i = stackW w0 w1 w2 w3 i := rfl

/-- Four [1024] vectors laid end to end. -/
def packB (b0 b1 b2 b3 : S1024.Idx → EReal) : S4096.Idx → EReal :=
  concatenate S4096 0 [⟨S1024, b0⟩, ⟨S1024, b1⟩, ⟨S1024, b2⟩, ⟨S1024, b3⟩] concatenates_S1024_S1024_S1024_S1024_S4096_d0

/-- The first 1024 columns of a stacked weight. -/
def leftCols (x : S4096x2048.Idx → EReal) : S4096x1024.Idx → EReal :=
  extractStridedSlice S4096x1024 ![0, 0] x slices_S4096x2048_S4096x1024_0_0

/-- The last 1024 columns of a stacked weight. -/
def rightCols (x : S4096x2048.Idx → EReal) : S4096x1024.Idx → EReal :=
  extractStridedSlice S4096x1024 ![0, 1024] x slices_S4096x2048_S4096x1024_0_1024

/-- A [4096] vector viewed as one row. -/
def asRow (x : S4096.Idx → EReal) : S1x4096.Idx → EReal := shapeCast S1x4096 x shapeCasts_S4096_S1x4096

/-! ## The stacked arrays at an entry: gate g's block starts at row g·1024 -/

/-- Row `0 + j` of the stacked weight is row `j` of gate 0's weight. -/
theorem packW_g0 (w0 w1 w2 w3 : S1024x2048.Idx → EReal) (r : Fin 4096) (j : Fin 1024) (c : Fin 2048)
    (h : r.val = 0 + j.val) : packW w0 w1 w2 w3 (ix2 r c) = w0 (ix2 j c) :=
  (packW_apply w0 w1 w2 w3 (ix2 r c)).trans <|
  concatenate_apply_piece (t := S4096x2048) 0 [⟨S1024x2048, w0⟩, ⟨S1024x2048, w1⟩, ⟨S1024x2048, w2⟩, ⟨S1024x2048, w3⟩]
    concatenates_S1024x2048_S1024x2048_S1024x2048_S1024x2048_S4096x2048_d0
    (ix2 r c) 0 (by show (0 : ℕ) < 4; omega) S1024x2048 w0 rfl rfl 0 rfl (ix2 j c)
    (fun b hb => by match b with | ⟨0, _⟩ => exact absurd rfl hb | ⟨1, _⟩ => rfl)
    (by show 0 + j.val = r.val; omega)

/-- Row `1024 + j` of the stacked weight is row `j` of gate 1's weight. -/
theorem packW_g1 (w0 w1 w2 w3 : S1024x2048.Idx → EReal) (r : Fin 4096) (j : Fin 1024) (c : Fin 2048)
    (h : r.val = 1024 + j.val) : packW w0 w1 w2 w3 (ix2 r c) = w1 (ix2 j c) :=
  (packW_apply w0 w1 w2 w3 (ix2 r c)).trans <|
  concatenate_apply_piece (t := S4096x2048) 0 [⟨S1024x2048, w0⟩, ⟨S1024x2048, w1⟩, ⟨S1024x2048, w2⟩, ⟨S1024x2048, w3⟩]
    concatenates_S1024x2048_S1024x2048_S1024x2048_S1024x2048_S4096x2048_d0
    (ix2 r c) 1 (by show (1 : ℕ) < 4; omega) S1024x2048 w1 rfl rfl 1024 rfl (ix2 j c)
    (fun b hb => by match b with | ⟨0, _⟩ => exact absurd rfl hb | ⟨1, _⟩ => rfl)
    (by show 1024 + j.val = r.val; omega)

/-- Row `2048 + j` of the stacked weight is row `j` of gate 2's weight. -/
theorem packW_g2 (w0 w1 w2 w3 : S1024x2048.Idx → EReal) (r : Fin 4096) (j : Fin 1024) (c : Fin 2048)
    (h : r.val = 2048 + j.val) : packW w0 w1 w2 w3 (ix2 r c) = w2 (ix2 j c) :=
  (packW_apply w0 w1 w2 w3 (ix2 r c)).trans <|
  concatenate_apply_piece (t := S4096x2048) 0 [⟨S1024x2048, w0⟩, ⟨S1024x2048, w1⟩, ⟨S1024x2048, w2⟩, ⟨S1024x2048, w3⟩]
    concatenates_S1024x2048_S1024x2048_S1024x2048_S1024x2048_S4096x2048_d0
    (ix2 r c) 2 (by show (2 : ℕ) < 4; omega) S1024x2048 w2 rfl rfl 2048 rfl (ix2 j c)
    (fun b hb => by match b with | ⟨0, _⟩ => exact absurd rfl hb | ⟨1, _⟩ => rfl)
    (by show 2048 + j.val = r.val; omega)

/-- Row `3072 + j` of the stacked weight is row `j` of gate 3's weight. -/
theorem packW_g3 (w0 w1 w2 w3 : S1024x2048.Idx → EReal) (r : Fin 4096) (j : Fin 1024) (c : Fin 2048)
    (h : r.val = 3072 + j.val) : packW w0 w1 w2 w3 (ix2 r c) = w3 (ix2 j c) :=
  (packW_apply w0 w1 w2 w3 (ix2 r c)).trans <|
  concatenate_apply_piece (t := S4096x2048) 0 [⟨S1024x2048, w0⟩, ⟨S1024x2048, w1⟩, ⟨S1024x2048, w2⟩, ⟨S1024x2048, w3⟩]
    concatenates_S1024x2048_S1024x2048_S1024x2048_S1024x2048_S4096x2048_d0
    (ix2 r c) 3 (by show (3 : ℕ) < 4; omega) S1024x2048 w3 rfl rfl 3072 rfl (ix2 j c)
    (fun b hb => by match b with | ⟨0, _⟩ => exact absurd rfl hb | ⟨1, _⟩ => rfl)
    (by show 3072 + j.val = r.val; omega)

/-- Entry `0 + j` of the joined bias is entry `j` of gate 0's bias. -/
theorem packB_g0 (b0 b1 b2 b3 : S1024.Idx → EReal) (r : Fin 4096) (j : Fin 1024)
    (h : r.val = 0 + j.val) : packB b0 b1 b2 b3 (ix1 r) = b0 (ix1 j) :=
  concatenate_apply_piece (t := S4096) 0 [⟨S1024, b0⟩, ⟨S1024, b1⟩, ⟨S1024, b2⟩, ⟨S1024, b3⟩]
    concatenates_S1024_S1024_S1024_S1024_S4096_d0
    (ix1 r) 0 (by show (0 : ℕ) < 4; omega) S1024 b0 rfl rfl 0 rfl (ix1 j)
    (fun b hb => by match b with | ⟨0, _⟩ => exact absurd rfl hb)
    (by show 0 + j.val = r.val; omega)

/-- Entry `1024 + j` of the joined bias is entry `j` of gate 1's bias. -/
theorem packB_g1 (b0 b1 b2 b3 : S1024.Idx → EReal) (r : Fin 4096) (j : Fin 1024)
    (h : r.val = 1024 + j.val) : packB b0 b1 b2 b3 (ix1 r) = b1 (ix1 j) :=
  concatenate_apply_piece (t := S4096) 0 [⟨S1024, b0⟩, ⟨S1024, b1⟩, ⟨S1024, b2⟩, ⟨S1024, b3⟩]
    concatenates_S1024_S1024_S1024_S1024_S4096_d0
    (ix1 r) 1 (by show (1 : ℕ) < 4; omega) S1024 b1 rfl rfl 1024 rfl (ix1 j)
    (fun b hb => by match b with | ⟨0, _⟩ => exact absurd rfl hb)
    (by show 1024 + j.val = r.val; omega)

/-- Entry `2048 + j` of the joined bias is entry `j` of gate 2's bias. -/
theorem packB_g2 (b0 b1 b2 b3 : S1024.Idx → EReal) (r : Fin 4096) (j : Fin 1024)
    (h : r.val = 2048 + j.val) : packB b0 b1 b2 b3 (ix1 r) = b2 (ix1 j) :=
  concatenate_apply_piece (t := S4096) 0 [⟨S1024, b0⟩, ⟨S1024, b1⟩, ⟨S1024, b2⟩, ⟨S1024, b3⟩]
    concatenates_S1024_S1024_S1024_S1024_S4096_d0
    (ix1 r) 2 (by show (2 : ℕ) < 4; omega) S1024 b2 rfl rfl 2048 rfl (ix1 j)
    (fun b hb => by match b with | ⟨0, _⟩ => exact absurd rfl hb)
    (by show 2048 + j.val = r.val; omega)

/-- Entry `3072 + j` of the joined bias is entry `j` of gate 3's bias. -/
theorem packB_g3 (b0 b1 b2 b3 : S1024.Idx → EReal) (r : Fin 4096) (j : Fin 1024)
    (h : r.val = 3072 + j.val) : packB b0 b1 b2 b3 (ix1 r) = b3 (ix1 j) :=
  concatenate_apply_piece (t := S4096) 0 [⟨S1024, b0⟩, ⟨S1024, b1⟩, ⟨S1024, b2⟩, ⟨S1024, b3⟩]
    concatenates_S1024_S1024_S1024_S1024_S4096_d0
    (ix1 r) 3 (by show (3 : ℕ) < 4; omega) S1024 b3 rfl rfl 3072 rfl (ix1 j)
    (fun b hb => by match b with | ⟨0, _⟩ => exact absurd rfl hb)
    (by show 3072 + j.val = r.val; omega)

/-- The left cut keeps the column. -/
theorem leftCols_apply (x : S4096x2048.Idx → EReal) (r : Fin 4096) (k : Fin 1024) :
    leftCols x (ix2 r k) = x (ix2 r ⟨k.val, by have := k.isLt; omega⟩) :=
  slice2_axis1_apply 0 x slices_S4096x2048_S4096x1024_0_0 r k ⟨k.val, by have := k.isLt; omega⟩ (Nat.zero_add _).symm

/-- The right cut reads 1024 columns further. -/
theorem rightCols_apply (x : S4096x2048.Idx → EReal) (r : Fin 4096) (k : Fin 1024) :
    rightCols x (ix2 r k) = x (ix2 r ⟨1024 + k.val, by have := k.isLt; omega⟩) :=
  slice2_axis1_apply 1024 x slices_S4096x2048_S4096x1024_0_1024 r k ⟨1024 + k.val, by have := k.isLt; omega⟩ rfl

/-- The one-row view keeps the entry. -/
theorem asRow_apply (x : S4096.Idx → EReal) (r : Fin 4096) : asRow x (ix2 (0 : Fin 1) r) = x (ix1 r) :=
  shapeCast_a_1a_apply x shapeCasts_S4096_S1x4096 0 r

/-! ## A packed buffer's entry in gate g's block, as an entry of gate g's own array -/

theorem leftPack_g0 (w0 w1 w2 w3 : S1024x2048.Idx → EReal) (r : Fin 4096) (j k : Fin 1024) (h : r.val = 0 + j.val) :
    leftCols (packW w0 w1 w2 w3) (ix2 r k) = w0 (ix2 j ⟨k.val, by have := k.isLt; omega⟩) :=
  (leftCols_apply _ r k).trans (packW_g0 w0 w1 w2 w3 r j _ h)

theorem rightPack_g0 (w0 w1 w2 w3 : S1024x2048.Idx → EReal) (r : Fin 4096) (j k : Fin 1024) (h : r.val = 0 + j.val) :
    rightCols (packW w0 w1 w2 w3) (ix2 r k) = w0 (ix2 j ⟨1024 + k.val, by have := k.isLt; omega⟩) :=
  (rightCols_apply _ r k).trans (packW_g0 w0 w1 w2 w3 r j _ h)

theorem rowPack_g0 (b0 b1 b2 b3 : S1024.Idx → EReal) (r : Fin 4096) (j : Fin 1024) (h : r.val = 0 + j.val) :
    asRow (packB b0 b1 b2 b3) (ix2 (0 : Fin 1) r) = b0 (ix1 j) :=
  (asRow_apply _ r).trans (packB_g0 b0 b1 b2 b3 r j h)

theorem leftPack_g1 (w0 w1 w2 w3 : S1024x2048.Idx → EReal) (r : Fin 4096) (j k : Fin 1024) (h : r.val = 1024 + j.val) :
    leftCols (packW w0 w1 w2 w3) (ix2 r k) = w1 (ix2 j ⟨k.val, by have := k.isLt; omega⟩) :=
  (leftCols_apply _ r k).trans (packW_g1 w0 w1 w2 w3 r j _ h)

theorem rightPack_g1 (w0 w1 w2 w3 : S1024x2048.Idx → EReal) (r : Fin 4096) (j k : Fin 1024) (h : r.val = 1024 + j.val) :
    rightCols (packW w0 w1 w2 w3) (ix2 r k) = w1 (ix2 j ⟨1024 + k.val, by have := k.isLt; omega⟩) :=
  (rightCols_apply _ r k).trans (packW_g1 w0 w1 w2 w3 r j _ h)

theorem rowPack_g1 (b0 b1 b2 b3 : S1024.Idx → EReal) (r : Fin 4096) (j : Fin 1024) (h : r.val = 1024 + j.val) :
    asRow (packB b0 b1 b2 b3) (ix2 (0 : Fin 1) r) = b1 (ix1 j) :=
  (asRow_apply _ r).trans (packB_g1 b0 b1 b2 b3 r j h)

theorem leftPack_g2 (w0 w1 w2 w3 : S1024x2048.Idx → EReal) (r : Fin 4096) (j k : Fin 1024) (h : r.val = 2048 + j.val) :
    leftCols (packW w0 w1 w2 w3) (ix2 r k) = w2 (ix2 j ⟨k.val, by have := k.isLt; omega⟩) :=
  (leftCols_apply _ r k).trans (packW_g2 w0 w1 w2 w3 r j _ h)

theorem rightPack_g2 (w0 w1 w2 w3 : S1024x2048.Idx → EReal) (r : Fin 4096) (j k : Fin 1024) (h : r.val = 2048 + j.val) :
    rightCols (packW w0 w1 w2 w3) (ix2 r k) = w2 (ix2 j ⟨1024 + k.val, by have := k.isLt; omega⟩) :=
  (rightCols_apply _ r k).trans (packW_g2 w0 w1 w2 w3 r j _ h)

theorem rowPack_g2 (b0 b1 b2 b3 : S1024.Idx → EReal) (r : Fin 4096) (j : Fin 1024) (h : r.val = 2048 + j.val) :
    asRow (packB b0 b1 b2 b3) (ix2 (0 : Fin 1) r) = b2 (ix1 j) :=
  (asRow_apply _ r).trans (packB_g2 b0 b1 b2 b3 r j h)

theorem leftPack_g3 (w0 w1 w2 w3 : S1024x2048.Idx → EReal) (r : Fin 4096) (j k : Fin 1024) (h : r.val = 3072 + j.val) :
    leftCols (packW w0 w1 w2 w3) (ix2 r k) = w3 (ix2 j ⟨k.val, by have := k.isLt; omega⟩) :=
  (leftCols_apply _ r k).trans (packW_g3 w0 w1 w2 w3 r j _ h)

theorem rightPack_g3 (w0 w1 w2 w3 : S1024x2048.Idx → EReal) (r : Fin 4096) (j k : Fin 1024) (h : r.val = 3072 + j.val) :
    rightCols (packW w0 w1 w2 w3) (ix2 r k) = w3 (ix2 j ⟨1024 + k.val, by have := k.isLt; omega⟩) :=
  (rightCols_apply _ r k).trans (packW_g3 w0 w1 w2 w3 r j _ h)

theorem rowPack_g3 (b0 b1 b2 b3 : S1024.Idx → EReal) (r : Fin 4096) (j : Fin 1024) (h : r.val = 3072 + j.val) :
    asRow (packB b0 b1 b2 b3) (ix2 (0 : Fin 1) r) = b3 (ix1 j) :=
  (asRow_apply _ r).trans (packB_g3 b0 b1 b2 b3 r j h)

/-! ## What each packed buffer holds, as one pure term of the arguments -/

section Terms
variable (W : Valuation Cert.KernelIdeal.τ Cert.KernelIdeal.sig (Elt Ideal))

local notation "V" => StableHlo.after (hostOps0 (F := Ideal)) W

theorem v2_term : (V (Proc.devRef .tc main_v2) : S4096x1024.Idx → EReal)
    = leftCols (packW (W (Proc.devRef .tc main_arg5)) (W (Proc.devRef .tc main_arg7)) (W (Proc.devRef .tc main_arg9)) (W (Proc.devRef .tc main_arg11))) := by
  after_results; rfl

theorem v3_term : (V (Proc.devRef .tc main_v3) : S4096x1024.Idx → EReal)
    = rightCols (packW (W (Proc.devRef .tc main_arg5)) (W (Proc.devRef .tc main_arg7)) (W (Proc.devRef .tc main_arg9)) (W (Proc.devRef .tc main_arg11))) := by
  after_results; rfl

theorem v5_term : (V (Proc.devRef .tc main_v5) : S1x4096.Idx → EReal)
    = asRow (packB (W (Proc.devRef .tc main_arg6)) (W (Proc.devRef .tc main_arg8)) (W (Proc.devRef .tc main_arg10)) (W (Proc.devRef .tc main_arg12))) := by
  after_results; rfl

theorem v8_term : (V (Proc.devRef .tc main_v8) : S4096x1024.Idx → EReal)
    = leftCols (packW (W (Proc.devRef .tc main_arg13)) (W (Proc.devRef .tc main_arg15)) (W (Proc.devRef .tc main_arg17)) (W (Proc.devRef .tc main_arg19))) := by
  after_results; rfl

theorem v9_term : (V (Proc.devRef .tc main_v9) : S4096x1024.Idx → EReal)
    = rightCols (packW (W (Proc.devRef .tc main_arg13)) (W (Proc.devRef .tc main_arg15)) (W (Proc.devRef .tc main_arg17)) (W (Proc.devRef .tc main_arg19))) := by
  after_results; rfl

theorem v11_term : (V (Proc.devRef .tc main_v11) : S1x4096.Idx → EReal)
    = asRow (packB (W (Proc.devRef .tc main_arg14)) (W (Proc.devRef .tc main_arg16)) (W (Proc.devRef .tc main_arg18)) (W (Proc.devRef .tc main_arg20))) := by
  after_results; rfl

/-- The head's first weight is only narrowed: the same entries. -/
theorem v12_eq : (V (Proc.devRef .tc main_v12) : S2048x1024.Idx → EReal) = (W (Proc.devRef .tc main_arg21) : S2048x1024.Idx → EReal) := by
  after_results; rfl

theorem v13_term : (V (Proc.devRef .tc main_v13) : S1x2048.Idx → EReal)
    = shapeCast S1x2048 (W (Proc.devRef .tc main_arg22) : S2048.Idx → EReal) shapeCasts_S2048_S1x2048 := by
  after_results; rfl

/-- The head's second weight is only narrowed: the same entries. -/
theorem v14_eq : (V (Proc.devRef .tc main_v14) : S1024x2048.Idx → EReal) = (W (Proc.devRef .tc main_arg23) : S1024x2048.Idx → EReal) := by
  after_results; rfl

theorem v15_term : (V (Proc.devRef .tc main_v15) : S1x1024.Idx → EReal)
    = shapeCast S1x1024 (W (Proc.devRef .tc main_arg24) : S1024.Idx → EReal) shapeCasts_S1024_S1x1024 := by
  after_results; rfl

end Terms

/-! ## The interface: every packed buffer at an entry, and every argument untouched

`V` is what the device's buffers hold once the sixteen host operations have run from contents `W`. -/

section Interface
variable (W : Valuation Cert.KernelIdeal.τ Cert.KernelIdeal.sig (Elt Ideal))

local notation "V" => StableHlo.after (hostOps0 (F := Ideal)) W

/-! ### `main_v2`: cell 1, the columns that multiply the input -/

theorem v2_at_g0 (r : Fin 4096) (j k : Fin 1024) (h : r.val = 0 + j.val) :
    (V (Proc.devRef .tc main_v2) : S4096x1024.Idx → EReal) (ix2 r k)
      = (W (Proc.devRef .tc main_arg5) : S1024x2048.Idx → EReal) (ix2 j ⟨k.val, by have := k.isLt; omega⟩) :=
  (congrFun (v2_term W) _).trans (leftPack_g0 _ _ _ _ r j k h)

/-- The forget gate's weight. -/
theorem v2_g0 (j k : Fin 1024) :
    (V (Proc.devRef .tc main_v2) : S4096x1024.Idx → EReal) (ix2 ⟨0 + j.val, by have := j.isLt; omega⟩ k)
      = (W (Proc.devRef .tc main_arg5) : S1024x2048.Idx → EReal) (ix2 j ⟨k.val, by have := k.isLt; omega⟩) :=
  v2_at_g0 W _ j k rfl

theorem v2_at_g1 (r : Fin 4096) (j k : Fin 1024) (h : r.val = 1024 + j.val) :
    (V (Proc.devRef .tc main_v2) : S4096x1024.Idx → EReal) (ix2 r k)
      = (W (Proc.devRef .tc main_arg7) : S1024x2048.Idx → EReal) (ix2 j ⟨k.val, by have := k.isLt; omega⟩) :=
  (congrFun (v2_term W) _).trans (leftPack_g1 _ _ _ _ r j k h)

/-- The input gate's weight. -/
theorem v2_g1 (j k : Fin 1024) :
    (V (Proc.devRef .tc main_v2) : S4096x1024.Idx → EReal) (ix2 ⟨1024 + j.val, by have := j.isLt; omega⟩ k)
      = (W (Proc.devRef .tc main_arg7) : S1024x2048.Idx → EReal) (ix2 j ⟨k.val, by have := k.isLt; omega⟩) :=
  v2_at_g1 W _ j k rfl

theorem v2_at_g2 (r : Fin 4096) (j k : Fin 1024) (h : r.val = 2048 + j.val) :
    (V (Proc.devRef .tc main_v2) : S4096x1024.Idx → EReal) (ix2 r k)
      = (W (Proc.devRef .tc main_arg9) : S1024x2048.Idx → EReal) (ix2 j ⟨k.val, by have := k.isLt; omega⟩) :=
  (congrFun (v2_term W) _).trans (leftPack_g2 _ _ _ _ r j k h)

/-- The candidate gate's weight. -/
theorem v2_g2 (j k : Fin 1024) :
    (V (Proc.devRef .tc main_v2) : S4096x1024.Idx → EReal) (ix2 ⟨2048 + j.val, by have := j.isLt; omega⟩ k)
      = (W (Proc.devRef .tc main_arg9) : S1024x2048.Idx → EReal) (ix2 j ⟨k.val, by have := k.isLt; omega⟩) :=
  v2_at_g2 W _ j k rfl

theorem v2_at_g3 (r : Fin 4096) (j k : Fin 1024) (h : r.val = 3072 + j.val) :
    (V (Proc.devRef .tc main_v2) : S4096x1024.Idx → EReal) (ix2 r k)
      = (W (Proc.devRef .tc main_arg11) : S1024x2048.Idx → EReal) (ix2 j ⟨k.val, by have := k.isLt; omega⟩) :=
  (congrFun (v2_term W) _).trans (leftPack_g3 _ _ _ _ r j k h)

/-- The output gate's weight. -/
theorem v2_g3 (j k : Fin 1024) :
    (V (Proc.devRef .tc main_v2) : S4096x1024.Idx → EReal) (ix2 ⟨3072 + j.val, by have := j.isLt; omega⟩ k)
      = (W (Proc.devRef .tc main_arg11) : S1024x2048.Idx → EReal) (ix2 j ⟨k.val, by have := k.isLt; omega⟩) :=
  v2_at_g3 W _ j k rfl

/-! ### `main_v3`: cell 1, the columns that multiply the recurrent state -/

theorem v3_at_g0 (r : Fin 4096) (j k : Fin 1024) (h : r.val = 0 + j.val) :
    (V (Proc.devRef .tc main_v3) : S4096x1024.Idx → EReal) (ix2 r k)
      = (W (Proc.devRef .tc main_arg5) : S1024x2048.Idx → EReal) (ix2 j ⟨1024 + k.val, by have := k.isLt; omega⟩) :=
  (congrFun (v3_term W) _).trans (rightPack_g0 _ _ _ _ r j k h)

/-- The forget gate's weight. -/
theorem v3_g0 (j k : Fin 1024) :
    (V (Proc.devRef .tc main_v3) : S4096x1024.Idx → EReal) (ix2 ⟨0 + j.val, by have := j.isLt; omega⟩ k)
      = (W (Proc.devRef .tc main_arg5) : S1024x2048.Idx → EReal) (ix2 j ⟨1024 + k.val, by have := k.isLt; omega⟩) :=
  v3_at_g0 W _ j k rfl

theorem v3_at_g1 (r : Fin 4096) (j k : Fin 1024) (h : r.val = 1024 + j.val) :
    (V (Proc.devRef .tc main_v3) : S4096x1024.Idx → EReal) (ix2 r k)
      = (W (Proc.devRef .tc main_arg7) : S1024x2048.Idx → EReal) (ix2 j ⟨1024 + k.val, by have := k.isLt; omega⟩) :=
  (congrFun (v3_term W) _).trans (rightPack_g1 _ _ _ _ r j k h)

/-- The input gate's weight. -/
theorem v3_g1 (j k : Fin 1024) :
    (V (Proc.devRef .tc main_v3) : S4096x1024.Idx → EReal) (ix2 ⟨1024 + j.val, by have := j.isLt; omega⟩ k)
      = (W (Proc.devRef .tc main_arg7) : S1024x2048.Idx → EReal) (ix2 j ⟨1024 + k.val, by have := k.isLt; omega⟩) :=
  v3_at_g1 W _ j k rfl

theorem v3_at_g2 (r : Fin 4096) (j k : Fin 1024) (h : r.val = 2048 + j.val) :
    (V (Proc.devRef .tc main_v3) : S4096x1024.Idx → EReal) (ix2 r k)
      = (W (Proc.devRef .tc main_arg9) : S1024x2048.Idx → EReal) (ix2 j ⟨1024 + k.val, by have := k.isLt; omega⟩) :=
  (congrFun (v3_term W) _).trans (rightPack_g2 _ _ _ _ r j k h)

/-- The candidate gate's weight. -/
theorem v3_g2 (j k : Fin 1024) :
    (V (Proc.devRef .tc main_v3) : S4096x1024.Idx → EReal) (ix2 ⟨2048 + j.val, by have := j.isLt; omega⟩ k)
      = (W (Proc.devRef .tc main_arg9) : S1024x2048.Idx → EReal) (ix2 j ⟨1024 + k.val, by have := k.isLt; omega⟩) :=
  v3_at_g2 W _ j k rfl

theorem v3_at_g3 (r : Fin 4096) (j k : Fin 1024) (h : r.val = 3072 + j.val) :
    (V (Proc.devRef .tc main_v3) : S4096x1024.Idx → EReal) (ix2 r k)
      = (W (Proc.devRef .tc main_arg11) : S1024x2048.Idx → EReal) (ix2 j ⟨1024 + k.val, by have := k.isLt; omega⟩) :=
  (congrFun (v3_term W) _).trans (rightPack_g3 _ _ _ _ r j k h)

/-- The output gate's weight. -/
theorem v3_g3 (j k : Fin 1024) :
    (V (Proc.devRef .tc main_v3) : S4096x1024.Idx → EReal) (ix2 ⟨3072 + j.val, by have := j.isLt; omega⟩ k)
      = (W (Proc.devRef .tc main_arg11) : S1024x2048.Idx → EReal) (ix2 j ⟨1024 + k.val, by have := k.isLt; omega⟩) :=
  v3_at_g3 W _ j k rfl

/-! ### `main_v5`: cell 1, the biases as one row -/

theorem v5_at_g0 (r : Fin 4096) (j : Fin 1024) (h : r.val = 0 + j.val) :
    (V (Proc.devRef .tc main_v5) : S1x4096.Idx → EReal) (ix2 (0 : Fin 1) r)
      = (W (Proc.devRef .tc main_arg6) : S1024.Idx → EReal) (ix1 j) :=
  (congrFun (v5_term W) _).trans (rowPack_g0 _ _ _ _ r j h)

/-- The forget gate's bias. -/
theorem v5_g0 (j : Fin 1024) :
    (V (Proc.devRef .tc main_v5) : S1x4096.Idx → EReal) (ix2 (0 : Fin 1) ⟨0 + j.val, by have := j.isLt; omega⟩)
      = (W (Proc.devRef .tc main_arg6) : S1024.Idx → EReal) (ix1 j) :=
  v5_at_g0 W _ j rfl

theorem v5_at_g1 (r : Fin 4096) (j : Fin 1024) (h : r.val = 1024 + j.val) :
    (V (Proc.devRef .tc main_v5) : S1x4096.Idx → EReal) (ix2 (0 : Fin 1) r)
      = (W (Proc.devRef .tc main_arg8) : S1024.Idx → EReal) (ix1 j) :=
  (congrFun (v5_term W) _).trans (rowPack_g1 _ _ _ _ r j h)

/-- The input gate's bias. -/
theorem v5_g1 (j : Fin 1024) :
    (V (Proc.devRef .tc main_v5) : S1x4096.Idx → EReal) (ix2 (0 : Fin 1) ⟨1024 + j.val, by have := j.isLt; omega⟩)
      = (W (Proc.devRef .tc main_arg8) : S1024.Idx → EReal) (ix1 j) :=
  v5_at_g1 W _ j rfl

theorem v5_at_g2 (r : Fin 4096) (j : Fin 1024) (h : r.val = 2048 + j.val) :
    (V (Proc.devRef .tc main_v5) : S1x4096.Idx → EReal) (ix2 (0 : Fin 1) r)
      = (W (Proc.devRef .tc main_arg10) : S1024.Idx → EReal) (ix1 j) :=
  (congrFun (v5_term W) _).trans (rowPack_g2 _ _ _ _ r j h)

/-- The candidate gate's bias. -/
theorem v5_g2 (j : Fin 1024) :
    (V (Proc.devRef .tc main_v5) : S1x4096.Idx → EReal) (ix2 (0 : Fin 1) ⟨2048 + j.val, by have := j.isLt; omega⟩)
      = (W (Proc.devRef .tc main_arg10) : S1024.Idx → EReal) (ix1 j) :=
  v5_at_g2 W _ j rfl

theorem v5_at_g3 (r : Fin 4096) (j : Fin 1024) (h : r.val = 3072 + j.val) :
    (V (Proc.devRef .tc main_v5) : S1x4096.Idx → EReal) (ix2 (0 : Fin 1) r)
      = (W (Proc.devRef .tc main_arg12) : S1024.Idx → EReal) (ix1 j) :=
  (congrFun (v5_term W) _).trans (rowPack_g3 _ _ _ _ r j h)

/-- The output gate's bias. -/
theorem v5_g3 (j : Fin 1024) :
    (V (Proc.devRef .tc main_v5) : S1x4096.Idx → EReal) (ix2 (0 : Fin 1) ⟨3072 + j.val, by have := j.isLt; omega⟩)
      = (W (Proc.devRef .tc main_arg12) : S1024.Idx → EReal) (ix1 j) :=
  v5_at_g3 W _ j rfl

/-! ### `main_v8`: cell 2, the columns that multiply the input -/

theorem v8_at_g0 (r : Fin 4096) (j k : Fin 1024) (h : r.val = 0 + j.val) :
    (V (Proc.devRef .tc main_v8) : S4096x1024.Idx → EReal) (ix2 r k)
      = (W (Proc.devRef .tc main_arg13) : S1024x2048.Idx → EReal) (ix2 j ⟨k.val, by have := k.isLt; omega⟩) :=
  (congrFun (v8_term W) _).trans (leftPack_g0 _ _ _ _ r j k h)

/-- The forget gate's weight. -/
theorem v8_g0 (j k : Fin 1024) :
    (V (Proc.devRef .tc main_v8) : S4096x1024.Idx → EReal) (ix2 ⟨0 + j.val, by have := j.isLt; omega⟩ k)
      = (W (Proc.devRef .tc main_arg13) : S1024x2048.Idx → EReal) (ix2 j ⟨k.val, by have := k.isLt; omega⟩) :=
  v8_at_g0 W _ j k rfl

theorem v8_at_g1 (r : Fin 4096) (j k : Fin 1024) (h : r.val = 1024 + j.val) :
    (V (Proc.devRef .tc main_v8) : S4096x1024.Idx → EReal) (ix2 r k)
      = (W (Proc.devRef .tc main_arg15) : S1024x2048.Idx → EReal) (ix2 j ⟨k.val, by have := k.isLt; omega⟩) :=
  (congrFun (v8_term W) _).trans (leftPack_g1 _ _ _ _ r j k h)

/-- The input gate's weight. -/
theorem v8_g1 (j k : Fin 1024) :
    (V (Proc.devRef .tc main_v8) : S4096x1024.Idx → EReal) (ix2 ⟨1024 + j.val, by have := j.isLt; omega⟩ k)
      = (W (Proc.devRef .tc main_arg15) : S1024x2048.Idx → EReal) (ix2 j ⟨k.val, by have := k.isLt; omega⟩) :=
  v8_at_g1 W _ j k rfl

theorem v8_at_g2 (r : Fin 4096) (j k : Fin 1024) (h : r.val = 2048 + j.val) :
    (V (Proc.devRef .tc main_v8) : S4096x1024.Idx → EReal) (ix2 r k)
      = (W (Proc.devRef .tc main_arg17) : S1024x2048.Idx → EReal) (ix2 j ⟨k.val, by have := k.isLt; omega⟩) :=
  (congrFun (v8_term W) _).trans (leftPack_g2 _ _ _ _ r j k h)

/-- The candidate gate's weight. -/
theorem v8_g2 (j k : Fin 1024) :
    (V (Proc.devRef .tc main_v8) : S4096x1024.Idx → EReal) (ix2 ⟨2048 + j.val, by have := j.isLt; omega⟩ k)
      = (W (Proc.devRef .tc main_arg17) : S1024x2048.Idx → EReal) (ix2 j ⟨k.val, by have := k.isLt; omega⟩) :=
  v8_at_g2 W _ j k rfl

theorem v8_at_g3 (r : Fin 4096) (j k : Fin 1024) (h : r.val = 3072 + j.val) :
    (V (Proc.devRef .tc main_v8) : S4096x1024.Idx → EReal) (ix2 r k)
      = (W (Proc.devRef .tc main_arg19) : S1024x2048.Idx → EReal) (ix2 j ⟨k.val, by have := k.isLt; omega⟩) :=
  (congrFun (v8_term W) _).trans (leftPack_g3 _ _ _ _ r j k h)

/-- The output gate's weight. -/
theorem v8_g3 (j k : Fin 1024) :
    (V (Proc.devRef .tc main_v8) : S4096x1024.Idx → EReal) (ix2 ⟨3072 + j.val, by have := j.isLt; omega⟩ k)
      = (W (Proc.devRef .tc main_arg19) : S1024x2048.Idx → EReal) (ix2 j ⟨k.val, by have := k.isLt; omega⟩) :=
  v8_at_g3 W _ j k rfl

/-! ### `main_v9`: cell 2, the columns that multiply the recurrent state -/

theorem v9_at_g0 (r : Fin 4096) (j k : Fin 1024) (h : r.val = 0 + j.val) :
    (V (Proc.devRef .tc main_v9) : S4096x1024.Idx → EReal) (ix2 r k)
      = (W (Proc.devRef .tc main_arg13) : S1024x2048.Idx → EReal) (ix2 j ⟨1024 + k.val, by have := k.isLt; omega⟩) :=
  (congrFun (v9_term W) _).trans (rightPack_g0 _ _ _ _ r j k h)

/-- The forget gate's weight. -/
theorem v9_g0 (j k : Fin 1024) :
    (V (Proc.devRef .tc main_v9) : S4096x1024.Idx → EReal) (ix2 ⟨0 + j.val, by have := j.isLt; omega⟩ k)
      = (W (Proc.devRef .tc main_arg13) : S1024x2048.Idx → EReal) (ix2 j ⟨1024 + k.val, by have := k.isLt; omega⟩) :=
  v9_at_g0 W _ j k rfl

theorem v9_at_g1 (r : Fin 4096) (j k : Fin 1024) (h : r.val = 1024 + j.val) :
    (V (Proc.devRef .tc main_v9) : S4096x1024.Idx → EReal) (ix2 r k)
      = (W (Proc.devRef .tc main_arg15) : S1024x2048.Idx → EReal) (ix2 j ⟨1024 + k.val, by have := k.isLt; omega⟩) :=
  (congrFun (v9_term W) _).trans (rightPack_g1 _ _ _ _ r j k h)

/-- The input gate's weight. -/
theorem v9_g1 (j k : Fin 1024) :
    (V (Proc.devRef .tc main_v9) : S4096x1024.Idx → EReal) (ix2 ⟨1024 + j.val, by have := j.isLt; omega⟩ k)
      = (W (Proc.devRef .tc main_arg15) : S1024x2048.Idx → EReal) (ix2 j ⟨1024 + k.val, by have := k.isLt; omega⟩) :=
  v9_at_g1 W _ j k rfl

theorem v9_at_g2 (r : Fin 4096) (j k : Fin 1024) (h : r.val = 2048 + j.val) :
    (V (Proc.devRef .tc main_v9) : S4096x1024.Idx → EReal) (ix2 r k)
      = (W (Proc.devRef .tc main_arg17) : S1024x2048.Idx → EReal) (ix2 j ⟨1024 + k.val, by have := k.isLt; omega⟩) :=
  (congrFun (v9_term W) _).trans (rightPack_g2 _ _ _ _ r j k h)

/-- The candidate gate's weight. -/
theorem v9_g2 (j k : Fin 1024) :
    (V (Proc.devRef .tc main_v9) : S4096x1024.Idx → EReal) (ix2 ⟨2048 + j.val, by have := j.isLt; omega⟩ k)
      = (W (Proc.devRef .tc main_arg17) : S1024x2048.Idx → EReal) (ix2 j ⟨1024 + k.val, by have := k.isLt; omega⟩) :=
  v9_at_g2 W _ j k rfl

theorem v9_at_g3 (r : Fin 4096) (j k : Fin 1024) (h : r.val = 3072 + j.val) :
    (V (Proc.devRef .tc main_v9) : S4096x1024.Idx → EReal) (ix2 r k)
      = (W (Proc.devRef .tc main_arg19) : S1024x2048.Idx → EReal) (ix2 j ⟨1024 + k.val, by have := k.isLt; omega⟩) :=
  (congrFun (v9_term W) _).trans (rightPack_g3 _ _ _ _ r j k h)

/-- The output gate's weight. -/
theorem v9_g3 (j k : Fin 1024) :
    (V (Proc.devRef .tc main_v9) : S4096x1024.Idx → EReal) (ix2 ⟨3072 + j.val, by have := j.isLt; omega⟩ k)
      = (W (Proc.devRef .tc main_arg19) : S1024x2048.Idx → EReal) (ix2 j ⟨1024 + k.val, by have := k.isLt; omega⟩) :=
  v9_at_g3 W _ j k rfl

/-! ### `main_v11`: cell 2, the biases as one row -/

theorem v11_at_g0 (r : Fin 4096) (j : Fin 1024) (h : r.val = 0 + j.val) :
    (V (Proc.devRef .tc main_v11) : S1x4096.Idx → EReal) (ix2 (0 : Fin 1) r)
      = (W (Proc.devRef .tc main_arg14) : S1024.Idx → EReal) (ix1 j) :=
  (congrFun (v11_term W) _).trans (rowPack_g0 _ _ _ _ r j h)

/-- The forget gate's bias. -/
theorem v11_g0 (j : Fin 1024) :
    (V (Proc.devRef .tc main_v11) : S1x4096.Idx → EReal) (ix2 (0 : Fin 1) ⟨0 + j.val, by have := j.isLt; omega⟩)
      = (W (Proc.devRef .tc main_arg14) : S1024.Idx → EReal) (ix1 j) :=
  v11_at_g0 W _ j rfl

theorem v11_at_g1 (r : Fin 4096) (j : Fin 1024) (h : r.val = 1024 + j.val) :
    (V (Proc.devRef .tc main_v11) : S1x4096.Idx → EReal) (ix2 (0 : Fin 1) r)
      = (W (Proc.devRef .tc main_arg16) : S1024.Idx → EReal) (ix1 j) :=
  (congrFun (v11_term W) _).trans (rowPack_g1 _ _ _ _ r j h)

/-- The input gate's bias. -/
theorem v11_g1 (j : Fin 1024) :
    (V (Proc.devRef .tc main_v11) : S1x4096.Idx → EReal) (ix2 (0 : Fin 1) ⟨1024 + j.val, by have := j.isLt; omega⟩)
      = (W (Proc.devRef .tc main_arg16) : S1024.Idx → EReal) (ix1 j) :=
  v11_at_g1 W _ j rfl

theorem v11_at_g2 (r : Fin 4096) (j : Fin 1024) (h : r.val = 2048 + j.val) :
    (V (Proc.devRef .tc main_v11) : S1x4096.Idx → EReal) (ix2 (0 : Fin 1) r)
      = (W (Proc.devRef .tc main_arg18) : S1024.Idx → EReal) (ix1 j) :=
  (congrFun (v11_term W) _).trans (rowPack_g2 _ _ _ _ r j h)

/-- The candidate gate's bias. -/
theorem v11_g2 (j : Fin 1024) :
    (V (Proc.devRef .tc main_v11) : S1x4096.Idx → EReal) (ix2 (0 : Fin 1) ⟨2048 + j.val, by have := j.isLt; omega⟩)
      = (W (Proc.devRef .tc main_arg18) : S1024.Idx → EReal) (ix1 j) :=
  v11_at_g2 W _ j rfl

theorem v11_at_g3 (r : Fin 4096) (j : Fin 1024) (h : r.val = 3072 + j.val) :
    (V (Proc.devRef .tc main_v11) : S1x4096.Idx → EReal) (ix2 (0 : Fin 1) r)
      = (W (Proc.devRef .tc main_arg20) : S1024.Idx → EReal) (ix1 j) :=
  (congrFun (v11_term W) _).trans (rowPack_g3 _ _ _ _ r j h)

/-- The output gate's bias. -/
theorem v11_g3 (j : Fin 1024) :
    (V (Proc.devRef .tc main_v11) : S1x4096.Idx → EReal) (ix2 (0 : Fin 1) ⟨3072 + j.val, by have := j.isLt; omega⟩)
      = (W (Proc.devRef .tc main_arg20) : S1024.Idx → EReal) (ix1 j) :=
  v11_at_g3 W _ j rfl

/-! ### The head's biases as one row -/

theorem v13_at (n : Fin 2048) :
    (V (Proc.devRef .tc main_v13) : S1x2048.Idx → EReal) (ix2 (0 : Fin 1) n)
      = (W (Proc.devRef .tc main_arg22) : S2048.Idx → EReal) (ix1 n) :=
  (congrFun (v13_term W) _).trans (shapeCast_a_1a_apply _ shapeCasts_S2048_S1x2048 0 n)

theorem v15_at (q : Fin 1024) :
    (V (Proc.devRef .tc main_v15) : S1x1024.Idx → EReal) (ix2 (0 : Fin 1) q)
      = (W (Proc.devRef .tc main_arg24) : S1024.Idx → EReal) (ix1 q) :=
  (congrFun (v15_term W) _).trans (shapeCast_a_1a_apply _ shapeCasts_S1024_S1x1024 0 q)

/-! ### No host operation writes an argument -/

theorem arg_eq_0 : V (Proc.devRef .tc main_arg0) = W (Proc.devRef .tc main_arg0) :=
  StableHlo.after_of_writes_sub hostOps0 W hostOps0_writes (by decide)

theorem arg_eq_1 : V (Proc.devRef .tc main_arg1) = W (Proc.devRef .tc main_arg1) :=
  StableHlo.after_of_writes_sub hostOps0 W hostOps0_writes (by decide)

theorem arg_eq_2 : V (Proc.devRef .tc main_arg2) = W (Proc.devRef .tc main_arg2) :=
  StableHlo.after_of_writes_sub hostOps0 W hostOps0_writes (by decide)

theorem arg_eq_3 : V (Proc.devRef .tc main_arg3) = W (Proc.devRef .tc main_arg3) :=
  StableHlo.after_of_writes_sub hostOps0 W hostOps0_writes (by decide)

theorem arg_eq_4 : V (Proc.devRef .tc main_arg4) = W (Proc.devRef .tc main_arg4) :=
  StableHlo.after_of_writes_sub hostOps0 W hostOps0_writes (by decide)

theorem arg_eq_5 : V (Proc.devRef .tc main_arg5) = W (Proc.devRef .tc main_arg5) :=
  StableHlo.after_of_writes_sub hostOps0 W hostOps0_writes (by decide)

theorem arg_eq_6 : V (Proc.devRef .tc main_arg6) = W (Proc.devRef .tc main_arg6) :=
  StableHlo.after_of_writes_sub hostOps0 W hostOps0_writes (by decide)

theorem arg_eq_7 : V (Proc.devRef .tc main_arg7) = W (Proc.devRef .tc main_arg7) :=
  StableHlo.after_of_writes_sub hostOps0 W hostOps0_writes (by decide)

theorem arg_eq_8 : V (Proc.devRef .tc main_arg8) = W (Proc.devRef .tc main_arg8) :=
  StableHlo.after_of_writes_sub hostOps0 W hostOps0_writes (by decide)

theorem arg_eq_9 : V (Proc.devRef .tc main_arg9) = W (Proc.devRef .tc main_arg9) :=
  StableHlo.after_of_writes_sub hostOps0 W hostOps0_writes (by decide)

theorem arg_eq_10 : V (Proc.devRef .tc main_arg10) = W (Proc.devRef .tc main_arg10) :=
  StableHlo.after_of_writes_sub hostOps0 W hostOps0_writes (by decide)

theorem arg_eq_11 : V (Proc.devRef .tc main_arg11) = W (Proc.devRef .tc main_arg11) :=
  StableHlo.after_of_writes_sub hostOps0 W hostOps0_writes (by decide)

theorem arg_eq_12 : V (Proc.devRef .tc main_arg12) = W (Proc.devRef .tc main_arg12) :=
  StableHlo.after_of_writes_sub hostOps0 W hostOps0_writes (by decide)

theorem arg_eq_13 : V (Proc.devRef .tc main_arg13) = W (Proc.devRef .tc main_arg13) :=
  StableHlo.after_of_writes_sub hostOps0 W hostOps0_writes (by decide)

theorem arg_eq_14 : V (Proc.devRef .tc main_arg14) = W (Proc.devRef .tc main_arg14) :=
  StableHlo.after_of_writes_sub hostOps0 W hostOps0_writes (by decide)

theorem arg_eq_15 : V (Proc.devRef .tc main_arg15) = W (Proc.devRef .tc main_arg15) :=
  StableHlo.after_of_writes_sub hostOps0 W hostOps0_writes (by decide)

theorem arg_eq_16 : V (Proc.devRef .tc main_arg16) = W (Proc.devRef .tc main_arg16) :=
  StableHlo.after_of_writes_sub hostOps0 W hostOps0_writes (by decide)

theorem arg_eq_17 : V (Proc.devRef .tc main_arg17) = W (Proc.devRef .tc main_arg17) :=
  StableHlo.after_of_writes_sub hostOps0 W hostOps0_writes (by decide)

theorem arg_eq_18 : V (Proc.devRef .tc main_arg18) = W (Proc.devRef .tc main_arg18) :=
  StableHlo.after_of_writes_sub hostOps0 W hostOps0_writes (by decide)

theorem arg_eq_19 : V (Proc.devRef .tc main_arg19) = W (Proc.devRef .tc main_arg19) :=
  StableHlo.after_of_writes_sub hostOps0 W hostOps0_writes (by decide)

theorem arg_eq_20 : V (Proc.devRef .tc main_arg20) = W (Proc.devRef .tc main_arg20) :=
  StableHlo.after_of_writes_sub hostOps0 W hostOps0_writes (by decide)

theorem arg_eq_21 : V (Proc.devRef .tc main_arg21) = W (Proc.devRef .tc main_arg21) :=
  StableHlo.after_of_writes_sub hostOps0 W hostOps0_writes (by decide)

theorem arg_eq_22 : V (Proc.devRef .tc main_arg22) = W (Proc.devRef .tc main_arg22) :=
  StableHlo.after_of_writes_sub hostOps0 W hostOps0_writes (by decide)

theorem arg_eq_23 : V (Proc.devRef .tc main_arg23) = W (Proc.devRef .tc main_arg23) :=
  StableHlo.after_of_writes_sub hostOps0 W hostOps0_writes (by decide)

theorem arg_eq_24 : V (Proc.devRef .tc main_arg24) = W (Proc.devRef .tc main_arg24) :=
  StableHlo.after_of_writes_sub hostOps0 W hostOps0_writes (by decide)

end Interface

end Cert.HostPack
-- ==== Proof.KiAlg.lean ====
/-
  The kernel's five results as the specification's functions of the twenty-five arguments, at the exact instance.

  After the host operations the packed weight's row g·1024 + j is gate g's weight row j (its first 1024 columns in
  the part that multiplies the input, its last 1024 in the part that multiplies the recurrent state) and the packed
  bias's entry g·1024 + j is gate g's bias entry j; the arguments themselves are untouched. So each gate's
  pre-activation read off the packed arrays is the specification's gate, the first call's results are the first
  cell, and — the second call finding the first cell's new hidden array where the first call left it — the second
  call's results are the second cell and the head.
-/
import proofs.«125369_j48885317763708_2_alg».proof.Proof.KiBound
import proofs.«125369_j48885317763708_2_alg».proof.Proof.KiGlue
import proofs.«125369_j48885317763708_2_alg».proof.Proof.HostPack
import proofs.«125369_j48885317763708_2_alg».proof.Proof.KiFrame

set_option maxRecDepth 16384

noncomputable section

namespace Cert.KernelIdeal.Hand

open Cert.KernelIdeal Cert.KernelIdeal.Gen
open Idealize.ShloMosaic Idealize.ShloMosaic.TcCoe ValueIdx
open Idealize.ShloMosaic.Pipeline (Dat Cfg Window)

variable (m : (ℓ : Loc nD τ sig) → Buf (Elt Ideal) ℓ) (ρ : Dev nD → PrngReg)

/-- The arguments on core `c`, as the specification takes them. -/
def AK (c : Dev nD) : Cert.Spec.Args :=
  Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

/-! ## The first cell -/

theorem gate0_g0 (c : Dev nD) (r : Fin 4096) (j : Fin 1024) :
    gateV0 (Vb1 m ρ) c r ⟨j.val, by have := j.isLt; omega⟩ = Cert.Spec.gate (AK m c).X (AK m c).hidden1 (AK m c).Wf1 (AK m c).bf1 r j :=
  gateV0_of (Vb1 m ρ) c _ _ _ _ ⟨j.val, by have := j.isLt; omega⟩ j
    (fun r k => congrFun (Cert.HostPack.arg_eq_0 (Wb0 m ρ c)) (ix2 r k))
    (fun r k => congrFun (Cert.HostPack.arg_eq_1 (Wb0 m ρ c)) (ix2 r k))
    (fun k => Cert.HostPack.v2_at_g0 (Wb0 m ρ c) ⟨j.val, by have := j.isLt; omega⟩ j k (Nat.zero_add _).symm)
    (fun k => Cert.HostPack.v3_at_g0 (Wb0 m ρ c) ⟨j.val, by have := j.isLt; omega⟩ j k (Nat.zero_add _).symm)
    (Cert.HostPack.v5_at_g0 (Wb0 m ρ c) ⟨j.val, by have := j.isLt; omega⟩ j (Nat.zero_add _).symm) r

theorem gate0_g1 (c : Dev nD) (r : Fin 4096) (j : Fin 1024) :
    gateV0 (Vb1 m ρ) c r ⟨1024 + j.val, by have := j.isLt; omega⟩ = Cert.Spec.gate (AK m c).X (AK m c).hidden1 (AK m c).Wi1 (AK m c).bi1 r j :=
  gateV0_of (Vb1 m ρ) c _ _ _ _ ⟨1024 + j.val, by have := j.isLt; omega⟩ j
    (fun r k => congrFun (Cert.HostPack.arg_eq_0 (Wb0 m ρ c)) (ix2 r k))
    (fun r k => congrFun (Cert.HostPack.arg_eq_1 (Wb0 m ρ c)) (ix2 r k))
    (fun k => Cert.HostPack.v2_at_g1 (Wb0 m ρ c) ⟨1024 + j.val, by have := j.isLt; omega⟩ j k rfl)
    (fun k => Cert.HostPack.v3_at_g1 (Wb0 m ρ c) ⟨1024 + j.val, by have := j.isLt; omega⟩ j k rfl)
    (Cert.HostPack.v5_at_g1 (Wb0 m ρ c) ⟨1024 + j.val, by have := j.isLt; omega⟩ j rfl) r

theorem gate0_g2 (c : Dev nD) (r : Fin 4096) (j : Fin 1024) :
    gateV0 (Vb1 m ρ) c r ⟨2048 + j.val, by have := j.isLt; omega⟩ = Cert.Spec.gate (AK m c).X (AK m c).hidden1 (AK m c).Wc1 (AK m c).bc1 r j :=
  gateV0_of (Vb1 m ρ) c _ _ _ _ ⟨2048 + j.val, by have := j.isLt; omega⟩ j
    (fun r k => congrFun (Cert.HostPack.arg_eq_0 (Wb0 m ρ c)) (ix2 r k))
    (fun r k => congrFun (Cert.HostPack.arg_eq_1 (Wb0 m ρ c)) (ix2 r k))
    (fun k => Cert.HostPack.v2_at_g2 (Wb0 m ρ c) ⟨2048 + j.val, by have := j.isLt; omega⟩ j k rfl)
    (fun k => Cert.HostPack.v3_at_g2 (Wb0 m ρ c) ⟨2048 + j.val, by have := j.isLt; omega⟩ j k rfl)
    (Cert.HostPack.v5_at_g2 (Wb0 m ρ c) ⟨2048 + j.val, by have := j.isLt; omega⟩ j rfl) r

theorem gate0_g3 (c : Dev nD) (r : Fin 4096) (j : Fin 1024) :
    gateV0 (Vb1 m ρ) c r ⟨3072 + j.val, by have := j.isLt; omega⟩ = Cert.Spec.gate (AK m c).X (AK m c).hidden1 (AK m c).Wo1 (AK m c).bo1 r j :=
  gateV0_of (Vb1 m ρ) c _ _ _ _ ⟨3072 + j.val, by have := j.isLt; omega⟩ j
    (fun r k => congrFun (Cert.HostPack.arg_eq_0 (Wb0 m ρ c)) (ix2 r k))
    (fun r k => congrFun (Cert.HostPack.arg_eq_1 (Wb0 m ρ c)) (ix2 r k))
    (fun k => Cert.HostPack.v2_at_g3 (Wb0 m ρ c) ⟨3072 + j.val, by have := j.isLt; omega⟩ j k rfl)
    (fun k => Cert.HostPack.v3_at_g3 (Wb0 m ρ c) ⟨3072 + j.val, by have := j.isLt; omega⟩ j k rfl)
    (Cert.HostPack.v5_at_g3 (Wb0 m ρ c) ⟨3072 + j.val, by have := j.isLt; omega⟩ j rfl) r

/-- The first call's first result is the first cell's new hidden array. -/
theorem GH0_spec (c : Dev nD) : GH0 (Vb1 m ρ) c = Cert.Spec.arrOf (Cert.Spec.h1 (AK m c)) :=
  GH0_of (Vb1 m ρ) c _ _ _ _ _ _ (gate0_g2 m ρ c) (gate0_g3 m ρ c)

/-- The first call's second result is the first cell's new cell array. -/
theorem GC0_spec (c : Dev nD) : GC0 (Vb1 m ρ) c = Cert.Spec.arrOf (Cert.Spec.c1 (AK m c)) :=
  GC0_of (Vb1 m ρ) c _ _ _ _ _ _ _ _ _ (gate0_g0 m ρ c) (gate0_g1 m ρ c) (gate0_g2 m ρ c)
    (fun r j => congrFun (Cert.HostPack.arg_eq_3 (Wb0 m ρ c)) (ix2 r j))

/-! ## The second cell and the head -/

theorem gate1_g0 (c : Dev nD) (r : Fin 4096) (j : Fin 1024) :
    gateV1 (Vb2 m ρ) c r ⟨j.val, by have := j.isLt; omega⟩ = Cert.Spec.gate (Cert.Spec.h1 (AK m c)) (AK m c).hidden2 (AK m c).Wf2 (AK m c).bf2 r j :=
  gateV1_of (Vb2 m ρ) c _ _ _ _ ⟨j.val, by have := j.isLt; omega⟩ j
    (fun r k => (congrFun (Vb2_h1 m ρ c) (ix2 r k)).trans (congrFun (GH0_spec m ρ c) (ix2 r k)))
    (fun r k => (congrFun (Vb2_keep m ρ c main_arg2 (by decide)) (ix2 r k)).trans (congrFun (Cert.HostPack.arg_eq_2 (Wb0 m ρ c)) (ix2 r k)))
    (fun k => (congrFun (Vb2_keep m ρ c main_v8 (by decide)) _).trans (Cert.HostPack.v8_at_g0 (Wb0 m ρ c) ⟨j.val, by have := j.isLt; omega⟩ j k (Nat.zero_add _).symm))
    (fun k => (congrFun (Vb2_keep m ρ c main_v9 (by decide)) _).trans (Cert.HostPack.v9_at_g0 (Wb0 m ρ c) ⟨j.val, by have := j.isLt; omega⟩ j k (Nat.zero_add _).symm))
    ((congrFun (Vb2_keep m ρ c main_v11 (by decide)) _).trans (Cert.HostPack.v11_at_g0 (Wb0 m ρ c) ⟨j.val, by have := j.isLt; omega⟩ j (Nat.zero_add _).symm)) r

theorem gate1_g1 (c : Dev nD) (r : Fin 4096) (j : Fin 1024) :
    gateV1 (Vb2 m ρ) c r ⟨1024 + j.val, by have := j.isLt; omega⟩ = Cert.Spec.gate (Cert.Spec.h1 (AK m c)) (AK m c).hidden2 (AK m c).Wi2 (AK m c).bi2 r j :=
  gateV1_of (Vb2 m ρ) c _ _ _ _ ⟨1024 + j.val, by have := j.isLt; omega⟩ j
    (fun r k => (congrFun (Vb2_h1 m ρ c) (ix2 r k)).trans (congrFun (GH0_spec m ρ c) (ix2 r k)))
    (fun r k => (congrFun (Vb2_keep m ρ c main_arg2 (by decide)) (ix2 r k)).trans (congrFun (Cert.HostPack.arg_eq_2 (Wb0 m ρ c)) (ix2 r k)))
    (fun k => (congrFun (Vb2_keep m ρ c main_v8 (by decide)) _).trans (Cert.HostPack.v8_at_g1 (Wb0 m ρ c) ⟨1024 + j.val, by have := j.isLt; omega⟩ j k rfl))
    (fun k => (congrFun (Vb2_keep m ρ c main_v9 (by decide)) _).trans (Cert.HostPack.v9_at_g1 (Wb0 m ρ c) ⟨1024 + j.val, by have := j.isLt; omega⟩ j k rfl))
    ((congrFun (Vb2_keep m ρ c main_v11 (by decide)) _).trans (Cert.HostPack.v11_at_g1 (Wb0 m ρ c) ⟨1024 + j.val, by have := j.isLt; omega⟩ j rfl)) r

theorem gate1_g2 (c : Dev nD) (r : Fin 4096) (j : Fin 1024) :
    gateV1 (Vb2 m ρ) c r ⟨2048 + j.val, by have := j.isLt; omega⟩ = Cert.Spec.gate (Cert.Spec.h1 (AK m c)) (AK m c).hidden2 (AK m c).Wc2 (AK m c).bc2 r j :=
  gateV1_of (Vb2 m ρ) c _ _ _ _ ⟨2048 + j.val, by have := j.isLt; omega⟩ j
    (fun r k => (congrFun (Vb2_h1 m ρ c) (ix2 r k)).trans (congrFun (GH0_spec m ρ c) (ix2 r k)))
    (fun r k => (congrFun (Vb2_keep m ρ c main_arg2 (by decide)) (ix2 r k)).trans (congrFun (Cert.HostPack.arg_eq_2 (Wb0 m ρ c)) (ix2 r k)))
    (fun k => (congrFun (Vb2_keep m ρ c main_v8 (by decide)) _).trans (Cert.HostPack.v8_at_g2 (Wb0 m ρ c) ⟨2048 + j.val, by have := j.isLt; omega⟩ j k rfl))
    (fun k => (congrFun (Vb2_keep m ρ c main_v9 (by decide)) _).trans (Cert.HostPack.v9_at_g2 (Wb0 m ρ c) ⟨2048 + j.val, by have := j.isLt; omega⟩ j k rfl))
    ((congrFun (Vb2_keep m ρ c main_v11 (by decide)) _).trans (Cert.HostPack.v11_at_g2 (Wb0 m ρ c) ⟨2048 + j.val, by have := j.isLt; omega⟩ j rfl)) r

theorem gate1_g3 (c : Dev nD) (r : Fin 4096) (j : Fin 1024) :
    gateV1 (Vb2 m ρ) c r ⟨3072 + j.val, by have := j.isLt; omega⟩ = Cert.Spec.gate (Cert.Spec.h1 (AK m c)) (AK m c).hidden2 (AK m c).Wo2 (AK m c).bo2 r j :=
  gateV1_of (Vb2 m ρ) c _ _ _ _ ⟨3072 + j.val, by have := j.isLt; omega⟩ j
    (fun r k => (congrFun (Vb2_h1 m ρ c) (ix2 r k)).trans (congrFun (GH0_spec m ρ c) (ix2 r k)))
    (fun r k => (congrFun (Vb2_keep m ρ c main_arg2 (by decide)) (ix2 r k)).trans (congrFun (Cert.HostPack.arg_eq_2 (Wb0 m ρ c)) (ix2 r k)))
    (fun k => (congrFun (Vb2_keep m ρ c main_v8 (by decide)) _).trans (Cert.HostPack.v8_at_g3 (Wb0 m ρ c) ⟨3072 + j.val, by have := j.isLt; omega⟩ j k rfl))
    (fun k => (congrFun (Vb2_keep m ρ c main_v9 (by decide)) _).trans (Cert.HostPack.v9_at_g3 (Wb0 m ρ c) ⟨3072 + j.val, by have := j.isLt; omega⟩ j k rfl))
    ((congrFun (Vb2_keep m ρ c main_v11 (by decide)) _).trans (Cert.HostPack.v11_at_g3 (Wb0 m ρ c) ⟨3072 + j.val, by have := j.isLt; omega⟩ j rfl)) r

theorem GH1_spec (c : Dev nD) : GH1 (Vb2 m ρ) c = Cert.Spec.arrOf (Cert.Spec.h2 (AK m c)) :=
  GH1_of (Vb2 m ρ) c _ _ _ _ _ _ (gate1_g2 m ρ c) (gate1_g3 m ρ c)

theorem GC1_spec (c : Dev nD) : GC1 (Vb2 m ρ) c = Cert.Spec.arrOf (Cert.Spec.c2 (AK m c)) :=
  GC1_of (Vb2 m ρ) c _ _ _ _ _ _ _ _ _ (gate1_g0 m ρ c) (gate1_g1 m ρ c) (gate1_g2 m ρ c)
    (fun r j => (congrFun (Vb2_keep m ρ c main_arg4 (by decide)) (ix2 r j)).trans (congrFun (Cert.HostPack.arg_eq_4 (Wb0 m ρ c)) (ix2 r j)))

theorem GO1_spec (c : Dev nD) : GO1 (Vb2 m ρ) c = Cert.Spec.arrOf (Cert.Spec.out (AK m c)) :=
  GO1_of (Vb2 m ρ) c _ _ _ _ _
    (fun r => hrow1_of (Vb2 m ρ) c _ _ _ _ _ _ (gate1_g2 m ρ c) (gate1_g3 m ρ c) r)
    (fun n k => (congrFun (Vb2_keep m ρ c main_v12 (by decide)) _).trans (congrFun (Cert.HostPack.v12_eq (Wb0 m ρ c)) (ix2 n k)))
    (fun n => (congrFun (Vb2_keep m ρ c main_v13 (by decide)) _).trans (Cert.HostPack.v13_at (Wb0 m ρ c) n))
    (fun q n => (congrFun (Vb2_keep m ρ c main_v14 (by decide)) _).trans (congrFun (Cert.HostPack.v14_eq (Wb0 m ρ c)) (ix2 q n)))
    (fun q => (congrFun (Vb2_keep m ρ c main_v15 (by decide)) _).trans (Cert.HostPack.v15_at (Wb0 m ρ c) q))

/-! ## The run with its results -/

/-- Every weakly fair execution of the kernel at the exact instance terminates with its five results at the specification's
    functions of the arguments, and the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v17_2) = Cert.Spec.arrOf (Cert.Spec.out (AK m c))
      ∧ r.2.mem ((c.tc : Thread nD τ).loc main_v16_0) = Cert.Spec.arrOf (Cert.Spec.h1 (AK m c))
      ∧ r.2.mem ((c.tc : Thread nD τ).loc main_v17_0) = Cert.Spec.arrOf (Cert.Spec.h2 (AK m c))
      ∧ r.2.mem ((c.tc : Thread nD τ).loc main_v16_1) = Cert.Spec.arrOf (Cert.Spec.c1 (AK m c))
      ∧ r.2.mem ((c.tc : Thread nD τ).loc main_v17_1) = Cert.Spec.arrOf (Cert.Spec.c2 (AK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_ucH main_v17_2 (by decide))).trans ((Wb3_out m ρ c).trans (GO1_spec m ρ c)),
     (h c _ (mem_ucH main_v16_0 (by decide))).trans ((Wb3_h1 m ρ c).trans (GH0_spec m ρ c)),
     (h c _ (mem_ucH main_v17_0 (by decide))).trans ((Wb3_h2 m ρ c).trans (GH1_spec m ρ c)),
     (h c _ (mem_ucH main_v16_1 (by decide))).trans ((Wb3_c1 m ρ c).trans (GC0_spec m ρ c)),
     (h c _ (mem_ucH main_v17_1 (by decide))).trans ((Wb3_c2 m ρ c).trans (GC1_spec m ρ c)),
     (h c _ (mem_ucH main_arg0 (by decide))).trans (Wb3_main_arg0 m ρ c),
     (h c _ (mem_ucH main_arg1 (by decide))).trans (Wb3_main_arg1 m ρ c),
     (h c _ (mem_ucH main_arg2 (by decide))).trans (Wb3_main_arg2 m ρ c),
     (h c _ (mem_ucH main_arg3 (by decide))).trans (Wb3_main_arg3 m ρ c),
     (h c _ (mem_ucH main_arg4 (by decide))).trans (Wb3_main_arg4 m ρ c),
     (h c _ (mem_ucH main_arg5 (by decide))).trans (Wb3_main_arg5 m ρ c),
     (h c _ (mem_ucH main_arg6 (by decide))).trans (Wb3_main_arg6 m ρ c),
     (h c _ (mem_ucH main_arg7 (by decide))).trans (Wb3_main_arg7 m ρ c),
     (h c _ (mem_ucH main_arg8 (by decide))).trans (Wb3_main_arg8 m ρ c),
     (h c _ (mem_ucH main_arg9 (by decide))).trans (Wb3_main_arg9 m ρ c),
     (h c _ (mem_ucH main_arg10 (by decide))).trans (Wb3_main_arg10 m ρ c),
     (h c _ (mem_ucH main_arg11 (by decide))).trans (Wb3_main_arg11 m ρ c),
     (h c _ (mem_ucH main_arg12 (by decide))).trans (Wb3_main_arg12 m ρ c),
     (h c _ (mem_ucH main_arg13 (by decide))).trans (Wb3_main_arg13 m ρ c),
     (h c _ (mem_ucH main_arg14 (by decide))).trans (Wb3_main_arg14 m ρ c),
     (h c _ (mem_ucH main_arg15 (by decide))).trans (Wb3_main_arg15 m ρ c),
     (h c _ (mem_ucH main_arg16 (by decide))).trans (Wb3_main_arg16 m ρ c),
     (h c _ (mem_ucH main_arg17 (by decide))).trans (Wb3_main_arg17 m ρ c),
     (h c _ (mem_ucH main_arg18 (by decide))).trans (Wb3_main_arg18 m ρ c),
     (h c _ (mem_ucH main_arg19 (by decide))).trans (Wb3_main_arg19 m ρ c),
     (h c _ (mem_ucH main_arg20 (by decide))).trans (Wb3_main_arg20 m ρ c),
     (h c _ (mem_ucH main_arg21 (by decide))).trans (Wb3_main_arg21 m ρ c),
     (h c _ (mem_ucH main_arg22 (by decide))).trans (Wb3_main_arg22 m ρ c),
     (h c _ (mem_ucH main_arg23 (by decide))).trans (Wb3_main_arg23 m ρ c),
     (h c _ (mem_ucH main_arg24 (by decide))).trans (Wb3_main_arg24 m ρ c)⟩)
    (runH m ρ)

end Cert.KernelIdeal.Hand

end
-- ==== Proof.RefSide1.lean ====
/-
  Two facts about arrays of literal extents, away from any program.

  A sum over 2048 entries splits into the sum over its first 1024 and the sum over its last 1024 entries; and the
  concatenation of two [4096, 1024] arrays along the columns, read at row r and a column below 1024, is the first
  array at (r, k), and read at column 1024 + k it is the second array at (r, k). Together they turn an inner
  product of a concatenated row with a 2048-entry weight row into the two inner products over 1024 entries.
  The bit pattern of the float 1.0 denotes the extended real 1.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

open scoped BigOperators

namespace Cert.RefSide

open Idealize.ShloMosaic Idealize.ShloMosaic.ValueIdx

/-- A sum over 2048 entries is the sum over the first 1024 plus the sum over the last 1024. -/
theorem sum_split (f : Fin 2048 → EReal) :
    ∑ k : Fin 2048, f k
      = ∑ k : Fin 1024, f ⟨k.val, by have := k.isLt; omega⟩ + ∑ k : Fin 1024, f ⟨1024 + k.val, by have := k.isLt; omega⟩ :=
  Fin.sum_univ_add (M := EReal) (a := 1024) (b := 1024) f

/-- A column-wise concatenation of two [4096, 1024] arrays read in its first 1024 columns is the first array. -/
theorem cat_left {α : Type} (x h : (⟨2, ![4096, 1024]⟩ : Shape).Idx → α)
    (hc : Shape.Concatenates [(⟨2, ![4096, 1024]⟩ : Shape), ⟨2, ![4096, 1024]⟩] ⟨2, ![4096, 2048]⟩ 1)
    (r : Fin 4096) (k : Fin 1024) :
    concatenate (⟨2, ![4096, 2048]⟩ : Shape) 1 [⟨⟨2, ![4096, 1024]⟩, x⟩, ⟨⟨2, ![4096, 1024]⟩, h⟩] hc
      (ix2 r (⟨k.val, by have := k.isLt; omega⟩ : Fin 2048)) = x (ix2 r k) :=
  concatenate_pair_apply_left 1 x h hc _ rfl _ (fun b => by
    match b with
    | ⟨0, _⟩ => rfl
    | ⟨1, _⟩ => rfl)

/-- Read in its last 1024 columns it is the second array. -/
theorem cat_right {α : Type} (x h : (⟨2, ![4096, 1024]⟩ : Shape).Idx → α)
    (hc : Shape.Concatenates [(⟨2, ![4096, 1024]⟩ : Shape), ⟨2, ![4096, 1024]⟩] ⟨2, ![4096, 2048]⟩ 1)
    (r : Fin 4096) (k : Fin 1024) :
    concatenate (⟨2, ![4096, 2048]⟩ : Shape) 1 [⟨⟨2, ![4096, 1024]⟩, x⟩, ⟨⟨2, ![4096, 1024]⟩, h⟩] hc
      (ix2 r (⟨1024 + k.val, by have := k.isLt; omega⟩ : Fin 2048)) = h (ix2 r k) :=
  concatenate_pair_apply_right 1 x h hc _ rfl rfl _
    (fun b hb => by
      match b with
      | ⟨0, _⟩ => rfl
      | ⟨1, _⟩ => exact absurd rfl hb)
    (by show k.val + 1024 = 1024 + k.val; omega)

/-- The 32-bit pattern of the float 1.0 denotes the extended real 1. -/
theorem one_word : Ideal.ofBits .f32 0x3F800000#32 = 1 := IdealRules.sign_bit.ideal_onePat .f32

end Cert.RefSide

end
-- ==== Proof.RefSide2.lean ====
/-
  One long-short-term-memory cell of the reference, read off its operations.

  A gate's pre-activation array is built by transposing the [1024, 2048] weight, concatenating the input and the
  recurrent array along the columns, contracting the 2048 joined columns, and adding the bias broadcast down the
  rows. At row r and unit j that is the inner product of the input row with the first 1024 entries of weight row j
  plus the inner product of the recurrent row with its last 1024 entries, plus bias entry j: the specification's
  gate. The squashing 1 / (1 + exp (-y)) is the logistic function. From these the cell's new hidden array is
  logistic(output gate) * tanh (tanh (candidate)) and its new cell array is
  logistic(forget gate) * old cell + tanh (candidate) * logistic(input gate), entry by entry.
  Everything is stated over arbitrary argument arrays, so the second cell reuses it with the first cell's hidden
  array as its input.
-/
import proofs.«125369_j48885317763708_2_alg».proof.Proof.Gen.ReferenceIdeal.Run
import proofs.«125369_j48885317763708_2_alg».proof.Proof.Gen.ReferenceIdeal.Read
import proofs.«125369_j48885317763708_2_alg».proof.Proof.Spec
import proofs.«125369_j48885317763708_2_alg».proof.Proof.RefSide1

noncomputable section

open scoped BigOperators

namespace Cert.RefSide

open Cert.ReferenceIdeal Cert.ReferenceIdeal.Gen Cert.ReferenceIdeal.Read Idealize.ShloMosaic Idealize.ShloMosaic.ValueIdx
  Idealize.ShloMosaic.StableHlo

/-! ## Where the gate's operations read their operands -/

/-- The contraction reads the joined array at (r, k) … -/
theorem lidx_gate (r : Fin 4096) (j : Fin 1024) (k : Fin 2048) : lidx_main_v2 (ix2 r j) k = ix2 r k := by
  funext a; match a with | ⟨0, _⟩ => rfl | ⟨1, _⟩ => rfl

/-- … and, through the transposition, the weight at (j, k). -/
theorem ridx_gate (r : Fin 4096) (j : Fin 1024) (k : Fin 2048) : idx_main_v1 (ridx_main_v2 (ix2 r j) k) = ix2 j k := by
  funext a; match a with | ⟨0, _⟩ => rfl | ⟨1, _⟩ => rfl

/-- The two broadcasts read the bias at j. -/
theorem bias_gate (r : Fin 4096) (j : Fin 1024) : idx_main_v3 (idx_main_v4 (ix2 r j)) = ix1 j := by
  funext a; match a with | ⟨0, _⟩ => rfl

/-- The joined array in its first 1024 columns is the input … -/
theorem joined_left (x h : (⟨S4096x1024, .f32⟩ : BufTy).Contents (Elt Ideal)) (r : Fin 4096) (k : Fin 1024) :
    val_main_v0 (F := Ideal) x h (ix2 r (⟨k.val, by have := k.isLt; omega⟩ : Fin 2048)) = x (ix2 r k) :=
  cat_left x h _ r k

/-- … and in its last 1024 columns the recurrent array. -/
theorem joined_right (x h : (⟨S4096x1024, .f32⟩ : BufTy).Contents (Elt Ideal)) (r : Fin 4096) (k : Fin 1024) :
    val_main_v0 (F := Ideal) x h (ix2 r (⟨1024 + k.val, by have := k.isLt; omega⟩ : Fin 2048)) = h (ix2 r k) :=
  cat_right x h _ r k

/-! ## A gate's pre-activation -/

/-- The pre-activation array at (r, j) is the specification's gate. -/
theorem gate_apply (x h : (⟨S4096x1024, .f32⟩ : BufTy).Contents (Elt Ideal)) (W : (⟨S1024x2048, .f32⟩ : BufTy).Contents (Elt Ideal)) (b : (⟨S1024, .f32⟩ : BufTy).Contents (Elt Ideal))
    (r : Fin 4096) (j : Fin 1024) :
    val_main_v5 (F := Ideal) x h W b (ix2 r j)
      = Spec.gate (Spec.matOf x) (Spec.matOf h) (Spec.matOf W) (Spec.rowOf b) r j := by
  rw [val_main_v5_apply, val_main_v2_apply, val_main_v4_apply, val_main_v3_apply, bias_gate]
  simp only [val_main_v1_apply, lidx_gate, ridx_gate, Ideal.addf_def]
  rw [sum_split]
  simp only [joined_left, joined_right]
  rfl

/-! ## The other gates are the same operations on other arguments -/

theorem gate_i (x h : (⟨S4096x1024, .f32⟩ : BufTy).Contents (Elt Ideal)) (W : (⟨S1024x2048, .f32⟩ : BufTy).Contents (Elt Ideal)) (b : (⟨S1024, .f32⟩ : BufTy).Contents (Elt Ideal)) :
    val_main_v16 (F := Ideal) x h W b = val_main_v5 (F := Ideal) x h W b := rfl
theorem gate_c (x h : (⟨S4096x1024, .f32⟩ : BufTy).Contents (Elt Ideal)) (W : (⟨S1024x2048, .f32⟩ : BufTy).Contents (Elt Ideal)) (b : (⟨S1024, .f32⟩ : BufTy).Contents (Elt Ideal)) :
    val_main_v27 (F := Ideal) x h W b = val_main_v5 (F := Ideal) x h W b := rfl
theorem gate_o (x h : (⟨S4096x1024, .f32⟩ : BufTy).Contents (Elt Ideal)) (W : (⟨S1024x2048, .f32⟩ : BufTy).Contents (Elt Ideal)) (b : (⟨S1024, .f32⟩ : BufTy).Contents (Elt Ideal)) :
    val_main_v33 (F := Ideal) x h W b = val_main_v5 (F := Ideal) x h W b := rfl

/-! ## The squashing functions -/

/-- 1 / (1 + exp (-y)), entry by entry, is the logistic function of the pre-activation. -/
theorem sig_apply (x h : (⟨S4096x1024, .f32⟩ : BufTy).Contents (Elt Ideal)) (W : (⟨S1024x2048, .f32⟩ : BufTy).Contents (Elt Ideal)) (b : (⟨S1024, .f32⟩ : BufTy).Contents (Elt Ideal)) (i : S4096x1024.Idx) :
    val_main_v11 (F := Ideal) x h W b i = Ideal.logistic (val_main_v5 (F := Ideal) x h W b i) := by
  rw [val_main_v11_apply, val_main_v10_apply, val_main_cst_0_apply, val_main_v9_apply, val_main_v8_apply,
    val_main_cst_apply, val_main_v7_apply, val_main_v6_apply]
  simp only [Ideal.hostDivf_def, Ideal.ofBits_def, Ideal.addf_def, Ideal.hostUnary_exp_def, Ideal.hostNegf_def,
    Ideal.negf_def, one_word]
  rfl

theorem sig_i (x h : (⟨S4096x1024, .f32⟩ : BufTy).Contents (Elt Ideal)) (W : (⟨S1024x2048, .f32⟩ : BufTy).Contents (Elt Ideal)) (b : (⟨S1024, .f32⟩ : BufTy).Contents (Elt Ideal)) :
    val_main_v22 (F := Ideal) x h W b = val_main_v11 (F := Ideal) x h W b := rfl
theorem sig_o (x h : (⟨S4096x1024, .f32⟩ : BufTy).Contents (Elt Ideal)) (W : (⟨S1024x2048, .f32⟩ : BufTy).Contents (Elt Ideal)) (b : (⟨S1024, .f32⟩ : BufTy).Contents (Elt Ideal)) :
    val_main_v39 (F := Ideal) x h W b = val_main_v11 (F := Ideal) x h W b := rfl

/-- The candidate is the hyperbolic tangent of its pre-activation. -/
theorem cand_apply (x h : (⟨S4096x1024, .f32⟩ : BufTy).Contents (Elt Ideal)) (W : (⟨S1024x2048, .f32⟩ : BufTy).Contents (Elt Ideal)) (b : (⟨S1024, .f32⟩ : BufTy).Contents (Elt Ideal)) (i : S4096x1024.Idx) :
    val_main_v28 (F := Ideal) x h W b i = Ideal.tanh (val_main_v5 (F := Ideal) x h W b i) := by
  rw [val_main_v28_apply, gate_c, Ideal.hostUnary_tanh_def]

/-! ## The cell -/

/-- The new hidden array: logistic(output gate) * tanh (tanh (candidate pre-activation)). -/
theorem cellH_eq (x h : (⟨S4096x1024, .f32⟩ : BufTy).Contents (Elt Ideal)) (Wc : (⟨S1024x2048, .f32⟩ : BufTy).Contents (Elt Ideal)) (bc : (⟨S1024, .f32⟩ : BufTy).Contents (Elt Ideal)) (Wo : (⟨S1024x2048, .f32⟩ : BufTy).Contents (Elt Ideal)) (bo : (⟨S1024, .f32⟩ : BufTy).Contents (Elt Ideal)) :
    val_main_v41 (F := Ideal) x h Wc bc Wo bo
      = Spec.arrOf (Spec.cellH (Spec.matOf x) (Spec.matOf h) (Spec.matOf Wc) (Spec.matOf Wo) (Spec.rowOf bc) (Spec.rowOf bo)) := by
  funext i
  obtain ⟨r, j, rfl⟩ : ∃ (r : Fin 4096) (j : Fin 1024), i = ix2 r j := ⟨i 0, i 1, eq_ix2 i⟩
  rw [val_main_v41_apply, val_main_v40_apply, sig_o, sig_apply, cand_apply]
  simp only [gate_apply, Ideal.mulf_def, Ideal.hostUnary_tanh_def]
  rfl

/-- The new cell array: logistic(forget gate) * old cell + tanh (candidate pre-activation) * logistic(input gate). -/
theorem cellC_eq (x h c : (⟨S4096x1024, .f32⟩ : BufTy).Contents (Elt Ideal)) (Wf : (⟨S1024x2048, .f32⟩ : BufTy).Contents (Elt Ideal)) (bf : (⟨S1024, .f32⟩ : BufTy).Contents (Elt Ideal)) (Wi : (⟨S1024x2048, .f32⟩ : BufTy).Contents (Elt Ideal)) (bi : (⟨S1024, .f32⟩ : BufTy).Contents (Elt Ideal)) (Wc : (⟨S1024x2048, .f32⟩ : BufTy).Contents (Elt Ideal)) (bc : (⟨S1024, .f32⟩ : BufTy).Contents (Elt Ideal)) :
    val_main_v44 (F := Ideal) x h c Wf bf Wi bi Wc bc
      = Spec.arrOf (Spec.cellC (Spec.matOf x) (Spec.matOf h) (Spec.matOf c) (Spec.matOf Wf) (Spec.matOf Wi) (Spec.matOf Wc)
          (Spec.rowOf bf) (Spec.rowOf bi) (Spec.rowOf bc)) := by
  funext i
  obtain ⟨r, j, rfl⟩ : ∃ (r : Fin 4096) (j : Fin 1024), i = ix2 r j := ⟨i 0, i 1, eq_ix2 i⟩
  rw [val_main_v44_apply, val_main_v42_apply, val_main_v43_apply, sig_i, cand_apply]
  simp only [sig_apply, gate_apply, Ideal.mulf_def, Ideal.addf_def]
  rfl

end Cert.RefSide

end
-- ==== Proof.RefSide3.lean ====
/-
  The two-layer head of the reference, read off its operations.

  The first layer transposes the [2048, 1024] weight, contracts the 1024 columns of the hidden array with it, adds
  the bias broadcast down the rows and takes the maximum with 0: at row r and unit n, the rectified value of the
  inner product of hidden row r with weight row n plus bias entry n. The second layer transposes the [1024, 2048]
  weight, contracts the 2048 columns of the first layer's result and adds its bias: at row r and unit q, the inner
  product of the first layer's row r with weight row q plus bias entry q. The hidden array the head is applied to
  is never opened: it stands for itself on both sides.
-/
import proofs.«125369_j48885317763708_2_alg».proof.Proof.Gen.ReferenceIdeal.Run
import proofs.«125369_j48885317763708_2_alg».proof.Proof.Gen.ReferenceIdeal.Read
import proofs.«125369_j48885317763708_2_alg».proof.Proof.Spec

noncomputable section

open scoped BigOperators

namespace Cert.RefSide

open Cert.ReferenceIdeal Cert.ReferenceIdeal.Gen Cert.ReferenceIdeal.Read Idealize.ShloMosaic Idealize.ShloMosaic.ValueIdx
  Idealize.ShloMosaic.StableHlo

/-! ## Where the head's operations read their operands -/

/-- The second contraction reads the first layer's result at (r, n) … -/
theorem lidx_out (r : Fin 4096) (q : Fin 1024) (n : Fin 2048) : lidx_main_v97 (ix2 r q) n = ix2 r n := by
  funext a; match a with | ⟨0, _⟩ => rfl | ⟨1, _⟩ => rfl

/-- … and, through the transposition, the second weight at (q, n). -/
theorem ridx_out (r : Fin 4096) (q : Fin 1024) (n : Fin 2048) : idx_main_v96 (ridx_main_v97 (ix2 r q) n) = ix2 q n := by
  funext a; match a with | ⟨0, _⟩ => rfl | ⟨1, _⟩ => rfl

/-- The second bias is read at q. -/
theorem bias_out (r : Fin 4096) (q : Fin 1024) : idx_main_v98 (idx_main_v99 (ix2 r q)) = ix1 q := by
  funext a; match a with | ⟨0, _⟩ => rfl

/-- The first contraction reads the hidden array at (r, k) … -/
theorem lidx_hid (r : Fin 4096) (n : Fin 2048) (k : Fin 1024) : lidx_main_v91 (ix2 r n) k = ix2 r k := by
  funext a; match a with | ⟨0, _⟩ => rfl | ⟨1, _⟩ => rfl

/-- … and, through the transposition, the first weight at (n, k). -/
theorem ridx_hid (r : Fin 4096) (n : Fin 2048) (k : Fin 1024) : idx_main_v90 (ridx_main_v91 (ix2 r n) k) = ix2 n k := by
  funext a; match a with | ⟨0, _⟩ => rfl | ⟨1, _⟩ => rfl

/-- The first bias is read at n. -/
theorem bias_hid (r : Fin 4096) (n : Fin 2048) : idx_main_v92 (idx_main_v93 (ix2 r n)) = ix1 n := by
  funext a; match a with | ⟨0, _⟩ => rfl

/-! ## The head -/

/-- The output array is the specification's head applied to the second cell's new hidden array. -/
theorem head_eq (x0 x1 x2 : (⟨S4096x1024, .f32⟩ : BufTy).Contents (Elt Ideal)) (x9 : (⟨S1024x2048, .f32⟩ : BufTy).Contents (Elt Ideal)) (x10 : (⟨S1024, .f32⟩ : BufTy).Contents (Elt Ideal)) (x11 : (⟨S1024x2048, .f32⟩ : BufTy).Contents (Elt Ideal)) (x12 : (⟨S1024, .f32⟩ : BufTy).Contents (Elt Ideal))
    (x17 : (⟨S1024x2048, .f32⟩ : BufTy).Contents (Elt Ideal)) (x18 : (⟨S1024, .f32⟩ : BufTy).Contents (Elt Ideal)) (x19 : (⟨S1024x2048, .f32⟩ : BufTy).Contents (Elt Ideal)) (x20 : (⟨S1024, .f32⟩ : BufTy).Contents (Elt Ideal))
    (x21 : (⟨S2048x1024, .f32⟩ : BufTy).Contents (Elt Ideal)) (x22 : (⟨S2048, .f32⟩ : BufTy).Contents (Elt Ideal)) (x23 : (⟨S1024x2048, .f32⟩ : BufTy).Contents (Elt Ideal)) (x24 : (⟨S1024, .f32⟩ : BufTy).Contents (Elt Ideal)) :
    val_main_v100 (F := Ideal) x0 x1 x2 x9 x10 x11 x12 x17 x18 x19 x20 x21 x22 x23 x24
      = Spec.arrOf (Spec.head4 (Spec.head3
          (Spec.matOf (val_main_v86 (F := Ideal) x0 x1 x2 x9 x10 x11 x12 x17 x18 x19 x20))
          (Spec.matOf x21) (Spec.rowOf x22)) (Spec.matOf x23) (Spec.rowOf x24)) := by
  funext i
  obtain ⟨r, q, rfl⟩ : ∃ (r : Fin 4096) (q : Fin 1024), i = ix2 r q := ⟨i 0, i 1, eq_ix2 i⟩
  rw [val_main_v100_apply, val_main_v97_apply, val_main_v99_apply, val_main_v98_apply, bias_out]
  simp only [val_main_v96_apply, lidx_out, ridx_out, val_main_v95_apply, val_main_v94_apply, val_main_v91_apply,
    val_main_v93_apply, val_main_v92_apply, val_main_v90_apply, lidx_hid, ridx_hid, bias_hid,
    val_main_call0_v0_apply, val_main_call0_cst_apply, Ideal.addf_def, Ideal.maximumf_def, Ideal.ofBits_def,
    Ideal.ofBits_zero_f32]
  generalize val_main_v86 (F := Ideal) x0 x1 x2 x9 x10 x11 x12 x17 x18 x19 x20 = H
  rfl

end Cert.RefSide

end
-- ==== Proof.RefSide.lean ====
/-
  The reference's run, stated with the specification's terms.

  The second cell is the first cell's operations applied to the first cell's new hidden array, the second
  recurrent array and the second cell's weights; so its two results are the specification's cell functions of those,
  and the head is applied to the second cell's new hidden array. Reading the twenty-five argument arrays as the
  specification's matrices and rows, each of the five results of every execution is the specification's array, and
  the arguments are unchanged.
-/
import proofs.«125369_j48885317763708_2_alg».proof.Proof.Gen.ReferenceIdeal.Run
import proofs.«125369_j48885317763708_2_alg».proof.Proof.Gen.ReferenceIdeal.Read
import proofs.«125369_j48885317763708_2_alg».proof.Proof.Spec
import proofs.«125369_j48885317763708_2_alg».proof.Proof.RefSide2
import proofs.«125369_j48885317763708_2_alg».proof.Proof.RefSide3

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo

/-- Reading an array written from a matrix gives the matrix back. -/
theorem matOf_arrOf {a b : ℕ} (M : Spec.Mat a b) : Spec.matOf (Spec.arrOf M) = M := rfl

/-! ## The second cell is the first cell's operations on other arguments -/

theorem cell2H (a0 : (⟨S4096x1024, .f32⟩ : BufTy).Contents (Elt Ideal)) (a1 : (⟨S4096x1024, .f32⟩ : BufTy).Contents (Elt Ideal)) (a2 : (⟨S4096x1024, .f32⟩ : BufTy).Contents (Elt Ideal)) (a9 : (⟨S1024x2048, .f32⟩ : BufTy).Contents (Elt Ideal)) (a10 : (⟨S1024, .f32⟩ : BufTy).Contents (Elt Ideal)) (a11 : (⟨S1024x2048, .f32⟩ : BufTy).Contents (Elt Ideal)) (a12 : (⟨S1024, .f32⟩ : BufTy).Contents (Elt Ideal)) (a17 : (⟨S1024x2048, .f32⟩ : BufTy).Contents (Elt Ideal)) (a18 : (⟨S1024, .f32⟩ : BufTy).Contents (Elt Ideal)) (a19 : (⟨S1024x2048, .f32⟩ : BufTy).Contents (Elt Ideal)) (a20 : (⟨S1024, .f32⟩ : BufTy).Contents (Elt Ideal)) :
    val_main_v86 (F := Ideal) a0 a1 a2 a9 a10 a11 a12 a17 a18 a19 a20
      = val_main_v41 (F := Ideal) (val_main_v41 (F := Ideal) a0 a1 a9 a10 a11 a12) a2 a17 a18 a19 a20 := rfl

theorem cell2C (a0 : (⟨S4096x1024, .f32⟩ : BufTy).Contents (Elt Ideal)) (a1 : (⟨S4096x1024, .f32⟩ : BufTy).Contents (Elt Ideal)) (a2 : (⟨S4096x1024, .f32⟩ : BufTy).Contents (Elt Ideal)) (a4 : (⟨S4096x1024, .f32⟩ : BufTy).Contents (Elt Ideal)) (a9 : (⟨S1024x2048, .f32⟩ : BufTy).Contents (Elt Ideal)) (a10 : (⟨S1024, .f32⟩ : BufTy).Contents (Elt Ideal)) (a11 : (⟨S1024x2048, .f32⟩ : BufTy).Contents (Elt Ideal)) (a12 : (⟨S1024, .f32⟩ : BufTy).Contents (Elt Ideal)) (a13 : (⟨S1024x2048, .f32⟩ : BufTy).Contents (Elt Ideal)) (a14 : (⟨S1024, .f32⟩ : BufTy).Contents (Elt Ideal)) (a15 : (⟨S1024x2048, .f32⟩ : BufTy).Contents (Elt Ideal)) (a16 : (⟨S1024, .f32⟩ : BufTy).Contents (Elt Ideal)) (a17 : (⟨S1024x2048, .f32⟩ : BufTy).Contents (Elt Ideal)) (a18 : (⟨S1024, .f32⟩ : BufTy).Contents (Elt Ideal)) :
    val_main_v89 (F := Ideal) a0 a1 a2 a4 a9 a10 a11 a12 a13 a14 a15 a16 a17 a18
      = val_main_v44 (F := Ideal) (val_main_v41 (F := Ideal) a0 a1 a9 a10 a11 a12) a2 a4 a13 a14 a15 a16 a17 a18 := rfl

/-! ## The five results over arbitrary argument arrays -/

theorem h1_eq (a0 : (⟨S4096x1024, .f32⟩ : BufTy).Contents (Elt Ideal)) (a1 : (⟨S4096x1024, .f32⟩ : BufTy).Contents (Elt Ideal)) (a2 : (⟨S4096x1024, .f32⟩ : BufTy).Contents (Elt Ideal)) (a3 : (⟨S4096x1024, .f32⟩ : BufTy).Contents (Elt Ideal)) (a4 : (⟨S4096x1024, .f32⟩ : BufTy).Contents (Elt Ideal)) (a5 : (⟨S1024x2048, .f32⟩ : BufTy).Contents (Elt Ideal)) (a6 : (⟨S1024, .f32⟩ : BufTy).Contents (Elt Ideal)) (a7 : (⟨S1024x2048, .f32⟩ : BufTy).Contents (Elt Ideal)) (a8 : (⟨S1024, .f32⟩ : BufTy).Contents (Elt Ideal)) (a9 : (⟨S1024x2048, .f32⟩ : BufTy).Contents (Elt Ideal)) (a10 : (⟨S1024, .f32⟩ : BufTy).Contents (Elt Ideal)) (a11 : (⟨S1024x2048, .f32⟩ : BufTy).Contents (Elt Ideal)) (a12 : (⟨S1024, .f32⟩ : BufTy).Contents (Elt Ideal)) (a13 : (⟨S1024x2048, .f32⟩ : BufTy).Contents (Elt Ideal)) (a14 : (⟨S1024, .f32⟩ : BufTy).Contents (Elt Ideal)) (a15 : (⟨S1024x2048, .f32⟩ : BufTy).Contents (Elt Ideal)) (a16 : (⟨S1024, .f32⟩ : BufTy).Contents (Elt Ideal)) (a17 : (⟨S1024x2048, .f32⟩ : BufTy).Contents (Elt Ideal)) (a18 : (⟨S1024, .f32⟩ : BufTy).Contents (Elt Ideal)) (a19 : (⟨S1024x2048, .f32⟩ : BufTy).Contents (Elt Ideal)) (a20 : (⟨S1024, .f32⟩ : BufTy).Contents (Elt Ideal)) (a21 : (⟨S2048x1024, .f32⟩ : BufTy).Contents (Elt Ideal)) (a22 : (⟨S2048, .f32⟩ : BufTy).Contents (Elt Ideal)) (a23 : (⟨S1024x2048, .f32⟩ : BufTy).Contents (Elt Ideal)) (a24 : (⟨S1024, .f32⟩ : BufTy).Contents (Elt Ideal)) :
    val_main_v41 (F := Ideal) a0 a1 a9 a10 a11 a12 = Spec.arrOf (Spec.h1 (Spec.argsOf a0 a1 a2 a3 a4 a5 a6 a7 a8 a9 a10 a11 a12 a13 a14 a15 a16 a17 a18 a19 a20 a21 a22 a23 a24)) :=
  cellH_eq a0 a1 a9 a10 a11 a12

theorem c1_eq (a0 : (⟨S4096x1024, .f32⟩ : BufTy).Contents (Elt Ideal)) (a1 : (⟨S4096x1024, .f32⟩ : BufTy).Contents (Elt Ideal)) (a2 : (⟨S4096x1024, .f32⟩ : BufTy).Contents (Elt Ideal)) (a3 : (⟨S4096x1024, .f32⟩ : BufTy).Contents (Elt Ideal)) (a4 : (⟨S4096x1024, .f32⟩ : BufTy).Contents (Elt Ideal)) (a5 : (⟨S1024x2048, .f32⟩ : BufTy).Contents (Elt Ideal)) (a6 : (⟨S1024, .f32⟩ : BufTy).Contents (Elt Ideal)) (a7 : (⟨S1024x2048, .f32⟩ : BufTy).Contents (Elt Ideal)) (a8 : (⟨S1024, .f32⟩ : BufTy).Contents (Elt Ideal)) (a9 : (⟨S1024x2048, .f32⟩ : BufTy).Contents (Elt Ideal)) (a10 : (⟨S1024, .f32⟩ : BufTy).Contents (Elt Ideal)) (a11 : (⟨S1024x2048, .f32⟩ : BufTy).Contents (Elt Ideal)) (a12 : (⟨S1024, .f32⟩ : BufTy).Contents (Elt Ideal)) (a13 : (⟨S1024x2048, .f32⟩ : BufTy).Contents (Elt Ideal)) (a14 : (⟨S1024, .f32⟩ : BufTy).Contents (Elt Ideal)) (a15 : (⟨S1024x2048, .f32⟩ : BufTy).Contents (Elt Ideal)) (a16 : (⟨S1024, .f32⟩ : BufTy).Contents (Elt Ideal)) (a17 : (⟨S1024x2048, .f32⟩ : BufTy).Contents (Elt Ideal)) (a18 : (⟨S1024, .f32⟩ : BufTy).Contents (Elt Ideal)) (a19 : (⟨S1024x2048, .f32⟩ : BufTy).Contents (Elt Ideal)) (a20 : (⟨S1024, .f32⟩ : BufTy).Contents (Elt Ideal)) (a21 : (⟨S2048x1024, .f32⟩ : BufTy).Contents (Elt Ideal)) (a22 : (⟨S2048, .f32⟩ : BufTy).Contents (Elt Ideal)) (a23 : (⟨S1024x2048, .f32⟩ : BufTy).Contents (Elt Ideal)) (a24 : (⟨S1024, .f32⟩ : BufTy).Contents (Elt Ideal)) :
    val_main_v44 (F := Ideal) a0 a1 a3 a5 a6 a7 a8 a9 a10 = Spec.arrOf (Spec.c1 (Spec.argsOf a0 a1 a2 a3 a4 a5 a6 a7 a8 a9 a10 a11 a12 a13 a14 a15 a16 a17 a18 a19 a20 a21 a22 a23 a24)) :=
  cellC_eq a0 a1 a3 a5 a6 a7 a8 a9 a10

theorem h2_eq (a0 : (⟨S4096x1024, .f32⟩ : BufTy).Contents (Elt Ideal)) (a1 : (⟨S4096x1024, .f32⟩ : BufTy).Contents (Elt Ideal)) (a2 : (⟨S4096x1024, .f32⟩ : BufTy).Contents (Elt Ideal)) (a3 : (⟨S4096x1024, .f32⟩ : BufTy).Contents (Elt Ideal)) (a4 : (⟨S4096x1024, .f32⟩ : BufTy).Contents (Elt Ideal)) (a5 : (⟨S1024x2048, .f32⟩ : BufTy).Contents (Elt Ideal)) (a6 : (⟨S1024, .f32⟩ : BufTy).Contents (Elt Ideal)) (a7 : (⟨S1024x2048, .f32⟩ : BufTy).Contents (Elt Ideal)) (a8 : (⟨S1024, .f32⟩ : BufTy).Contents (Elt Ideal)) (a9 : (⟨S1024x2048, .f32⟩ : BufTy).Contents (Elt Ideal)) (a10 : (⟨S1024, .f32⟩ : BufTy).Contents (Elt Ideal)) (a11 : (⟨S1024x2048, .f32⟩ : BufTy).Contents (Elt Ideal)) (a12 : (⟨S1024, .f32⟩ : BufTy).Contents (Elt Ideal)) (a13 : (⟨S1024x2048, .f32⟩ : BufTy).Contents (Elt Ideal)) (a14 : (⟨S1024, .f32⟩ : BufTy).Contents (Elt Ideal)) (a15 : (⟨S1024x2048, .f32⟩ : BufTy).Contents (Elt Ideal)) (a16 : (⟨S1024, .f32⟩ : BufTy).Contents (Elt Ideal)) (a17 : (⟨S1024x2048, .f32⟩ : BufTy).Contents (Elt Ideal)) (a18 : (⟨S1024, .f32⟩ : BufTy).Contents (Elt Ideal)) (a19 : (⟨S1024x2048, .f32⟩ : BufTy).Contents (Elt Ideal)) (a20 : (⟨S1024, .f32⟩ : BufTy).Contents (Elt Ideal)) (a21 : (⟨S2048x1024, .f32⟩ : BufTy).Contents (Elt Ideal)) (a22 : (⟨S2048, .f32⟩ : BufTy).Contents (Elt Ideal)) (a23 : (⟨S1024x2048, .f32⟩ : BufTy).Contents (Elt Ideal)) (a24 : (⟨S1024, .f32⟩ : BufTy).Contents (Elt Ideal)) :
    val_main_v86 (F := Ideal) a0 a1 a2 a9 a10 a11 a12 a17 a18 a19 a20 = Spec.arrOf (Spec.h2 (Spec.argsOf a0 a1 a2 a3 a4 a5 a6 a7 a8 a9 a10 a11 a12 a13 a14 a15 a16 a17 a18 a19 a20 a21 a22 a23 a24)) := by
  rw [cell2H, h1_eq a0 a1 a2 a3 a4 a5 a6 a7 a8 a9 a10 a11 a12 a13 a14 a15 a16 a17 a18 a19 a20 a21 a22 a23 a24, cellH_eq, matOf_arrOf]
  rfl

theorem c2_eq (a0 : (⟨S4096x1024, .f32⟩ : BufTy).Contents (Elt Ideal)) (a1 : (⟨S4096x1024, .f32⟩ : BufTy).Contents (Elt Ideal)) (a2 : (⟨S4096x1024, .f32⟩ : BufTy).Contents (Elt Ideal)) (a3 : (⟨S4096x1024, .f32⟩ : BufTy).Contents (Elt Ideal)) (a4 : (⟨S4096x1024, .f32⟩ : BufTy).Contents (Elt Ideal)) (a5 : (⟨S1024x2048, .f32⟩ : BufTy).Contents (Elt Ideal)) (a6 : (⟨S1024, .f32⟩ : BufTy).Contents (Elt Ideal)) (a7 : (⟨S1024x2048, .f32⟩ : BufTy).Contents (Elt Ideal)) (a8 : (⟨S1024, .f32⟩ : BufTy).Contents (Elt Ideal)) (a9 : (⟨S1024x2048, .f32⟩ : BufTy).Contents (Elt Ideal)) (a10 : (⟨S1024, .f32⟩ : BufTy).Contents (Elt Ideal)) (a11 : (⟨S1024x2048, .f32⟩ : BufTy).Contents (Elt Ideal)) (a12 : (⟨S1024, .f32⟩ : BufTy).Contents (Elt Ideal)) (a13 : (⟨S1024x2048, .f32⟩ : BufTy).Contents (Elt Ideal)) (a14 : (⟨S1024, .f32⟩ : BufTy).Contents (Elt Ideal)) (a15 : (⟨S1024x2048, .f32⟩ : BufTy).Contents (Elt Ideal)) (a16 : (⟨S1024, .f32⟩ : BufTy).Contents (Elt Ideal)) (a17 : (⟨S1024x2048, .f32⟩ : BufTy).Contents (Elt Ideal)) (a18 : (⟨S1024, .f32⟩ : BufTy).Contents (Elt Ideal)) (a19 : (⟨S1024x2048, .f32⟩ : BufTy).Contents (Elt Ideal)) (a20 : (⟨S1024, .f32⟩ : BufTy).Contents (Elt Ideal)) (a21 : (⟨S2048x1024, .f32⟩ : BufTy).Contents (Elt Ideal)) (a22 : (⟨S2048, .f32⟩ : BufTy).Contents (Elt Ideal)) (a23 : (⟨S1024x2048, .f32⟩ : BufTy).Contents (Elt Ideal)) (a24 : (⟨S1024, .f32⟩ : BufTy).Contents (Elt Ideal)) :
    val_main_v89 (F := Ideal) a0 a1 a2 a4 a9 a10 a11 a12 a13 a14 a15 a16 a17 a18 = Spec.arrOf (Spec.c2 (Spec.argsOf a0 a1 a2 a3 a4 a5 a6 a7 a8 a9 a10 a11 a12 a13 a14 a15 a16 a17 a18 a19 a20 a21 a22 a23 a24)) := by
  rw [cell2C, h1_eq a0 a1 a2 a3 a4 a5 a6 a7 a8 a9 a10 a11 a12 a13 a14 a15 a16 a17 a18 a19 a20 a21 a22 a23 a24, cellC_eq, matOf_arrOf]
  rfl

theorem out_eq (a0 : (⟨S4096x1024, .f32⟩ : BufTy).Contents (Elt Ideal)) (a1 : (⟨S4096x1024, .f32⟩ : BufTy).Contents (Elt Ideal)) (a2 : (⟨S4096x1024, .f32⟩ : BufTy).Contents (Elt Ideal)) (a3 : (⟨S4096x1024, .f32⟩ : BufTy).Contents (Elt Ideal)) (a4 : (⟨S4096x1024, .f32⟩ : BufTy).Contents (Elt Ideal)) (a5 : (⟨S1024x2048, .f32⟩ : BufTy).Contents (Elt Ideal)) (a6 : (⟨S1024, .f32⟩ : BufTy).Contents (Elt Ideal)) (a7 : (⟨S1024x2048, .f32⟩ : BufTy).Contents (Elt Ideal)) (a8 : (⟨S1024, .f32⟩ : BufTy).Contents (Elt Ideal)) (a9 : (⟨S1024x2048, .f32⟩ : BufTy).Contents (Elt Ideal)) (a10 : (⟨S1024, .f32⟩ : BufTy).Contents (Elt Ideal)) (a11 : (⟨S1024x2048, .f32⟩ : BufTy).Contents (Elt Ideal)) (a12 : (⟨S1024, .f32⟩ : BufTy).Contents (Elt Ideal)) (a13 : (⟨S1024x2048, .f32⟩ : BufTy).Contents (Elt Ideal)) (a14 : (⟨S1024, .f32⟩ : BufTy).Contents (Elt Ideal)) (a15 : (⟨S1024x2048, .f32⟩ : BufTy).Contents (Elt Ideal)) (a16 : (⟨S1024, .f32⟩ : BufTy).Contents (Elt Ideal)) (a17 : (⟨S1024x2048, .f32⟩ : BufTy).Contents (Elt Ideal)) (a18 : (⟨S1024, .f32⟩ : BufTy).Contents (Elt Ideal)) (a19 : (⟨S1024x2048, .f32⟩ : BufTy).Contents (Elt Ideal)) (a20 : (⟨S1024, .f32⟩ : BufTy).Contents (Elt Ideal)) (a21 : (⟨S2048x1024, .f32⟩ : BufTy).Contents (Elt Ideal)) (a22 : (⟨S2048, .f32⟩ : BufTy).Contents (Elt Ideal)) (a23 : (⟨S1024x2048, .f32⟩ : BufTy).Contents (Elt Ideal)) (a24 : (⟨S1024, .f32⟩ : BufTy).Contents (Elt Ideal)) :
    val_main_v100 (F := Ideal) a0 a1 a2 a9 a10 a11 a12 a17 a18 a19 a20 a21 a22 a23 a24 = Spec.arrOf (Spec.out (Spec.argsOf a0 a1 a2 a3 a4 a5 a6 a7 a8 a9 a10 a11 a12 a13 a14 a15 a16 a17 a18 a19 a20 a21 a22 a23 a24)) := by
  rw [head_eq, h2_eq a0 a1 a2 a3 a4 a5 a6 a7 a8 a9 a10 a11 a12 a13 a14 a15 a16 a17 a18 a19 a20 a21 a22 a23 a24, matOf_arrOf]
  rfl

/-! ## The run -/

/-- The specification's arguments read off a memory's twenty-five argument buffers on a device. -/
def A (m' : (ℓ : Loc nD τ sig) → Buf (Elt Ideal) ℓ) (c : Dev nD) : Spec.Args :=
  Spec.argsOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24))

/-- Every weakly fair execution of the reference terminates with its five results at the specification's arrays of
    the arguments and the arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
        r.2.mem ((c.tc : Thread nD τ).loc main_v100) = Spec.arrOf (Spec.out (A m' c))
      ∧ r.2.mem ((c.tc : Thread nD τ).loc main_v41) = Spec.arrOf (Spec.h1 (A m' c))
      ∧ r.2.mem ((c.tc : Thread nD τ).loc main_v86) = Spec.arrOf (Spec.h2 (A m' c))
      ∧ r.2.mem ((c.tc : Thread nD τ).loc main_v44) = Spec.arrOf (Spec.c1 (A m' c))
      ∧ r.2.mem ((c.tc : Thread nD τ).loc main_v89) = Spec.arrOf (Spec.c2 (A m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)) :=
  (θ_run (defs (F := Ideal)) _ _).mono (fun _ h c =>
    ⟨(h c).1.trans ((val_main_v100_eq m' c).trans (out_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)))),
      (h c).2.1.trans ((val_main_v41_eq (m' ((c.tc : Thread nD τ).loc main_arg0)) (m' ((c.tc : Thread nD τ).loc main_arg1)) (m' ((c.tc : Thread nD τ).loc main_arg9)) (m' ((c.tc : Thread nD τ).loc main_arg10)) (m' ((c.tc : Thread nD τ).loc main_arg11)) (m' ((c.tc : Thread nD τ).loc main_arg12))).trans (h1_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)))),
      (h c).2.2.1.trans ((val_main_v86_eq (m' ((c.tc : Thread nD τ).loc main_arg0)) (m' ((c.tc : Thread nD τ).loc main_arg1)) (m' ((c.tc : Thread nD τ).loc main_arg2)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg17)) (m' ((c.tc : Thread nD τ).loc main_arg18)) (m' ((c.tc : Thread nD τ).loc main_arg19)) (m' ((c.tc : Thread nD τ).loc main_arg20))).trans (h2_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)))),
      (h c).2.2.2.1.trans ((val_main_v44_eq (m' ((c.tc : Thread nD τ).loc main_arg0)) (m' ((c.tc : Thread nD τ).loc main_arg1)) (m' ((c.tc : Thread nD τ).loc main_arg3)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))).trans (c1_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)))),
      (h c).2.2.2.2.1.trans ((val_main_v89_eq m' c).trans (c2_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)))),
      (h c).2.2.2.2.2⟩)
    (Cert.ReferenceIdeal.Value.run (F := Ideal) m' ρ')

end Cert.RefSide

end
-- ==== Proof.lean ====
/-
  Two stacked recurrent cells with a double hyperbolic tangent and a two-layer rectified head, a kernel of two
  pallas_calls against a plain reference, equal at the exact instance.

  The kernel packs each cell's four gate weights into one [4096, 2048] array and splits its columns into the part
  that multiplies the input and the part that multiplies the recurrent state; a gate's pre-activation is then
  (input row · first half of the weight row) + (recurrent row · second half) + bias. The reference concatenates
  input and recurrent state and contracts the 2048 columns at once. The two agree because a sum over 2048 terms is
  the sum over its first 1024 plus the sum over its last 1024 — a law of any commutative monoid, which the
  extended reals are under addition — so no finiteness of the inputs is used. Rounding to a narrower format is the
  identity at the exact instance, the logistic function is one function whether printed as one operation or as
  1 / (1 + e^(-x)), and the rectifier is a maximum with zero on both sides.

  The frames: each pallas_call's body loads whole staging buffers and stores whole blocks that are pure functions
  of the loads; the calls' arrays are split out of the thread state and put back; the host operations write only
  their own results; so every argument array ends as launched.
-/
import proofs.«125369_j48885317763708_2_alg».proof.Defs
import proofs.«125369_j48885317763708_2_alg».proof.Proof.Gen.Kernel
import proofs.«125369_j48885317763708_2_alg».proof.Proof.Gen.KernelIdeal
import proofs.«125369_j48885317763708_2_alg».proof.Proof.Gen.ReferenceIdeal
import proofs.«125369_j48885317763708_2_alg».proof.Proof.Gen.Pre_finite_inputs
import proofs.«125369_j48885317763708_2_alg».proof.Proof.KFrame
import proofs.«125369_j48885317763708_2_alg».proof.Proof.KiFrame
import proofs.«125369_j48885317763708_2_alg».proof.Proof.KiAlg
import proofs.«125369_j48885317763708_2_alg».proof.Proof.RefSide
import Idealize.ShloMosaic.Adequacy
import Idealize.ShloMosaic.Init

noncomputable section

namespace Cert.Proof

open Idealize.ShloMosaic Idealize.SL.Sem

/-- The word-level kernel runs to its end and leaves its arguments as launched. -/
theorem frame_k : Cert.frame_Kernel := fun m ρ _ => Cert.Kernel.Hand.frameH m ρ

/-- So does the same text read at the exact instance. -/
theorem frame_ki : Cert.frame_KernelIdeal := fun m ρ _ => Cert.KernelIdeal.Hand.frameH m ρ

/-- So does the reference at the exact instance: its run with the results dropped. -/
theorem frame_r : Cert.frame_ReferenceIdeal := fun m ρ _ =>
  (θ_run Cert.ReferenceIdeal.defs _ _).mono (fun _ h c => (h c).2.2.2.2.2) (Cert.RefSide.run m ρ)

/-- The exact-instance text is the word-level text unchanged: nothing to preserve. -/
theorem preserves : Cert.preserves_Kernel_KernelIdeal := trivial

/-- At the exact instance both programs end with the specification's five arrays of the arguments; memories that agree on the
    arguments give the same arguments to the specification. -/
theorem algebraic : Cert.algebraic_KernelIdeal_ReferenceIdeal := by
  intro m ρ m' ρ' _ hagree
  refine ⟨fun c => Cert.Spec.arrOf (Cert.Spec.out (Cert.KernelIdeal.Hand.AK m c)),
    fun c => Cert.Spec.arrOf (Cert.Spec.h1 (Cert.KernelIdeal.Hand.AK m c)),
    fun c => Cert.Spec.arrOf (Cert.Spec.h2 (Cert.KernelIdeal.Hand.AK m c)),
    fun c => Cert.Spec.arrOf (Cert.Spec.c1 (Cert.KernelIdeal.Hand.AK m c)),
    fun c => Cert.Spec.arrOf (Cert.Spec.c2 (Cert.KernelIdeal.Hand.AK m c)),
    Cert.KernelIdeal.Hand.kernel_run m ρ, ?_⟩
  refine (θ_run Cert.ReferenceIdeal.defs _ _).mono (fun r h c => ?_) (Cert.RefSide.run m' ρ')
  have hA : Cert.RefSide.A m' c = Cert.KernelIdeal.Hand.AK m c := by
    obtain ⟨e0, e1, e2, e3, e4, e5, e6, e7, e8, e9, e10, e11, e12, e13, e14, e15, e16, e17, e18, e19, e20, e21, e22, e23, e24⟩ := hagree c
    unfold Cert.RefSide.A Cert.KernelIdeal.Hand.AK
    rw [e0, e1, e2, e3, e4, e5, e6, e7, e8, e9, e10, e11, e12, e13, e14, e15, e16, e17, e18, e19, e20, e21, e22, e23, e24]
  have hc := h c
  rw [hA] at hc
  exact hc

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
